-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v809) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x16 : Shape := ⟨4, ![64, 256, 256, 16]⟩
abbrev S65536x28 : Shape := ⟨2, ![65536, 28]⟩
abbrev S65536x8 : Shape := ⟨2, ![65536, 8]⟩
abbrev S_ : Shape := ⟨0, ![]⟩

class Facts : Prop where
  bcast_S_S64x256x256x16 : S_.BroadcastsInDim S64x256x256x16 (![] : Fin 0 → Fin S64x256x256x16.rank)
  reducesTo_S64x256x256x16_S_d0_1_2_3 : S64x256x256x16.ReducesTo [0, 1, 2, 3] S_
  h_S_ : 0 < S_.numel
  bcast_S_S65536x28 : S_.BroadcastsInDim S65536x28 (![] : Fin 0 → Fin S65536x28.rank)
  reducesTo_S65536x28_S_d0_1 : S65536x28.ReducesTo [0, 1] S_
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S64x256x256x16 .f32) (main_arg1 : FVec F S65536x28 .f32) (main_arg2 : FVec F S65536x8 .f32) : IVec S_ 1 :=
  let main_v0 : FVec F S64x256x256x16 .f32 := Host.absf main_arg0
  let main_cst : FVec F S_ .f32 := constant S_ .f32 0x7F800000#32
  let main_v1 : FVec F S64x256x256x16 .f32 := broadcastInDim S64x256x256x16 ![] bcast_S_S64x256x256x16 main_cst
  let main_v2 : IVec S64x256x256x16 1 := cmpf .olt main_v0 main_v1
  let main_c : IVec S_ 1 := constantI S_ 1 1#1
  let main_v3 : IVec S_ 1 := (fun x v => Host.reduce IntOp.andi x v reducesTo_S64x256x256x16_S_d0_1_2_3 h_S_) main_v2 main_c
  let main_v4 : FVec F S65536x28 .f32 := Host.absf main_arg1
  let main_cst_0 : FVec F S_ .f32 := constant S_ .f32 0x7F800000#32
  let main_v5 : FVec F S65536x28 .f32 := broadcastInDim S65536x28 ![] bcast_S_S65536x28 main_cst_0
  let main_v6 : IVec S65536x28 1 := cmpf .olt main_v4 main_v5
  let main_c_1 : IVec S_ 1 := constantI S_ 1 1#1
  let main_v7 : IVec S_ 1 := (fun x v => Host.reduce IntOp.andi x v reducesTo_S65536x28_S_d0_1 h_S_) main_v6 main_c_1
  let main_v8 : IVec S_ 1 := andi main_v3 main_v7
  let main_v9 : FVec F S65536x8 .f32 := Host.absf main_arg2
  let main_cst_2 : FVec F S_ .f32 := constant S_ .f32 0x7F800000#32
  let main_v10 : FVec F S65536x8 .f32 := broadcastInDim S65536x8 ![] bcast_S_S65536x8 main_cst_2
  let main_v11 : IVec S65536x8 1 := cmpf .olt main_v9 main_v10
  let main_c_3 : IVec S_ 1 := constantI S_ 1 1#1
  let main_v12 : IVec S_ 1 := (fun x v => Host.reduce IntOp.andi x v reducesTo_S65536x8_S_d0_1 h_S_) main_v11 main_c_3
  let main_v13 : IVec S_ 1 := andi main_v8 main_v12
  main_v13
-- ==== Kernel.lean ====
abbrev S64x256x256x16 : Shape := ⟨4, ![64, 256, 256, 16]⟩
abbrev S65536x28 : Shape := ⟨2, ![65536, 28]⟩
abbrev S65536x8 : Shape := ⟨2, ![65536, 8]⟩
abbrev S256x256x28 : Shape := ⟨3, ![256, 256, 28]⟩
abbrev S256x256x8 : Shape := ⟨3, ![256, 256, 8]⟩
abbrev S64x4x256x16 : Shape := ⟨4, ![64, 4, 256, 16]⟩
abbrev S4x256x28 : Shape := ⟨3, ![4, 256, 28]⟩
abbrev S4x256x8 : Shape := ⟨3, ![4, 256, 8]⟩
abbrev S64x4x256x8 : Shape := ⟨4, ![64, 4, 256, 8]⟩
abbrev S1x4x256x1 : Shape := ⟨4, ![1, 4, 256, 1]⟩
abbrev S4x256 : Shape := ⟨2, ![4, 256]⟩
abbrev S4x256x1 : Shape := ⟨3, ![4, 256, 1]⟩

abbrev nBuf : Space → Nat
  | .hbm => 6
  | .vmem => 8
  | .smem => 0
  | _ => 0

abbrev bufTy : (tb : Table) → Fin (tcTables nBuf tb) → BufTy
  | .hbm, ⟨0, _⟩ => ⟨S64x256x256x16, .f32⟩
  | .hbm, ⟨1, _⟩ => ⟨S65536x28, .f32⟩
  | .hbm, ⟨2, _⟩ => ⟨S65536x8, .f32⟩
  | .hbm, ⟨3, _⟩ => ⟨S256x256x28, .f32⟩
  | .hbm, ⟨4, _⟩ => ⟨S256x256x8, .f32⟩
  | .hbm, ⟨5, _⟩ => ⟨S64x256x256x16, .f32⟩
  | .local _ .vmem, ⟨0, _⟩ => ⟨S64x4x256x16, .f32⟩
  | .local _ .vmem, ⟨1, _⟩ => ⟨S64x4x256x16, .f32⟩
  | .local _ .vmem, ⟨2, _⟩ => ⟨S4x256x28, .f32⟩
  | .local _ .vmem, ⟨3, _⟩ => ⟨S4x256x28, .f32⟩
  | .local _ .vmem, ⟨4, _⟩ => ⟨S4x256x8, .f32⟩
  | .local _ .vmem, ⟨5, _⟩ => ⟨S4x256x8, .f32⟩
  | .local _ .vmem, ⟨6, _⟩ => ⟨S64x4x256x16, .f32⟩
  | .local _ .vmem, ⟨7, _⟩ => ⟨S64x4x256x16, .f32⟩
  | _, _ => ⟨S64x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c64_i32 : BitVec 32 := 64#32
  let v10 : BitVec 32 := Scalar.addi c0_i32 c64_i32
  let c1_i32 : BitVec 32 := 1#32
  ⟨c0_i32, v10, c1_i32⟩
def k0_off1 (k0_t1 : Fin k0_t1_loop.trips) : Fin 4 → Nat :=
  let c0_i32 : BitVec 32 := 0#32
  let c1_i32 : BitVec 32 := 1#32
  let arg5 : BitVec 32 := Scf.iv c0_i32 c1_i32 k0_t1
  let v11 : Index := Scalar.indexCast arg5
  let c0_17 : Index := 0#32
  let c0_18 : Index := 0#32
  let c8 : Index := 8#32
  ![v11.toNat, 0, 0, 8]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v14 : Index := Scalar.indexCast arg5
  let c0_19 : Index := 0#32
  let c0_20 : Index := 0#32
  let c9 : Index := 9#32
  ![v14.toNat, 0, 0, 9]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v17 : Index := Scalar.indexCast arg5
  let c0_21 : Index := 0#32
  let c0_22 : Index := 0#32
  let c10 : Index := 10#32
  ![v17.toNat, 0, 0, 10]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v20 : Index := Scalar.indexCast arg5
  let c0_23 : Index := 0#32
  let c0_24 : Index := 0#32
  let c11 : Index := 11#32
  ![v20.toNat, 0, 0, 11]
def k0_off5 (k0_t1 : Fin k0_t1_loop.trips) : Fin 4 → Nat :=
  let c0_i32 : BitVec 32 := 0#32
  let c1_i32 : BitVec 32 := 1#32
  let arg5 : BitVec 32 := Scf.iv c0_i32 c1_i32 k0_t1
  let v23 : Index := Scalar.indexCast arg5
  let c0_25 : Index := 0#32
  let c0_26 : Index := 0#32
  let c12 : Index := 12#32
  ![v23.toNat, 0, 0, 12]
def k0_off6 (k0_t1 : Fin k0_t1_loop.trips) : Fin 4 → Nat :=
  let c0_i32 : BitVec 32 := 0#32
  let c1_i32 : BitVec 32 := 1#32
  let arg5 : BitVec 32 := Scf.iv c0_i32 c1_i32 k0_t1
  let v26 : Index := Scalar.indexCast arg5
  let c0_27 : Index := 0#32
  let c0_28 : Index := 0#32
  let c13 : Index := 13#32
  ![v26.toNat, 0, 0, 13]
def k0_off7 (k0_t1 : Fin k0_t1_loop.trips) : Fin 4 → Nat :=
  let c0_i32 : BitVec 32 := 0#32
  let c1_i32 : BitVec 32 := 1#32
  let arg5 : BitVec 32 := Scf.iv c0_i32 c1_i32 k0_t1
  let v29 : Index := Scalar.indexCast arg5
  let c0_29 : Index := 0#32
  let c0_30 : Index := 0#32
  let c14 : Index := 14#32
  ![v29.toNat, 0, 0, 14]
def k0_off8 (k0_t1 : Fin k0_t1_loop.trips) : Fin 4 → Nat :=
  let c0_i32 : BitVec 32 := 0#32
  let c1_i32 : BitVec 32 := 1#32
  let arg5 : BitVec 32 := Scf.iv c0_i32 c1_i32 k0_t1
  let v32 : Index := Scalar.indexCast arg5
  let c0_31 : Index := 0#32
  let c0_32 : Index := 0#32
  let c15 : Index := 15#32
  ![v32.toNat, 0, 0, 15]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x4x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536x28_S256x256x28 : S65536x28.ShapeCasts S256x256x28
  shapeCasts_S65536x8_S256x256x8 : S65536x8.ShapeCasts S256x256x8
  inb_S64x4x256x16_S64x4x256x8_0_0_0_0 : ∀ a, (![0, 0, 0, 0] : Fin 4 → Nat) a + S64x4x256x8.size a ≤ S64x4x256x16.size a
  h_S64x4x256x8 : 0 < S64x4x256x8.numel
  inb_S4x256x28_S4x256x28_0_0_0 : ∀ a, (![0, 0, 0] : Fin 3 → Nat) a + S4x256x28.size a ≤ S4x256x28.size a
  h_S4x256x28 : 0 < S4x256x28.numel
  shapeCasts_S4x256x28_S4x256x28 : S4x256x28.ShapeCasts S4x256x28
  inb_S4x256x8_S4x256x8_0_0_0 : ∀ a, (![0, 0, 0] : Fin 3 → Nat) a + S4x256x8.size a ≤ S4x256x8.size a
  h_S4x256x8 : 0 < S4x256x8.numel
  shapeCasts_S4x256x8_S4x256x8 : S4x256x8.ShapeCasts S4x256x8
  h_S1x4x256x1 : 0 < S1x4x256x1.numel
  shapeCasts_S1x4x256x1_S4x256 : S1x4x256x1.ShapeCasts S4x256
  slices_S4x256x8_o0_0_0_S4x256x1 : S4x256x8.Slices ![0, 0, 0] S4x256x1
  shapeCasts_S4x256x1_S4x256 : S4x256x1.ShapeCasts S4x256
  slices_S4x256x8_o0_0_1_S4x256x1 : S4x256x8.Slices ![0, 0, 1] S4x256x1
  slices_S4x256x8_o0_0_2_S4x256x1 : S4x256x8.Slices ![0, 0, 2] S4x256x1
  slices_S4x256x8_o0_0_3_S4x256x1 : S4x256x8.Slices ![0, 0, 3] S4x256x1
  slices_S4x256x8_o0_0_4_S4x256x1 : S4x256x8.Slices ![0, 0, 4] S4x256x1
  slices_S4x256x8_o0_0_5_S4x256x1 : S4x256x8.Slices ![0, 0, 5] S4x256x1
  slices_S4x256x8_o0_0_6_S4x256x1 : S4x256x8.Slices ![0, 0, 6] S4x256x1
  slices_S4x256x8_o0_0_7_S4x256x1 : S4x256x8.Slices ![0, 0, 7] S4x256x1
  slices_S4x256x28_o0_0_27_S4x256x1 : S4x256x28.Slices ![0, 0, 27] S4x256x1
  slices_S4x256x28_o0_0_26_S4x256x1 : S4x256x28.Slices ![0, 0, 26] S4x256x1
  slices_S4x256x28_o0_0_25_S4x256x1 : S4x256x28.Slices ![0, 0, 25] S4x256x1
  slices_S4x256x28_o0_0_24_S4x256x1 : S4x256x28.Slices ![0, 0, 24] S4x256x1
  slices_S4x256x28_o0_0_23_S4x256x1 : S4x256x28.Slices ![0, 0, 23] S4x256x1
  slices_S4x256x28_o0_0_22_S4x256x1 : S4x256x28.Slices ![0, 0, 22] S4x256x1
  slices_S4x256x28_o0_0_21_S4x256x1 : S4x256x28.Slices ![0, 0, 21] S4x256x1
  slices_S4x256x28_o0_0_20_S4x256x1 : S4x256x28.Slices ![0, 0, 20] S4x256x1
  slices_S4x256x28_o0_0_19_S4x256x1 : S4x256x28.Slices ![0, 0, 19] S4x256x1
  slices_S4x256x28_o0_0_18_S4x256x1 : S4x256x28.Slices ![0, 0, 18] S4x256x1
  slices_S4x256x28_o0_0_17_S4x256x1 : S4x256x28.Slices ![0, 0, 17] S4x256x1
  slices_S4x256x28_o0_0_16_S4x256x1 : S4x256x28.Slices ![0, 0, 16] S4x256x1
  slices_S4x256x28_o0_0_15_S4x256x1 : S4x256x28.Slices ![0, 0, 15] S4x256x1
  slices_S4x256x28_o0_0_14_S4x256x1 : S4x256x28.Slices ![0, 0, 14] S4x256x1
  slices_S4x256x28_o0_0_13_S4x256x1 : S4x256x28.Slices ![0, 0, 13] S4x256x1
  slices_S4x256x28_o0_0_12_S4x256x1 : S4x256x28.Slices ![0, 0, 12] S4x256x1
  slices_S4x256x28_o0_0_11_S4x256x1 : S4x256x28.Slices ![0, 0, 11] S4x256x1
  slices_S4x256x28_o0_0_10_S4x256x1 : S4x256x28.Slices ![0, 0, 10] S4x256x1
  slices_S4x256x28_o0_0_9_S4x256x1 : S4x256x28.Slices ![0, 0, 9] S4x256x1
  slices_S4x256x28_o0_0_8_S4x256x1 : S4x256x28.Slices ![0, 0, 8] S4x256x1
  slices_S4x256x28_o0_0_7_S4x256x1 : S4x256x28.Slices ![0, 0, 7] S4x256x1
  slices_S4x256x28_o0_0_6_S4x256x1 : S4x256x28.Slices ![0, 0, 6] S4x256x1
  slices_S4x256x28_o0_0_5_S4x256x1 : S4x256x28.Slices ![0, 0, 5] S4x256x1
  slices_S4x256x28_o0_0_4_S4x256x1 : S4x256x28.Slices ![0, 0, 4] S4x256x1
  slices_S4x256x28_o0_0_3_S4x256x1 : S4x256x28.Slices ![0, 0, 3] S4x256x1
  slices_S4x256x28_o0_0_2_S4x256x1 : S4x256x28.Slices ![0, 0, 2] S4x256x1
  slices_S4x256x28_o0_0_1_S4x256x1 : S4x256x28.Slices ![0, 0, 1] S4x256x1
  slices_S4x256x28_o0_0_0_S4x256x1 : S4x256x28.Slices ![0, 0, 0] S4x256x1
  shapeCasts_S4x256_S1x4x256x1 : S4x256.ShapeCasts S1x4x256x1
  hrank0 : 0 < grid0.rank
  k0_t1_ok : k0_t1_loop.OK
  k0_off1_inb : ∀ k0_t1 : Fin k0_t1_loop.trips, ∀ a, (k0_off1 k0_t1) a + S1x4x256x1.size a ≤ S64x4x256x16.size a
  k0_off2_inb : ∀ k0_t1 : Fin k0_t1_loop.trips, ∀ a, (k0_off2 k0_t1) a + S1x4x256x1.size a ≤ S64x4x256x16.size a
  k0_off3_inb : ∀ k0_t1 : Fin k0_t1_loop.trips, ∀ a, (k0_off3 k0_t1) a + S1x4x256x1.size a ≤ S64x4x256x16.size a
  k0_off4_inb : ∀ k0_t1 : Fin k0_t1_loop.trips, ∀ a, (k0_off4 k0_t1) a + S1x4x256x1.size a ≤ S64x4x256x16.size a
  k0_off5_inb : ∀ k0_t1 : Fin k0_t1_loop.trips, ∀ a, (k0_off5 k0_t1) a + S1x4x256x1.size a ≤ S64x4x256x16.size a
  k0_off6_inb : ∀ k0_t1 : Fin k0_t1_loop.trips, ∀ a, (k0_off6 k0_t1) a + S1x4x256x1.size a ≤ S64x4x256x16.size a
  k0_off7_inb : ∀ k0_t1 : Fin k0_t1_loop.trips, ∀ a, (k0_off7 k0_t1) a + S1x4x256x1.size a ≤ S64x4x256x16.size a
  k0_off8_inb : ∀ k0_t1 : Fin k0_t1_loop.trips, ∀ a, (k0_off8 k0_t1) a + S1x4x256x1.size a ≤ S64x4x256x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x256x16.size a ≤ S64x256x256x16.size a
  hwx0_0 : ∀ i : grid0.Coords, EltTy.bits .f32 = 32 ∨ (Rect.block (s := S64x256x256x16) S64x4x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x28.size a ≤ S256x256x28.size a
  hwx0_1 : ∀ i : grid0.Coords, EltTy.bits .f32 = 32 ∨ (Rect.block (s := S256x256x28) S4x256x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x8.size a ≤ S256x256x8.size a
  hwx0_2 : ∀ i : grid0.Coords, EltTy.bits .f32 = 32 ∨ (Rect.block (s := S256x256x8) S4x256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4x256x16.size a ≤ S64x256x256x16.size a
  hwx0_3 : ∀ i : grid0.Coords, EltTy.bits .f32 = 32 ∨ (Rect.block (s := S64x256x256x16) S64x4x256x16.size (cc0_transform_3 i) (hinb0_3 i)).WholeWords (EltTy.packing .f32)

variable [Facts₀]

abbrev win0_0 : Pipeline.Window sig grid0 :=
  Pipeline.Window.ofSpec (Memref.whole main_arg0) S64x4x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4x256x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x256x16 : Shape := ⟨4, ![64, 256, 256, 16]⟩
abbrev S65536x28 : Shape := ⟨2, ![65536, 28]⟩
abbrev S65536x8 : Shape := ⟨2, ![65536, 8]⟩
abbrev S256x256x16x64 : Shape := ⟨4, ![256, 256, 16, 64]⟩
abbrev S65536x16x64 : Shape := ⟨3, ![65536, 16, 64]⟩
abbrev S65536x8x64 : Shape := ⟨3, ![65536, 8, 64]⟩
abbrev S8x8 : Shape := ⟨2, ![8, 8]⟩
abbrev S_ : Shape := ⟨0, ![]⟩
abbrev S65536x1 : Shape := ⟨2, ![65536, 1]⟩
abbrev S65536 : Shape := ⟨1, ![65536]⟩
abbrev S1x8 : Shape := ⟨2, ![1, 8]⟩
abbrev S8 : Shape := ⟨1, ![8]⟩
abbrev S1 : Shape := ⟨1, ![1]⟩
abbrev S65536x8x8 : Shape := ⟨3, ![65536, 8, 8]⟩
abbrev S65536x1x8 : Shape := ⟨3, ![65536, 1, 8]⟩
abbrev S65536x8x1 : Shape := ⟨3, ![65536, 8, 1]⟩

abbrev nBuf : Space → Nat
  | .hbm => 870
  | .vmem => 0
  | .smem => 0
  | _ => 0

abbrev hbmTy0_0 (i : Nat) : BufTy := match i % 128 with
  | 0 => ⟨S64x256x256x16, .f32⟩
  | 1 => ⟨S65536x28, .f32⟩
  | 2 => ⟨S65536x8, .f32⟩
  | 3 => ⟨S256x256x16x64, .f32⟩
  | 4 => ⟨S65536x16x64, .f32⟩
  | 5 => ⟨S65536x8x64, .f32⟩
  | 6 => ⟨S8x8, .i32⟩
  | 7 => ⟨S8x8, .i32⟩
  | 8 => ⟨S_, .i32⟩
  | 9 => ⟨S8x8, .i32⟩
  | 10 => ⟨S8x8, .i32⟩
  | 11 => ⟨S8x8, .i1⟩
  | 12 => ⟨S8x8, .f32⟩
  | 13 => ⟨S65536x1, .f32⟩
  | 14 => ⟨S65536, .f32⟩
  | 15 => ⟨S65536, .f32⟩
  | 16 => ⟨S65536x1, .f32⟩
  | 17 => ⟨S65536, .f32⟩
  | 18 => ⟨S65536, .f32⟩
  | 19 => ⟨S1x8, .f32⟩
  | 20 => ⟨S8, .f32⟩
  | 21 => ⟨S1x8, .f32⟩
  | 22 => ⟨S8, .f32⟩
  | 23 => ⟨S1x8, .f32⟩
  | 24 => ⟨S65536x1, .f32⟩
  | 25 => ⟨S65536x8, .f32⟩
  | 26 => ⟨S65536x8, .f32⟩
  | 27 => ⟨S65536x8, .f32⟩
  | 28 => ⟨S1x8, .f32⟩
  | 29 => ⟨S65536x1, .f32⟩
  | 30 => ⟨S65536x8, .f32⟩
  | 31 => ⟨S65536x8, .f32⟩
  | 32 => ⟨S65536x8, .f32⟩
  | 33 => ⟨S65536x8, .f32⟩
  | 34 => ⟨S_, .i32⟩
  | 35 => ⟨S1, .i32⟩
  | 36 => ⟨S65536x8x8, .f32⟩
  | 37 => ⟨S65536x8x8, .f32⟩
  | 38 => ⟨S1x8, .f32⟩
  | 39 => ⟨S65536x1, .f32⟩
  | 40 => ⟨S65536x8, .f32⟩
  | 41 => ⟨S65536x8, .f32⟩
  | 42 => ⟨S65536x8, .f32⟩
  | 43 => ⟨S1x8, .f32⟩
  | 44 => ⟨S65536x1, .f32⟩
  | 45 => ⟨S65536x8, .f32⟩
  | 46 => ⟨S65536x8, .f32⟩
  | 47 => ⟨S65536x8, .f32⟩
  | 48 => ⟨S65536x8, .f32⟩
  | 49 => ⟨S_, .i32⟩
  | 50 => ⟨S1, .i32⟩
  | 51 => ⟨S65536x8x8, .f32⟩
  | 52 => ⟨S65536x1, .f32⟩
  | 53 => ⟨S65536, .f32⟩
  | 54 => ⟨S65536, .f32⟩
  | 55 => ⟨S65536x1, .f32⟩
  | 56 => ⟨S65536, .f32⟩
  | 57 => ⟨S65536, .f32⟩
  | 58 => ⟨S65536x1x8, .f32⟩
  | 59 => ⟨S65536x8, .f32⟩
  | 60 => ⟨S65536x1x8, .f32⟩
  | 61 => ⟨S65536x8, .f32⟩
  | 62 => ⟨S65536x1, .f32⟩
  | 63 => ⟨S65536x8, .f32⟩
  | 64 => ⟨S65536x8, .f32⟩
  | 65 => ⟨S65536x1, .f32⟩
  | 66 => ⟨S65536x8, .f32⟩
  | 67 => ⟨S65536x8, .f32⟩
  | 68 => ⟨S65536x8, .f32⟩
  | 69 => ⟨S_, .i32⟩
  | 70 => ⟨S1, .i32⟩
  | 71 => ⟨S65536x8x8, .f32⟩
  | 72 => ⟨S65536x1, .f32⟩
  | 73 => ⟨S65536x8, .f32⟩
  | 74 => ⟨S65536x8, .f32⟩
  | 75 => ⟨S65536x1, .f32⟩
  | 76 => ⟨S65536x8, .f32⟩
  | 77 => ⟨S65536x8, .f32⟩
  | 78 => ⟨S65536x8, .f32⟩
  | 79 => ⟨S_, .i32⟩
  | 80 => ⟨S1, .i32⟩
  | 81 => ⟨S65536x8x8, .f32⟩
  | 82 => ⟨S65536x1, .f32⟩
  | 83 => ⟨S65536, .f32⟩
  | 84 => ⟨S65536, .f32⟩
  | 85 => ⟨S65536x1, .f32⟩
  | 86 => ⟨S65536, .f32⟩
  | 87 => ⟨S65536, .f32⟩
  | 88 => ⟨S65536x1x8, .f32⟩
  | 89 => ⟨S65536x8, .f32⟩
  | 90 => ⟨S65536x1x8, .f32⟩
  | 91 => ⟨S65536x8, .f32⟩
  | 92 => ⟨S65536x1, .f32⟩
  | 93 => ⟨S65536x8, .f32⟩
  | 94 => ⟨S65536x8, .f32⟩
  | 95 => ⟨S65536x1, .f32⟩
  | 96 => ⟨S65536x8, .f32⟩
  | 97 => ⟨S65536x8, .f32⟩
  | 98 => ⟨S65536x8, .f32⟩
  | 99 => ⟨S_, .i32⟩
  | 100 => ⟨S1, .i32⟩
  | 101 => ⟨S65536x8x8, .f32⟩
  | 102 => ⟨S65536x1, .f32⟩
  | 103 => ⟨S65536x8, .f32⟩
  | 104 => ⟨S65536x8, .f32⟩
  | 105 => ⟨S65536x1, .f32⟩
  | 106 => ⟨S65536x8, .f32⟩
  | 107 => ⟨S65536x8, .f32⟩
  | 108 => ⟨S65536x8, .f32⟩
  | 109 => ⟨S_, .i32⟩
  | 110 => ⟨S1, .i32⟩
  | 111 => ⟨S65536x8x8, .f32⟩
  | 112 => ⟨S65536x1, .f32⟩
  | 113 => ⟨S65536, .f32⟩
  | 114 => ⟨S65536, .f32⟩
  | 115 => ⟨S65536x1, .f32⟩
  | 116 => ⟨S65536, .f32⟩
  | 117 => ⟨S65536, .f32⟩
  | 118 => ⟨S65536x1x8, .f32⟩
  | 119 => ⟨S65536x8, .f32⟩
  | 120 => ⟨S65536x1x8, .f32⟩
  | 121 => ⟨S65536x8, .f32⟩
  | 122 => ⟨S65536x1, .f32⟩
  | 123 => ⟨S65536x8, .f32⟩
  | 124 => ⟨S65536x8, .f32⟩
  | 125 => ⟨S65536x1, .f32⟩
  | 126 => ⟨S65536x8, .f32⟩
  | 127 => ⟨S65536x8, .f32⟩
  | _ => ⟨S64x256x256x16, .f32⟩

abbrev hbmTy0_1 (i : Nat) : BufTy := match i % 128 with
  | 0 => ⟨S65536x8, .f32⟩
  | 1 => ⟨S_, .i32⟩
  | 2 => ⟨S1, .i32⟩
  | 3 => ⟨S65536x8x8, .f32⟩
  | 4 => ⟨S65536x1, .f32⟩
  | 5 => ⟨S65536x8, .f32⟩
  | 6 => ⟨S65536x8, .f32⟩
  | 7 => ⟨S65536x1, .f32⟩
  | 8 => ⟨S65536x8, .f32⟩
  | 9 => ⟨S65536x8, .f32⟩
  | 10 => ⟨S65536x8, .f32⟩
  | 11 => ⟨S_, .i32⟩
  | 12 => ⟨S1, .i32⟩
  | 13 => ⟨S65536x8x8, .f32⟩
  | 14 => ⟨S65536x1, .f32⟩
  | 15 => ⟨S65536, .f32⟩
  | 16 => ⟨S65536, .f32⟩
  | 17 => ⟨S65536x1, .f32⟩
  | 18 => ⟨S65536, .f32⟩
  | 19 => ⟨S65536, .f32⟩
  | 20 => ⟨S65536x1x8, .f32⟩
  | 21 => ⟨S65536x8, .f32⟩
  | 22 => ⟨S65536x1x8, .f32⟩
  | 23 => ⟨S65536x8, .f32⟩
  | 24 => ⟨S65536x1, .f32⟩
  | 25 => ⟨S65536x8, .f32⟩
  | 26 => ⟨S65536x8, .f32⟩
  | 27 => ⟨S65536x1, .f32⟩
  | 28 => ⟨S65536x8, .f32⟩
  | 29 => ⟨S65536x8, .f32⟩
  | 30 => ⟨S65536x8, .f32⟩
  | 31 => ⟨S_, .i32⟩
  | 32 => ⟨S1, .i32⟩
  | 33 => ⟨S65536x8x8, .f32⟩
  | 34 => ⟨S65536x1, .f32⟩
  | 35 => ⟨S65536x8, .f32⟩
  | 36 => ⟨S65536x8, .f32⟩
  | 37 => ⟨S65536x1, .f32⟩
  | 38 => ⟨S65536x8, .f32⟩
  | 39 => ⟨S65536x8, .f32⟩
  | 40 => ⟨S65536x8, .f32⟩
  | 41 => ⟨S_, .i32⟩
  | 42 => ⟨S1, .i32⟩
  | 43 => ⟨S65536x8x8, .f32⟩
  | 44 => ⟨S65536x1, .f32⟩
  | 45 => ⟨S65536, .f32⟩
  | 46 => ⟨S65536, .f32⟩
  | 47 => ⟨S65536x1, .f32⟩
  | 48 => ⟨S65536, .f32⟩
  | 49 => ⟨S65536, .f32⟩
  | 50 => ⟨S65536x1x8, .f32⟩
  | 51 => ⟨S65536x8, .f32⟩
  | 52 => ⟨S65536x1x8, .f32⟩
  | 53 => ⟨S65536x8, .f32⟩
  | 54 => ⟨S65536x1, .f32⟩
  | 55 => ⟨S65536x8, .f32⟩
  | 56 => ⟨S65536x8, .f32⟩
  | 57 => ⟨S65536x1, .f32⟩
  | 58 => ⟨S65536x8, .f32⟩
  | 59 => ⟨S65536x8, .f32⟩
  | 60 => ⟨S65536x8, .f32⟩
  | 61 => ⟨S_, .i32⟩
  | 62 => ⟨S1, .i32⟩
  | 63 => ⟨S65536x8x8, .f32⟩
  | 64 => ⟨S65536x1, .f32⟩
  | 65 => ⟨S65536x8, .f32⟩
  | 66 => ⟨S65536x8, .f32⟩
  | 67 => ⟨S65536x1, .f32⟩
  | 68 => ⟨S65536x8, .f32⟩
  | 69 => ⟨S65536x8, .f32⟩
  | 70 => ⟨S65536x8, .f32⟩
  | 71 => ⟨S_, .i32⟩
  | 72 => ⟨S1, .i32⟩
  | 73 => ⟨S65536x8x8, .f32⟩
  | 74 => ⟨S65536x1, .f32⟩
  | 75 => ⟨S65536, .f32⟩
  | 76 => ⟨S65536, .f32⟩
  | 77 => ⟨S65536x1, .f32⟩
  | 78 => ⟨S65536, .f32⟩
  | 79 => ⟨S65536, .f32⟩
  | 80 => ⟨S65536x1x8, .f32⟩
  | 81 => ⟨S65536x8, .f32⟩
  | 82 => ⟨S65536x1x8, .f32⟩
  | 83 => ⟨S65536x8, .f32⟩
  | 84 => ⟨S65536x1, .f32⟩
  | 85 => ⟨S65536x8, .f32⟩
  | 86 => ⟨S65536x8, .f32⟩
  | 87 => ⟨S65536x1, .f32⟩
  | 88 => ⟨S65536x8, .f32⟩
  | 89 => ⟨S65536x8, .f32⟩
  | 90 => ⟨S65536x8, .f32⟩
  | 91 => ⟨S_, .i32⟩
  | 92 => ⟨S1, .i32⟩
  | 93 => ⟨S65536x8x8, .f32⟩
  | 94 => ⟨S65536x1, .f32⟩
  | 95 => ⟨S65536x8, .f32⟩
  | 96 => ⟨S65536x8, .f32⟩
  | 97 => ⟨S65536x1, .f32⟩
  | 98 => ⟨S65536x8, .f32⟩
  | 99 => ⟨S65536x8, .f32⟩
  | 100 => ⟨S65536x8, .f32⟩
  | 101 => ⟨S_, .i32⟩
  | 102 => ⟨S1, .i32⟩
  | 103 => ⟨S65536x8x8, .f32⟩
  | 104 => ⟨S65536x1, .f32⟩
  | 105 => ⟨S65536, .f32⟩
  | 106 => ⟨S65536, .f32⟩
  | 107 => ⟨S65536x1, .f32⟩
  | 108 => ⟨S65536, .f32⟩
  | 109 => ⟨S65536, .f32⟩
  | 110 => ⟨S65536x1x8, .f32⟩
  | 111 => ⟨S65536x8, .f32⟩
  | 112 => ⟨S65536x1x8, .f32⟩
  | 113 => ⟨S65536x8, .f32⟩
  | 114 => ⟨S65536x1, .f32⟩
  | 115 => ⟨S65536x8, .f32⟩
  | 116 => ⟨S65536x8, .f32⟩
  | 117 => ⟨S65536x1, .f32⟩
  | 118 => ⟨S65536x8, .f32⟩
  | 119 => ⟨S65536x8, .f32⟩
  | 120 => ⟨S65536x8, .f32⟩
  | 121 => ⟨S_, .i32⟩
  | 122 => ⟨S1, .i32⟩
  | 123 => ⟨S65536x8x8, .f32⟩
  | 124 => ⟨S65536x1, .f32⟩
  | 125 => ⟨S65536x8, .f32⟩
  | 126 => ⟨S65536x8, .f32⟩
  | 127 => ⟨S65536x1, .f32⟩
  | _ => ⟨S64x256x256x16, .f32⟩

abbrev hbmTy0_2 (i : Nat) : BufTy := match i % 128 with
  | 0 => ⟨S65536x8, .f32⟩
  | 1 => ⟨S65536x8, .f32⟩
  | 2 => ⟨S65536x8, .f32⟩
  | 3 => ⟨S_, .i32⟩
  | 4 => ⟨S1, .i32⟩
  | 5 => ⟨S65536x8x8, .f32⟩
  | 6 => ⟨S65536x1, .f32⟩
  | 7 => ⟨S65536, .f32⟩
  | 8 => ⟨S65536, .f32⟩
  | 9 => ⟨S65536x1, .f32⟩
  | 10 => ⟨S65536, .f32⟩
  | 11 => ⟨S65536, .f32⟩
  | 12 => ⟨S65536x1x8, .f32⟩
  | 13 => ⟨S65536x8, .f32⟩
  | 14 => ⟨S65536x1x8, .f32⟩
  | 15 => ⟨S65536x8, .f32⟩
  | 16 => ⟨S65536x1, .f32⟩
  | 17 => ⟨S65536x8, .f32⟩
  | 18 => ⟨S65536x8, .f32⟩
  | 19 => ⟨S65536x1, .f32⟩
  | 20 => ⟨S65536x8, .f32⟩
  | 21 => ⟨S65536x8, .f32⟩
  | 22 => ⟨S65536x8, .f32⟩
  | 23 => ⟨S_, .i32⟩
  | 24 => ⟨S1, .i32⟩
  | 25 => ⟨S65536x8x8, .f32⟩
  | 26 => ⟨S65536x1, .f32⟩
  | 27 => ⟨S65536x8, .f32⟩
  | 28 => ⟨S65536x8, .f32⟩
  | 29 => ⟨S65536x1, .f32⟩
  | 30 => ⟨S65536x8, .f32⟩
  | 31 => ⟨S65536x8, .f32⟩
  | 32 => ⟨S65536x8, .f32⟩
  | 33 => ⟨S_, .i32⟩
  | 34 => ⟨S1, .i32⟩
  | 35 => ⟨S65536x8x8, .f32⟩
  | 36 => ⟨S65536x1, .f32⟩
  | 37 => ⟨S65536, .f32⟩
  | 38 => ⟨S65536, .f32⟩
  | 39 => ⟨S65536x1, .f32⟩
  | 40 => ⟨S65536, .f32⟩
  | 41 => ⟨S65536, .f32⟩
  | 42 => ⟨S65536x1x8, .f32⟩
  | 43 => ⟨S65536x8, .f32⟩
  | 44 => ⟨S65536x1x8, .f32⟩
  | 45 => ⟨S65536x8, .f32⟩
  | 46 => ⟨S65536x1, .f32⟩
  | 47 => ⟨S65536x8, .f32⟩
  | 48 => ⟨S65536x8, .f32⟩
  | 49 => ⟨S65536x1, .f32⟩
  | 50 => ⟨S65536x8, .f32⟩
  | 51 => ⟨S65536x8, .f32⟩
  | 52 => ⟨S65536x8, .f32⟩
  | 53 => ⟨S_, .i32⟩
  | 54 => ⟨S1, .i32⟩
  | 55 => ⟨S65536x8x8, .f32⟩
  | 56 => ⟨S65536x1, .f32⟩
  | 57 => ⟨S65536x8, .f32⟩
  | 58 => ⟨S65536x8, .f32⟩
  | 59 => ⟨S65536x1, .f32⟩
  | 60 => ⟨S65536x8, .f32⟩
  | 61 => ⟨S65536x8, .f32⟩
  | 62 => ⟨S65536x8, .f32⟩
  | 63 => ⟨S_, .i32⟩
  | 64 => ⟨S1, .i32⟩
  | 65 => ⟨S65536x8x8, .f32⟩
  | 66 => ⟨S65536x1, .f32⟩
  | 67 => ⟨S65536, .f32⟩
  | 68 => ⟨S65536, .f32⟩
  | 69 => ⟨S65536x1, .f32⟩
  | 70 => ⟨S65536, .f32⟩
  | 71 => ⟨S65536, .f32⟩
  | 72 => ⟨S65536x1x8, .f32⟩
  | 73 => ⟨S65536x8, .f32⟩
  | 74 => ⟨S65536x1x8, .f32⟩
  | 75 => ⟨S65536x8, .f32⟩
  | 76 => ⟨S65536x1, .f32⟩
  | 77 => ⟨S65536x8, .f32⟩
  | 78 => ⟨S65536x8, .f32⟩
  | 79 => ⟨S65536x1, .f32⟩
  | 80 => ⟨S65536x8, .f32⟩
  | 81 => ⟨S65536x8, .f32⟩
  | 82 => ⟨S65536x8, .f32⟩
  | 83 => ⟨S_, .i32⟩
  | 84 => ⟨S1, .i32⟩
  | 85 => ⟨S65536x8x8, .f32⟩
  | 86 => ⟨S65536x1, .f32⟩
  | 87 => ⟨S65536x8, .f32⟩
  | 88 => ⟨S65536x8, .f32⟩
  | 89 => ⟨S65536x1, .f32⟩
  | 90 => ⟨S65536x8, .f32⟩
  | 91 => ⟨S65536x8, .f32⟩
  | 92 => ⟨S65536x8, .f32⟩
  | 93 => ⟨S_, .i32⟩
  | 94 => ⟨S1, .i32⟩
  | 95 => ⟨S65536x8x8, .f32⟩
  | 96 => ⟨S65536x1, .f32⟩
  | 97 => ⟨S65536, .f32⟩
  | 98 => ⟨S65536, .f32⟩
  | 99 => ⟨S65536x1, .f32⟩
  | 100 => ⟨S65536, .f32⟩
  | 101 => ⟨S65536, .f32⟩
  | 102 => ⟨S65536x1x8, .f32⟩
  | 103 => ⟨S65536x8, .f32⟩
  | 104 => ⟨S65536x1x8, .f32⟩
  | 105 => ⟨S65536x8, .f32⟩
  | 106 => ⟨S65536x1, .f32⟩
  | 107 => ⟨S65536x8, .f32⟩
  | 108 => ⟨S65536x8, .f32⟩
  | 109 => ⟨S65536x1, .f32⟩
  | 110 => ⟨S65536x8, .f32⟩
  | 111 => ⟨S65536x8, .f32⟩
  | 112 => ⟨S65536x8, .f32⟩
  | 113 => ⟨S_, .i32⟩
  | 114 => ⟨S1, .i32⟩
  | 115 => ⟨S65536x8x8, .f32⟩
  | 116 => ⟨S65536x1, .f32⟩
  | 117 => ⟨S65536x8, .f32⟩
  | 118 => ⟨S65536x8, .f32⟩
  | 119 => ⟨S65536x1, .f32⟩
  | 120 => ⟨S65536x8, .f32⟩
  | 121 => ⟨S65536x8, .f32⟩
  | 122 => ⟨S65536x8, .f32⟩
  | 123 => ⟨S_, .i32⟩
  | 124 => ⟨S1, .i32⟩
  | 125 => ⟨S65536x8x8, .f32⟩
  | 126 => ⟨S65536x1, .f32⟩
  | 127 => ⟨S65536, .f32⟩
  | _ => ⟨S64x256x256x16, .f32⟩

abbrev hbmTy0_3 (i : Nat) : BufTy := match i % 128 with
  | 0 => ⟨S65536, .f32⟩
  | 1 => ⟨S65536x1, .f32⟩
  | 2 => ⟨S65536, .f32⟩
  | 3 => ⟨S65536, .f32⟩
  | 4 => ⟨S65536x1x8, .f32⟩
  | 5 => ⟨S65536x8, .f32⟩
  | 6 => ⟨S65536x1x8, .f32⟩
  | 7 => ⟨S65536x8, .f32⟩
  | 8 => ⟨S65536x1, .f32⟩
  | 9 => ⟨S65536x8, .f32⟩
  | 10 => ⟨S65536x8, .f32⟩
  | 11 => ⟨S65536x1, .f32⟩
  | 12 => ⟨S65536x8, .f32⟩
  | 13 => ⟨S65536x8, .f32⟩
  | 14 => ⟨S65536x8, .f32⟩
  | 15 => ⟨S_, .i32⟩
  | 16 => ⟨S1, .i32⟩
  | 17 => ⟨S65536x8x8, .f32⟩
  | 18 => ⟨S65536x1, .f32⟩
  | 19 => ⟨S65536x8, .f32⟩
  | 20 => ⟨S65536x8, .f32⟩
  | 21 => ⟨S65536x1, .f32⟩
  | 22 => ⟨S65536x8, .f32⟩
  | 23 => ⟨S65536x8, .f32⟩
  | 24 => ⟨S65536x8, .f32⟩
  | 25 => ⟨S_, .i32⟩
  | 26 => ⟨S1, .i32⟩
  | 27 => ⟨S65536x8x8, .f32⟩
  | 28 => ⟨S65536x1, .f32⟩
  | 29 => ⟨S65536, .f32⟩
  | 30 => ⟨S65536, .f32⟩
  | 31 => ⟨S65536x1, .f32⟩
  | 32 => ⟨S65536, .f32⟩
  | 33 => ⟨S65536, .f32⟩
  | 34 => ⟨S65536x1x8, .f32⟩
  | 35 => ⟨S65536x8, .f32⟩
  | 36 => ⟨S65536x1x8, .f32⟩
  | 37 => ⟨S65536x8, .f32⟩
  | 38 => ⟨S65536x1, .f32⟩
  | 39 => ⟨S65536x8, .f32⟩
  | 40 => ⟨S65536x8, .f32⟩
  | 41 => ⟨S65536x1, .f32⟩
  | 42 => ⟨S65536x8, .f32⟩
  | 43 => ⟨S65536x8, .f32⟩
  | 44 => ⟨S65536x8, .f32⟩
  | 45 => ⟨S_, .i32⟩
  | 46 => ⟨S1, .i32⟩
  | 47 => ⟨S65536x8x8, .f32⟩
  | 48 => ⟨S65536x1, .f32⟩
  | 49 => ⟨S65536x8, .f32⟩
  | 50 => ⟨S65536x8, .f32⟩
  | 51 => ⟨S65536x1, .f32⟩
  | 52 => ⟨S65536x8, .f32⟩
  | 53 => ⟨S65536x8, .f32⟩
  | 54 => ⟨S65536x8, .f32⟩
  | 55 => ⟨S_, .i32⟩
  | 56 => ⟨S1, .i32⟩
  | 57 => ⟨S65536x8x8, .f32⟩
  | 58 => ⟨S65536x1, .f32⟩
  | 59 => ⟨S65536, .f32⟩
  | 60 => ⟨S65536, .f32⟩
  | 61 => ⟨S65536x1, .f32⟩
  | 62 => ⟨S65536, .f32⟩
  | 63 => ⟨S65536, .f32⟩
  | 64 => ⟨S65536x1x8, .f32⟩
  | 65 => ⟨S65536x8, .f32⟩
  | 66 => ⟨S65536x1x8, .f32⟩
  | 67 => ⟨S65536x8, .f32⟩
  | 68 => ⟨S65536x1, .f32⟩
  | 69 => ⟨S65536x8, .f32⟩
  | 70 => ⟨S65536x8, .f32⟩
  | 71 => ⟨S65536x1, .f32⟩
  | 72 => ⟨S65536x8, .f32⟩
  | 73 => ⟨S65536x8, .f32⟩
  | 74 => ⟨S65536x8, .f32⟩
  | 75 => ⟨S_, .i32⟩
  | 76 => ⟨S1, .i32⟩
  | 77 => ⟨S65536x8x8, .f32⟩
  | 78 => ⟨S65536x1, .f32⟩
  | 79 => ⟨S65536x8, .f32⟩
  | 80 => ⟨S65536x8, .f32⟩
  | 81 => ⟨S65536x1, .f32⟩
  | 82 => ⟨S65536x8, .f32⟩
  | 83 => ⟨S65536x8, .f32⟩
  | 84 => ⟨S65536x8, .f32⟩
  | 85 => ⟨S_, .i32⟩
  | 86 => ⟨S1, .i32⟩
  | 87 => ⟨S65536x8x8, .f32⟩
  | 88 => ⟨S65536x1, .f32⟩
  | 89 => ⟨S65536, .f32⟩
  | 90 => ⟨S65536, .f32⟩
  | 91 => ⟨S65536x1, .f32⟩
  | 92 => ⟨S65536, .f32⟩
  | 93 => ⟨S65536, .f32⟩
  | 94 => ⟨S65536x1x8, .f32⟩
  | 95 => ⟨S65536x8, .f32⟩
  | 96 => ⟨S65536x1x8, .f32⟩
  | 97 => ⟨S65536x8, .f32⟩
  | 98 => ⟨S65536x1, .f32⟩
  | 99 => ⟨S65536x8, .f32⟩
  | 100 => ⟨S65536x8, .f32⟩
  | 101 => ⟨S65536x1, .f32⟩
  | 102 => ⟨S65536x8, .f32⟩
  | 103 => ⟨S65536x8, .f32⟩
  | 104 => ⟨S65536x8, .f32⟩
  | 105 => ⟨S_, .i32⟩
  | 106 => ⟨S1, .i32⟩
  | 107 => ⟨S65536x8x8, .f32⟩
  | 108 => ⟨S65536x1, .f32⟩
  | 109 => ⟨S65536x8, .f32⟩
  | 110 => ⟨S65536x8, .f32⟩
  | 111 => ⟨S65536x1, .f32⟩
  | 112 => ⟨S65536x8, .f32⟩
  | 113 => ⟨S65536x8, .f32⟩
  | 114 => ⟨S65536x8, .f32⟩
  | 115 => ⟨S_, .i32⟩
  | 116 => ⟨S1, .i32⟩
  | 117 => ⟨S65536x8x8, .f32⟩
  | 118 => ⟨S65536x1, .f32⟩
  | 119 => ⟨S65536, .f32⟩
  | 120 => ⟨S65536, .f32⟩
  | 121 => ⟨S65536x1, .f32⟩
  | 122 => ⟨S65536, .f32⟩
  | 123 => ⟨S65536, .f32⟩
  | 124 => ⟨S65536x1x8, .f32⟩
  | 125 => ⟨S65536x8, .f32⟩
  | 126 => ⟨S65536x1x8, .f32⟩
  | 127 => ⟨S65536x8, .f32⟩
  | _ => ⟨S64x256x256x16, .f32⟩

abbrev hbmTy0_4 (i : Nat) : BufTy := match i % 128 with
  | 0 => ⟨S65536x1, .f32⟩
  | 1 => ⟨S65536x8, .f32⟩
  | 2 => ⟨S65536x8, .f32⟩
  | 3 => ⟨S65536x1, .f32⟩
  | 4 => ⟨S65536x8, .f32⟩
  | 5 => ⟨S65536x8, .f32⟩
  | 6 => ⟨S65536x8, .f32⟩
  | 7 => ⟨S_, .i32⟩
  | 8 => ⟨S1, .i32⟩
  | 9 => ⟨S65536x8x8, .f32⟩
  | 10 => ⟨S65536x1, .f32⟩
  | 11 => ⟨S65536x8, .f32⟩
  | 12 => ⟨S65536x8, .f32⟩
  | 13 => ⟨S65536x1, .f32⟩
  | 14 => ⟨S65536x8, .f32⟩
  | 15 => ⟨S65536x8, .f32⟩
  | 16 => ⟨S65536x8, .f32⟩
  | 17 => ⟨S_, .i32⟩
  | 18 => ⟨S1, .i32⟩
  | 19 => ⟨S65536x8x8, .f32⟩
  | 20 => ⟨S65536x1, .f32⟩
  | 21 => ⟨S65536, .f32⟩
  | 22 => ⟨S65536, .f32⟩
  | 23 => ⟨S65536x1, .f32⟩
  | 24 => ⟨S65536, .f32⟩
  | 25 => ⟨S65536, .f32⟩
  | 26 => ⟨S65536x1x8, .f32⟩
  | 27 => ⟨S65536x8, .f32⟩
  | 28 => ⟨S65536x1x8, .f32⟩
  | 29 => ⟨S65536x8, .f32⟩
  | 30 => ⟨S65536x1, .f32⟩
  | 31 => ⟨S65536x8, .f32⟩
  | 32 => ⟨S65536x8, .f32⟩
  | 33 => ⟨S65536x1, .f32⟩
  | 34 => ⟨S65536x8, .f32⟩
  | 35 => ⟨S65536x8, .f32⟩
  | 36 => ⟨S65536x8, .f32⟩
  | 37 => ⟨S_, .i32⟩
  | 38 => ⟨S1, .i32⟩
  | 39 => ⟨S65536x8x8, .f32⟩
  | 40 => ⟨S65536x1, .f32⟩
  | 41 => ⟨S65536x8, .f32⟩
  | 42 => ⟨S65536x8, .f32⟩
  | 43 => ⟨S65536x1, .f32⟩
  | 44 => ⟨S65536x8, .f32⟩
  | 45 => ⟨S65536x8, .f32⟩
  | 46 => ⟨S65536x8, .f32⟩
  | 47 => ⟨S_, .i32⟩
  | 48 => ⟨S1, .i32⟩
  | 49 => ⟨S65536x8x8, .f32⟩
  | 50 => ⟨S65536x1, .f32⟩
  | 51 => ⟨S65536, .f32⟩
  | 52 => ⟨S65536, .f32⟩
  | 53 => ⟨S65536x1, .f32⟩
  | 54 => ⟨S65536, .f32⟩
  | 55 => ⟨S65536, .f32⟩
  | 56 => ⟨S65536x1x8, .f32⟩
  | 57 => ⟨S65536x8, .f32⟩
  | 58 => ⟨S65536x1x8, .f32⟩
  | 59 => ⟨S65536x8, .f32⟩
  | 60 => ⟨S65536x1, .f32⟩
  | 61 => ⟨S65536x8, .f32⟩
  | 62 => ⟨S65536x8, .f32⟩
  | 63 => ⟨S65536x1, .f32⟩
  | 64 => ⟨S65536x8, .f32⟩
  | 65 => ⟨S65536x8, .f32⟩
  | 66 => ⟨S65536x8, .f32⟩
  | 67 => ⟨S_, .i32⟩
  | 68 => ⟨S1, .i32⟩
  | 69 => ⟨S65536x8x8, .f32⟩
  | 70 => ⟨S65536x1, .f32⟩
  | 71 => ⟨S65536x8, .f32⟩
  | 72 => ⟨S65536x8, .f32⟩
  | 73 => ⟨S65536x1, .f32⟩
  | 74 => ⟨S65536x8, .f32⟩
  | 75 => ⟨S65536x8, .f32⟩
  | 76 => ⟨S65536x8, .f32⟩
  | 77 => ⟨S_, .i32⟩
  | 78 => ⟨S1, .i32⟩
  | 79 => ⟨S65536x8x8, .f32⟩
  | 80 => ⟨S65536x1, .f32⟩
  | 81 => ⟨S65536, .f32⟩
  | 82 => ⟨S65536, .f32⟩
  | 83 => ⟨S65536x1, .f32⟩
  | 84 => ⟨S65536, .f32⟩
  | 85 => ⟨S65536, .f32⟩
  | 86 => ⟨S65536x1x8, .f32⟩
  | 87 => ⟨S65536x8, .f32⟩
  | 88 => ⟨S65536x1x8, .f32⟩
  | 89 => ⟨S65536x8, .f32⟩
  | 90 => ⟨S65536x1, .f32⟩
  | 91 => ⟨S65536x8, .f32⟩
  | 92 => ⟨S65536x8, .f32⟩
  | 93 => ⟨S65536x1, .f32⟩
  | 94 => ⟨S65536x8, .f32⟩
  | 95 => ⟨S65536x8, .f32⟩
  | 96 => ⟨S65536x8, .f32⟩
  | 97 => ⟨S_, .i32⟩
  | 98 => ⟨S1, .i32⟩
  | 99 => ⟨S65536x8x8, .f32⟩
  | 100 => ⟨S65536x1, .f32⟩
  | 101 => ⟨S65536x8, .f32⟩
  | 102 => ⟨S65536x8, .f32⟩
  | 103 => ⟨S65536x1, .f32⟩
  | 104 => ⟨S65536x8, .f32⟩
  | 105 => ⟨S65536x8, .f32⟩
  | 106 => ⟨S65536x8, .f32⟩
  | 107 => ⟨S_, .i32⟩
  | 108 => ⟨S1, .i32⟩
  | 109 => ⟨S65536x8x8, .f32⟩
  | 110 => ⟨S65536x1, .f32⟩
  | 111 => ⟨S65536, .f32⟩
  | 112 => ⟨S65536, .f32⟩
  | 113 => ⟨S65536x1, .f32⟩
  | 114 => ⟨S65536, .f32⟩
  | 115 => ⟨S65536, .f32⟩
  | 116 => ⟨S65536x1x8, .f32⟩
  | 117 => ⟨S65536x8, .f32⟩
  | 118 => ⟨S65536x1x8, .f32⟩
  | 119 => ⟨S65536x8, .f32⟩
  | 120 => ⟨S65536x1, .f32⟩
  | 121 => ⟨S65536x8, .f32⟩
  | 122 => ⟨S65536x8, .f32⟩
  | 123 => ⟨S65536x1, .f32⟩
  | 124 => ⟨S65536x8, .f32⟩
  | 125 => ⟨S65536x8, .f32⟩
  | 126 => ⟨S65536x8, .f32⟩
  | 127 => ⟨S_, .i32⟩
  | _ => ⟨S64x256x256x16, .f32⟩

abbrev hbmTy0_5 (i : Nat) : BufTy := match i % 128 with
  | 0 => ⟨S1, .i32⟩
  | 1 => ⟨S65536x8x8, .f32⟩
  | 2 => ⟨S65536x1, .f32⟩
  | 3 => ⟨S65536x8, .f32⟩
  | 4 => ⟨S65536x8, .f32⟩
  | 5 => ⟨S65536x1, .f32⟩
  | 6 => ⟨S65536x8, .f32⟩
  | 7 => ⟨S65536x8, .f32⟩
  | 8 => ⟨S65536x8, .f32⟩
  | 9 => ⟨S_, .i32⟩
  | 10 => ⟨S1, .i32⟩
  | 11 => ⟨S65536x8x8, .f32⟩
  | 12 => ⟨S65536x1, .f32⟩
  | 13 => ⟨S65536, .f32⟩
  | 14 => ⟨S65536, .f32⟩
  | 15 => ⟨S65536x1, .f32⟩
  | 16 => ⟨S65536, .f32⟩
  | 17 => ⟨S65536, .f32⟩
  | 18 => ⟨S65536x1x8, .f32⟩
  | 19 => ⟨S65536x8, .f32⟩
  | 20 => ⟨S65536x1x8, .f32⟩
  | 21 => ⟨S65536x8, .f32⟩
  | 22 => ⟨S65536x1, .f32⟩
  | 23 => ⟨S65536x8, .f32⟩
  | 24 => ⟨S65536x8, .f32⟩
  | 25 => ⟨S65536x1, .f32⟩
  | 26 => ⟨S65536x8, .f32⟩
  | 27 => ⟨S65536x8, .f32⟩
  | 28 => ⟨S65536x8, .f32⟩
  | 29 => ⟨S_, .i32⟩
  | 30 => ⟨S1, .i32⟩
  | 31 => ⟨S65536x8x8, .f32⟩
  | 32 => ⟨S65536x1, .f32⟩
  | 33 => ⟨S65536x8, .f32⟩
  | 34 => ⟨S65536x8, .f32⟩
  | 35 => ⟨S65536x1, .f32⟩
  | 36 => ⟨S65536x8, .f32⟩
  | 37 => ⟨S65536x8, .f32⟩
  | 38 => ⟨S65536x8, .f32⟩
  | 39 => ⟨S_, .i32⟩
  | 40 => ⟨S1, .i32⟩
  | 41 => ⟨S65536x8x8, .f32⟩
  | 42 => ⟨S65536x1, .f32⟩
  | 43 => ⟨S65536, .f32⟩
  | 44 => ⟨S65536, .f32⟩
  | 45 => ⟨S65536x1, .f32⟩
  | 46 => ⟨S65536, .f32⟩
  | 47 => ⟨S65536, .f32⟩
  | 48 => ⟨S65536x1x8, .f32⟩
  | 49 => ⟨S65536x8, .f32⟩
  | 50 => ⟨S65536x1x8, .f32⟩
  | 51 => ⟨S65536x8, .f32⟩
  | 52 => ⟨S65536x1, .f32⟩
  | 53 => ⟨S65536x8, .f32⟩
  | 54 => ⟨S65536x8, .f32⟩
  | 55 => ⟨S65536x1, .f32⟩
  | 56 => ⟨S65536x8, .f32⟩
  | 57 => ⟨S65536x8, .f32⟩
  | 58 => ⟨S65536x8, .f32⟩
  | 59 => ⟨S_, .i32⟩
  | 60 => ⟨S1, .i32⟩
  | 61 => ⟨S65536x8x8, .f32⟩
  | 62 => ⟨S65536x1, .f32⟩
  | 63 => ⟨S65536x8, .f32⟩
  | 64 => ⟨S65536x8, .f32⟩
  | 65 => ⟨S65536x1, .f32⟩
  | 66 => ⟨S65536x8, .f32⟩
  | 67 => ⟨S65536x8, .f32⟩
  | 68 => ⟨S65536x8, .f32⟩
  | 69 => ⟨S_, .i32⟩
  | 70 => ⟨S1, .i32⟩
  | 71 => ⟨S65536x8x8, .f32⟩
  | 72 => ⟨S65536x1, .f32⟩
  | 73 => ⟨S65536, .f32⟩
  | 74 => ⟨S65536, .f32⟩
  | 75 => ⟨S65536x1, .f32⟩
  | 76 => ⟨S65536, .f32⟩
  | 77 => ⟨S65536, .f32⟩
  | 78 => ⟨S65536x1x8, .f32⟩
  | 79 => ⟨S65536x8, .f32⟩
  | 80 => ⟨S65536x1x8, .f32⟩
  | 81 => ⟨S65536x8, .f32⟩
  | 82 => ⟨S65536x1, .f32⟩
  | 83 => ⟨S65536x8, .f32⟩
  | 84 => ⟨S65536x8, .f32⟩
  | 85 => ⟨S65536x1, .f32⟩
  | 86 => ⟨S65536x8, .f32⟩
  | 87 => ⟨S65536x8, .f32⟩
  | 88 => ⟨S65536x8, .f32⟩
  | 89 => ⟨S_, .i32⟩
  | 90 => ⟨S1, .i32⟩
  | 91 => ⟨S65536x8x8, .f32⟩
  | 92 => ⟨S65536x1, .f32⟩
  | 93 => ⟨S65536x8, .f32⟩
  | 94 => ⟨S65536x8, .f32⟩
  | 95 => ⟨S65536x1, .f32⟩
  | 96 => ⟨S65536x8, .f32⟩
  | 97 => ⟨S65536x8, .f32⟩
  | 98 => ⟨S65536x8, .f32⟩
  | 99 => ⟨S_, .i32⟩
  | 100 => ⟨S1, .i32⟩
  | 101 => ⟨S65536x8x8, .f32⟩
  | 102 => ⟨S65536x1, .f32⟩
  | 103 => ⟨S65536, .f32⟩
  | 104 => ⟨S65536, .f32⟩
  | 105 => ⟨S65536x1, .f32⟩
  | 106 => ⟨S65536, .f32⟩
  | 107 => ⟨S65536, .f32⟩
  | 108 => ⟨S65536x1x8, .f32⟩
  | 109 => ⟨S65536x8, .f32⟩
  | 110 => ⟨S65536x1x8, .f32⟩
  | 111 => ⟨S65536x8, .f32⟩
  | 112 => ⟨S65536x1, .f32⟩
  | 113 => ⟨S65536x8, .f32⟩
  | 114 => ⟨S65536x8, .f32⟩
  | 115 => ⟨S65536x1, .f32⟩
  | 116 => ⟨S65536x8, .f32⟩
  | 117 => ⟨S65536x8, .f32⟩
  | 118 => ⟨S65536x8, .f32⟩
  | 119 => ⟨S_, .i32⟩
  | 120 => ⟨S1, .i32⟩
  | 121 => ⟨S65536x8x8, .f32⟩
  | 122 => ⟨S65536x1, .f32⟩
  | 123 => ⟨S65536x8, .f32⟩
  | 124 => ⟨S65536x8, .f32⟩
  | 125 => ⟨S65536x1, .f32⟩
  | 126 => ⟨S65536x8, .f32⟩
  | 127 => ⟨S65536x8, .f32⟩
  | _ => ⟨S64x256x256x16, .f32⟩

abbrev hbmTy0_6 (i : Nat) : BufTy := match i % 128 with
  | 0 => ⟨S65536x8, .f32⟩
  | 1 => ⟨S_, .i32⟩
  | 2 => ⟨S1, .i32⟩
  | 3 => ⟨S65536x8x8, .f32⟩
  | 4 => ⟨S65536x1, .f32⟩
  | 5 => ⟨S65536, .f32⟩
  | 6 => ⟨S65536, .f32⟩
  | 7 => ⟨S65536x1, .f32⟩
  | 8 => ⟨S65536, .f32⟩
  | 9 => ⟨S65536, .f32⟩
  | 10 => ⟨S65536x1x8, .f32⟩
  | 11 => ⟨S65536x8, .f32⟩
  | 12 => ⟨S65536x1x8, .f32⟩
  | 13 => ⟨S65536x8, .f32⟩
  | 14 => ⟨S65536x1, .f32⟩
  | 15 => ⟨S65536x8, .f32⟩
  | 16 => ⟨S65536x8, .f32⟩
  | 17 => ⟨S65536x1, .f32⟩
  | 18 => ⟨S65536x8, .f32⟩
  | 19 => ⟨S65536x8, .f32⟩
  | 20 => ⟨S65536x8, .f32⟩
  | 21 => ⟨S_, .i32⟩
  | 22 => ⟨S1, .i32⟩
  | 23 => ⟨S65536x8x8, .f32⟩
  | 24 => ⟨S65536x1, .f32⟩
  | 25 => ⟨S65536x8, .f32⟩
  | 26 => ⟨S65536x8, .f32⟩
  | 27 => ⟨S65536x1, .f32⟩
  | 28 => ⟨S65536x8, .f32⟩
  | 29 => ⟨S65536x8, .f32⟩
  | 30 => ⟨S65536x8, .f32⟩
  | 31 => ⟨S_, .i32⟩
  | 32 => ⟨S1, .i32⟩
  | 33 => ⟨S65536x8x8, .f32⟩
  | 34 => ⟨S65536x1, .f32⟩
  | 35 => ⟨S65536, .f32⟩
  | 36 => ⟨S65536, .f32⟩
  | 37 => ⟨S65536x1, .f32⟩
  | 38 => ⟨S65536, .f32⟩
  | 39 => ⟨S65536, .f32⟩
  | 40 => ⟨S65536x1x8, .f32⟩
  | 41 => ⟨S65536x8, .f32⟩
  | 42 => ⟨S65536x1x8, .f32⟩
  | 43 => ⟨S65536x8, .f32⟩
  | 44 => ⟨S65536x1, .f32⟩
  | 45 => ⟨S65536x8, .f32⟩
  | 46 => ⟨S65536x8, .f32⟩
  | 47 => ⟨S65536x1, .f32⟩
  | 48 => ⟨S65536x8, .f32⟩
  | 49 => ⟨S65536x8, .f32⟩
  | 50 => ⟨S65536x8, .f32⟩
  | 51 => ⟨S_, .i32⟩
  | 52 => ⟨S1, .i32⟩
  | 53 => ⟨S65536x8x8, .f32⟩
  | 54 => ⟨S65536x1, .f32⟩
  | 55 => ⟨S65536x8, .f32⟩
  | 56 => ⟨S65536x8, .f32⟩
  | 57 => ⟨S65536x1, .f32⟩
  | 58 => ⟨S65536x8, .f32⟩
  | 59 => ⟨S65536x8, .f32⟩
  | 60 => ⟨S65536x8, .f32⟩
  | 61 => ⟨S_, .i32⟩
  | 62 => ⟨S1, .i32⟩
  | 63 => ⟨S65536x8x8, .f32⟩
  | 64 => ⟨S65536x1, .f32⟩
  | 65 => ⟨S65536, .f32⟩
  | 66 => ⟨S65536, .f32⟩
  | 67 => ⟨S65536x1, .f32⟩
  | 68 => ⟨S65536, .f32⟩
  | 69 => ⟨S65536, .f32⟩
  | 70 => ⟨S65536x1x8, .f32⟩
  | 71 => ⟨S65536x8, .f32⟩
  | 72 => ⟨S65536x1x8, .f32⟩
  | 73 => ⟨S65536x8, .f32⟩
  | 74 => ⟨S65536x1, .f32⟩
  | 75 => ⟨S65536x8, .f32⟩
  | 76 => ⟨S65536x8, .f32⟩
  | 77 => ⟨S65536x1, .f32⟩
  | 78 => ⟨S65536x8, .f32⟩
  | 79 => ⟨S65536x8, .f32⟩
  | 80 => ⟨S65536x8, .f32⟩
  | 81 => ⟨S_, .i32⟩
  | 82 => ⟨S1, .i32⟩
  | 83 => ⟨S65536x8x8, .f32⟩
  | 84 => ⟨S65536x1, .f32⟩
  | 85 => ⟨S65536x8, .f32⟩
  | 86 => ⟨S65536x8, .f32⟩
  | 87 => ⟨S65536x1, .f32⟩
  | 88 => ⟨S65536x8, .f32⟩
  | 89 => ⟨S65536x8, .f32⟩
  | 90 => ⟨S65536x8, .f32⟩
  | 91 => ⟨S_, .i32⟩
  | 92 => ⟨S1, .i32⟩
  | 93 => ⟨S65536x8x8, .f32⟩
  | 94 => ⟨S65536x8x1, .f32⟩
  | 95 => ⟨S65536x8x8, .f32⟩
  | 96 => ⟨S65536x8x8, .f32⟩
  | 97 => ⟨S65536x8x64, .f32⟩
  | 98 => ⟨S65536x8x64, .f32⟩
  | 99 => ⟨S65536x16x64, .f32⟩
  | 100 => ⟨S256x256x16x64, .f32⟩
  | 101 => ⟨S64x256x256x16, .f32⟩
  | _ => ⟨S64x256x256x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x256x256x16, .f32⟩

abbrev bufTy : (tb : Table) → Fin (tcTables nBuf tb) → BufTy
  | .hbm, ⟨i, _⟩ => hbmTy i
  | _, _ => ⟨S64x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_0 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_c_1 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_c_2 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_c_3 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_c_4 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_c_5 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_c_6 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_c_7 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_c_8 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_c_9 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_c_10 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_c_11 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_c_12 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_c_13 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_c_14 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_c_15 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_c_16 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_c_17 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_c_18 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_c_19 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_c_20 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_c_21 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_v328 : Ref sig .tc := ⟨.hbm, 354, rfl⟩
abbrev main_v329 : Ref sig .tc := ⟨.hbm, 355, rfl⟩
abbrev main_v330 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_c_22 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_v346 : Ref sig .tc := ⟨.hbm, 373, rfl⟩
abbrev main_v347 : Ref sig .tc := ⟨.hbm, 374, rfl⟩
abbrev main_v348 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_c_23 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_c_24 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_v377 : Ref sig .tc := ⟨.hbm, 406, rfl⟩
abbrev main_v378 : Ref sig .tc := ⟨.hbm, 407, rfl⟩
abbrev main_v379 : Ref sig .tc := ⟨.hbm, 408, rfl⟩
abbrev main_c_25 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_c_26 : Ref sig .tc := ⟨.hbm, 429, rfl⟩
abbrev main_v399 : Ref sig .tc := ⟨.hbm, 430, rfl⟩
abbrev main_v400 : Ref sig .tc := ⟨.hbm, 431, rfl⟩
abbrev main_v401 : Ref sig .tc := ⟨.hbm, 432, rfl⟩
abbrev main_v402 : Ref sig .tc := ⟨.hbm, 433, rfl⟩
abbrev main_v403 : Ref sig .tc := ⟨.hbm, 434, rfl⟩
abbrev main_v404 : Ref sig .tc := ⟨.hbm, 435, rfl⟩
abbrev main_v405 : Ref sig .tc := ⟨.hbm, 436, rfl⟩
abbrev main_v406 : Ref sig .tc := ⟨.hbm, 437, rfl⟩
abbrev main_v407 : Ref sig .tc := ⟨.hbm, 438, rfl⟩
abbrev main_c_27 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_v414 : Ref sig .tc := ⟨.hbm, 446, rfl⟩
abbrev main_v415 : Ref sig .tc := ⟨.hbm, 447, rfl⟩
abbrev main_v416 : Ref sig .tc := ⟨.hbm, 448, rfl⟩
abbrev main_v417 : Ref sig .tc := ⟨.hbm, 449, rfl⟩
abbrev main_v418 : Ref sig .tc := ⟨.hbm, 450, rfl⟩
abbrev main_v419 : Ref sig .tc := ⟨.hbm, 451, rfl⟩
abbrev main_v420 : Ref sig .tc := ⟨.hbm, 452, rfl⟩
abbrev main_v421 : Ref sig .tc := ⟨.hbm, 453, rfl⟩
abbrev main_v422 : Ref sig .tc := ⟨.hbm, 454, rfl⟩
abbrev main_v423 : Ref sig .tc := ⟨.hbm, 455, rfl⟩
abbrev main_v424 : Ref sig .tc := ⟨.hbm, 456, rfl⟩
abbrev main_v425 : Ref sig .tc := ⟨.hbm, 457, rfl⟩
abbrev main_v426 : Ref sig .tc := ⟨.hbm, 458, rfl⟩
abbrev main_c_28 : Ref sig .tc := ⟨.hbm, 459, rfl⟩
abbrev main_v427 : Ref sig .tc := ⟨.hbm, 460, rfl⟩
abbrev main_v428 : Ref sig .tc := ⟨.hbm, 461, rfl⟩
abbrev main_v429 : Ref sig .tc := ⟨.hbm, 462, rfl⟩
abbrev main_v430 : Ref sig .tc := ⟨.hbm, 463, rfl⟩
abbrev main_v431 : Ref sig .tc := ⟨.hbm, 464, rfl⟩
abbrev main_v432 : Ref sig .tc := ⟨.hbm, 465, rfl⟩
abbrev main_v433 : Ref sig .tc := ⟨.hbm, 466, rfl⟩
abbrev main_v434 : Ref sig .tc := ⟨.hbm, 467, rfl⟩
abbrev main_v435 : Ref sig .tc := ⟨.hbm, 468, rfl⟩
abbrev main_c_29 : Ref sig .tc := ⟨.hbm, 469, rfl⟩
abbrev main_v436 : Ref sig .tc := ⟨.hbm, 470, rfl⟩
abbrev main_v437 : Ref sig .tc := ⟨.hbm, 471, rfl⟩
abbrev main_v438 : Ref sig .tc := ⟨.hbm, 472, rfl⟩
abbrev main_v439 : Ref sig .tc := ⟨.hbm, 473, rfl⟩
abbrev main_v440 : Ref sig .tc := ⟨.hbm, 474, rfl⟩
abbrev main_v441 : Ref sig .tc := ⟨.hbm, 475, rfl⟩
abbrev main_v442 : Ref sig .tc := ⟨.hbm, 476, rfl⟩
abbrev main_v443 : Ref sig .tc := ⟨.hbm, 477, rfl⟩
abbrev main_v444 : Ref sig .tc := ⟨.hbm, 478, rfl⟩
abbrev main_v445 : Ref sig .tc := ⟨.hbm, 479, rfl⟩
abbrev main_v446 : Ref sig .tc := ⟨.hbm, 480, rfl⟩
abbrev main_v447 : Ref sig .tc := ⟨.hbm, 481, rfl⟩
abbrev main_v448 : Ref sig .tc := ⟨.hbm, 482, rfl⟩
abbrev main_v449 : Ref sig .tc := ⟨.hbm, 483, rfl⟩
abbrev main_v450 : Ref sig .tc := ⟨.hbm, 484, rfl⟩
abbrev main_v451 : Ref sig .tc := ⟨.hbm, 485, rfl⟩
abbrev main_v452 : Ref sig .tc := ⟨.hbm, 486, rfl⟩
abbrev main_v453 : Ref sig .tc := ⟨.hbm, 487, rfl⟩
abbrev main_v454 : Ref sig .tc := ⟨.hbm, 488, rfl⟩
abbrev main_c_30 : Ref sig .tc := ⟨.hbm, 489, rfl⟩
abbrev main_v455 : Ref sig .tc := ⟨.hbm, 490, rfl⟩
abbrev main_v456 : Ref sig .tc := ⟨.hbm, 491, rfl⟩
abbrev main_v457 : Ref sig .tc := ⟨.hbm, 492, rfl⟩
abbrev main_v458 : Ref sig .tc := ⟨.hbm, 493, rfl⟩
abbrev main_v459 : Ref sig .tc := ⟨.hbm, 494, rfl⟩
abbrev main_v460 : Ref sig .tc := ⟨.hbm, 495, rfl⟩
abbrev main_v461 : Ref sig .tc := ⟨.hbm, 496, rfl⟩
abbrev main_v462 : Ref sig .tc := ⟨.hbm, 497, rfl⟩
abbrev main_v463 : Ref sig .tc := ⟨.hbm, 498, rfl⟩
abbrev main_c_31 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_c_32 : Ref sig .tc := ⟨.hbm, 519, rfl⟩
abbrev main_v483 : Ref sig .tc := ⟨.hbm, 520, rfl⟩
abbrev main_v484 : Ref sig .tc := ⟨.hbm, 521, rfl⟩
abbrev main_v485 : Ref sig .tc := ⟨.hbm, 522, rfl⟩
abbrev main_v486 : Ref sig .tc := ⟨.hbm, 523, rfl⟩
abbrev main_v487 : Ref sig .tc := ⟨.hbm, 524, rfl⟩
abbrev main_v488 : Ref sig .tc := ⟨.hbm, 525, rfl⟩
abbrev main_v489 : Ref sig .tc := ⟨.hbm, 526, rfl⟩
abbrev main_v490 : Ref sig .tc := ⟨.hbm, 527, rfl⟩
abbrev main_v491 : Ref sig .tc := ⟨.hbm, 528, rfl⟩
abbrev main_c_33 : Ref sig .tc := ⟨.hbm, 529, rfl⟩
abbrev main_v492 : Ref sig .tc := ⟨.hbm, 530, rfl⟩
abbrev main_v493 : Ref sig .tc := ⟨.hbm, 531, rfl⟩
abbrev main_v494 : Ref sig .tc := ⟨.hbm, 532, rfl⟩
abbrev main_v495 : Ref sig .tc := ⟨.hbm, 533, rfl⟩
abbrev main_v496 : Ref sig .tc := ⟨.hbm, 534, rfl⟩
abbrev main_v497 : Ref sig .tc := ⟨.hbm, 535, rfl⟩
abbrev main_v498 : Ref sig .tc := ⟨.hbm, 536, rfl⟩
abbrev main_v499 : Ref sig .tc := ⟨.hbm, 537, rfl⟩
abbrev main_v500 : Ref sig .tc := ⟨.hbm, 538, rfl⟩
abbrev main_v501 : Ref sig .tc := ⟨.hbm, 539, rfl⟩
abbrev main_v502 : Ref sig .tc := ⟨.hbm, 540, rfl⟩
abbrev main_v503 : Ref sig .tc := ⟨.hbm, 541, rfl⟩
abbrev main_v504 : Ref sig .tc := ⟨.hbm, 542, rfl⟩
abbrev main_v505 : Ref sig .tc := ⟨.hbm, 543, rfl⟩
abbrev main_v506 : Ref sig .tc := ⟨.hbm, 544, rfl⟩
abbrev main_v507 : Ref sig .tc := ⟨.hbm, 545, rfl⟩
abbrev main_v508 : Ref sig .tc := ⟨.hbm, 546, rfl⟩
abbrev main_v509 : Ref sig .tc := ⟨.hbm, 547, rfl⟩
abbrev main_v510 : Ref sig .tc := ⟨.hbm, 548, rfl⟩
abbrev main_c_34 : Ref sig .tc := ⟨.hbm, 549, rfl⟩
abbrev main_v511 : Ref sig .tc := ⟨.hbm, 550, rfl⟩
abbrev main_v512 : Ref sig .tc := ⟨.hbm, 551, rfl⟩
abbrev main_v513 : Ref sig .tc := ⟨.hbm, 552, rfl⟩
abbrev main_v514 : Ref sig .tc := ⟨.hbm, 553, rfl⟩
abbrev main_v515 : Ref sig .tc := ⟨.hbm, 554, rfl⟩
abbrev main_v516 : Ref sig .tc := ⟨.hbm, 555, rfl⟩
abbrev main_v517 : Ref sig .tc := ⟨.hbm, 556, rfl⟩
abbrev main_v518 : Ref sig .tc := ⟨.hbm, 557, rfl⟩
abbrev main_v519 : Ref sig .tc := ⟨.hbm, 558, rfl⟩
abbrev main_c_35 : Ref sig .tc := ⟨.hbm, 559, rfl⟩
abbrev main_v520 : Ref sig .tc := ⟨.hbm, 560, rfl⟩
abbrev main_v521 : Ref sig .tc := ⟨.hbm, 561, rfl⟩
abbrev main_v522 : Ref sig .tc := ⟨.hbm, 562, rfl⟩
abbrev main_v523 : Ref sig .tc := ⟨.hbm, 563, rfl⟩
abbrev main_v524 : Ref sig .tc := ⟨.hbm, 564, rfl⟩
abbrev main_v525 : Ref sig .tc := ⟨.hbm, 565, rfl⟩
abbrev main_v526 : Ref sig .tc := ⟨.hbm, 566, rfl⟩
abbrev main_v527 : Ref sig .tc := ⟨.hbm, 567, rfl⟩
abbrev main_v528 : Ref sig .tc := ⟨.hbm, 568, rfl⟩
abbrev main_v529 : Ref sig .tc := ⟨.hbm, 569, rfl⟩
abbrev main_v530 : Ref sig .tc := ⟨.hbm, 570, rfl⟩
abbrev main_v531 : Ref sig .tc := ⟨.hbm, 571, rfl⟩
abbrev main_v532 : Ref sig .tc := ⟨.hbm, 572, rfl⟩
abbrev main_v533 : Ref sig .tc := ⟨.hbm, 573, rfl⟩
abbrev main_v534 : Ref sig .tc := ⟨.hbm, 574, rfl⟩
abbrev main_v535 : Ref sig .tc := ⟨.hbm, 575, rfl⟩
abbrev main_v536 : Ref sig .tc := ⟨.hbm, 576, rfl⟩
abbrev main_v537 : Ref sig .tc := ⟨.hbm, 577, rfl⟩
abbrev main_v538 : Ref sig .tc := ⟨.hbm, 578, rfl⟩
abbrev main_c_36 : Ref sig .tc := ⟨.hbm, 579, rfl⟩
abbrev main_v539 : Ref sig .tc := ⟨.hbm, 580, rfl⟩
abbrev main_v540 : Ref sig .tc := ⟨.hbm, 581, rfl⟩
abbrev main_v541 : Ref sig .tc := ⟨.hbm, 582, rfl⟩
abbrev main_v542 : Ref sig .tc := ⟨.hbm, 583, rfl⟩
abbrev main_v543 : Ref sig .tc := ⟨.hbm, 584, rfl⟩
abbrev main_v544 : Ref sig .tc := ⟨.hbm, 585, rfl⟩
abbrev main_v545 : Ref sig .tc := ⟨.hbm, 586, rfl⟩
abbrev main_v546 : Ref sig .tc := ⟨.hbm, 587, rfl⟩
abbrev main_v547 : Ref sig .tc := ⟨.hbm, 588, rfl⟩
abbrev main_c_37 : Ref sig .tc := ⟨.hbm, 589, rfl⟩
abbrev main_v548 : Ref sig .tc := ⟨.hbm, 590, rfl⟩
abbrev main_v549 : Ref sig .tc := ⟨.hbm, 591, rfl⟩
abbrev main_v550 : Ref sig .tc := ⟨.hbm, 592, rfl⟩
abbrev main_v551 : Ref sig .tc := ⟨.hbm, 593, rfl⟩
abbrev main_v552 : Ref sig .tc := ⟨.hbm, 594, rfl⟩
abbrev main_v553 : Ref sig .tc := ⟨.hbm, 595, rfl⟩
abbrev main_v554 : Ref sig .tc := ⟨.hbm, 596, rfl⟩
abbrev main_v555 : Ref sig .tc := ⟨.hbm, 597, rfl⟩
abbrev main_v556 : Ref sig .tc := ⟨.hbm, 598, rfl⟩
abbrev main_v557 : Ref sig .tc := ⟨.hbm, 599, rfl⟩
abbrev main_v558 : Ref sig .tc := ⟨.hbm, 600, rfl⟩
abbrev main_v559 : Ref sig .tc := ⟨.hbm, 601, rfl⟩
abbrev main_v560 : Ref sig .tc := ⟨.hbm, 602, rfl⟩
abbrev main_v561 : Ref sig .tc := ⟨.hbm, 603, rfl⟩
abbrev main_v562 : Ref sig .tc := ⟨.hbm, 604, rfl⟩
abbrev main_v563 : Ref sig .tc := ⟨.hbm, 605, rfl⟩
abbrev main_v564 : Ref sig .tc := ⟨.hbm, 606, rfl⟩
abbrev main_v565 : Ref sig .tc := ⟨.hbm, 607, rfl⟩
abbrev main_v566 : Ref sig .tc := ⟨.hbm, 608, rfl⟩
abbrev main_c_38 : Ref sig .tc := ⟨.hbm, 609, rfl⟩
abbrev main_v567 : Ref sig .tc := ⟨.hbm, 610, rfl⟩
abbrev main_v568 : Ref sig .tc := ⟨.hbm, 611, rfl⟩
abbrev main_v569 : Ref sig .tc := ⟨.hbm, 612, rfl⟩
abbrev main_v570 : Ref sig .tc := ⟨.hbm, 613, rfl⟩
abbrev main_v571 : Ref sig .tc := ⟨.hbm, 614, rfl⟩
abbrev main_v572 : Ref sig .tc := ⟨.hbm, 615, rfl⟩
abbrev main_v573 : Ref sig .tc := ⟨.hbm, 616, rfl⟩
abbrev main_v574 : Ref sig .tc := ⟨.hbm, 617, rfl⟩
abbrev main_v575 : Ref sig .tc := ⟨.hbm, 618, rfl⟩
abbrev main_c_39 : Ref sig .tc := ⟨.hbm, 619, rfl⟩
abbrev main_v576 : Ref sig .tc := ⟨.hbm, 620, rfl⟩
abbrev main_v577 : Ref sig .tc := ⟨.hbm, 621, rfl⟩
abbrev main_v578 : Ref sig .tc := ⟨.hbm, 622, rfl⟩
abbrev main_v579 : Ref sig .tc := ⟨.hbm, 623, rfl⟩
abbrev main_v580 : Ref sig .tc := ⟨.hbm, 624, rfl⟩
abbrev main_v581 : Ref sig .tc := ⟨.hbm, 625, rfl⟩
abbrev main_v582 : Ref sig .tc := ⟨.hbm, 626, rfl⟩
abbrev main_v583 : Ref sig .tc := ⟨.hbm, 627, rfl⟩
abbrev main_v584 : Ref sig .tc := ⟨.hbm, 628, rfl⟩
abbrev main_v585 : Ref sig .tc := ⟨.hbm, 629, rfl⟩
abbrev main_v586 : Ref sig .tc := ⟨.hbm, 630, rfl⟩
abbrev main_v587 : Ref sig .tc := ⟨.hbm, 631, rfl⟩
abbrev main_v588 : Ref sig .tc := ⟨.hbm, 632, rfl⟩
abbrev main_v589 : Ref sig .tc := ⟨.hbm, 633, rfl⟩
abbrev main_v590 : Ref sig .tc := ⟨.hbm, 634, rfl⟩
abbrev main_v591 : Ref sig .tc := ⟨.hbm, 635, rfl⟩
abbrev main_v592 : Ref sig .tc := ⟨.hbm, 636, rfl⟩
abbrev main_v593 : Ref sig .tc := ⟨.hbm, 637, rfl⟩
abbrev main_v594 : Ref sig .tc := ⟨.hbm, 638, rfl⟩
abbrev main_c_40 : Ref sig .tc := ⟨.hbm, 639, rfl⟩
abbrev main_v595 : Ref sig .tc := ⟨.hbm, 640, rfl⟩
abbrev main_v596 : Ref sig .tc := ⟨.hbm, 641, rfl⟩
abbrev main_v597 : Ref sig .tc := ⟨.hbm, 642, rfl⟩
abbrev main_v598 : Ref sig .tc := ⟨.hbm, 643, rfl⟩
abbrev main_v599 : Ref sig .tc := ⟨.hbm, 644, rfl⟩
abbrev main_v600 : Ref sig .tc := ⟨.hbm, 645, rfl⟩
abbrev main_v601 : Ref sig .tc := ⟨.hbm, 646, rfl⟩
abbrev main_v602 : Ref sig .tc := ⟨.hbm, 647, rfl⟩
abbrev main_v603 : Ref sig .tc := ⟨.hbm, 648, rfl⟩
abbrev main_c_41 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩
abbrev main_v607 : Ref sig .tc := ⟨.hbm, 653, rfl⟩
abbrev main_v608 : Ref sig .tc := ⟨.hbm, 654, rfl⟩
abbrev main_v609 : Ref sig .tc := ⟨.hbm, 655, rfl⟩
abbrev main_v610 : Ref sig .tc := ⟨.hbm, 656, rfl⟩
abbrev main_v611 : Ref sig .tc := ⟨.hbm, 657, rfl⟩
abbrev main_v612 : Ref sig .tc := ⟨.hbm, 658, rfl⟩
abbrev main_v613 : Ref sig .tc := ⟨.hbm, 659, rfl⟩
abbrev main_v614 : Ref sig .tc := ⟨.hbm, 660, rfl⟩
abbrev main_v615 : Ref sig .tc := ⟨.hbm, 661, rfl⟩
abbrev main_v616 : Ref sig .tc := ⟨.hbm, 662, rfl⟩
abbrev main_v617 : Ref sig .tc := ⟨.hbm, 663, rfl⟩
abbrev main_v618 : Ref sig .tc := ⟨.hbm, 664, rfl⟩
abbrev main_v619 : Ref sig .tc := ⟨.hbm, 665, rfl⟩
abbrev main_v620 : Ref sig .tc := ⟨.hbm, 666, rfl⟩
abbrev main_v621 : Ref sig .tc := ⟨.hbm, 667, rfl⟩
abbrev main_v622 : Ref sig .tc := ⟨.hbm, 668, rfl⟩
abbrev main_c_42 : Ref sig .tc := ⟨.hbm, 669, rfl⟩
abbrev main_v623 : Ref sig .tc := ⟨.hbm, 670, rfl⟩
abbrev main_v624 : Ref sig .tc := ⟨.hbm, 671, rfl⟩
abbrev main_v625 : Ref sig .tc := ⟨.hbm, 672, rfl⟩
abbrev main_v626 : Ref sig .tc := ⟨.hbm, 673, rfl⟩
abbrev main_v627 : Ref sig .tc := ⟨.hbm, 674, rfl⟩
abbrev main_v628 : Ref sig .tc := ⟨.hbm, 675, rfl⟩
abbrev main_v629 : Ref sig .tc := ⟨.hbm, 676, rfl⟩
abbrev main_v630 : Ref sig .tc := ⟨.hbm, 677, rfl⟩
abbrev main_v631 : Ref sig .tc := ⟨.hbm, 678, rfl⟩
abbrev main_c_43 : Ref sig .tc := ⟨.hbm, 679, rfl⟩
abbrev main_v632 : Ref sig .tc := ⟨.hbm, 680, rfl⟩
abbrev main_v633 : Ref sig .tc := ⟨.hbm, 681, rfl⟩
abbrev main_v634 : Ref sig .tc := ⟨.hbm, 682, rfl⟩
abbrev main_v635 : Ref sig .tc := ⟨.hbm, 683, rfl⟩
abbrev main_v636 : Ref sig .tc := ⟨.hbm, 684, rfl⟩
abbrev main_v637 : Ref sig .tc := ⟨.hbm, 685, rfl⟩
abbrev main_v638 : Ref sig .tc := ⟨.hbm, 686, rfl⟩
abbrev main_v639 : Ref sig .tc := ⟨.hbm, 687, rfl⟩
abbrev main_v640 : Ref sig .tc := ⟨.hbm, 688, rfl⟩
abbrev main_v641 : Ref sig .tc := ⟨.hbm, 689, rfl⟩
abbrev main_v642 : Ref sig .tc := ⟨.hbm, 690, rfl⟩
abbrev main_v643 : Ref sig .tc := ⟨.hbm, 691, rfl⟩
abbrev main_v644 : Ref sig .tc := ⟨.hbm, 692, rfl⟩
abbrev main_v645 : Ref sig .tc := ⟨.hbm, 693, rfl⟩
abbrev main_v646 : Ref sig .tc := ⟨.hbm, 694, rfl⟩
abbrev main_v647 : Ref sig .tc := ⟨.hbm, 695, rfl⟩
abbrev main_v648 : Ref sig .tc := ⟨.hbm, 696, rfl⟩
abbrev main_v649 : Ref sig .tc := ⟨.hbm, 697, rfl⟩
abbrev main_v650 : Ref sig .tc := ⟨.hbm, 698, rfl⟩
abbrev main_c_44 : Ref sig .tc := ⟨.hbm, 699, rfl⟩
abbrev main_v651 : Ref sig .tc := ⟨.hbm, 700, rfl⟩
abbrev main_v652 : Ref sig .tc := ⟨.hbm, 701, rfl⟩
abbrev main_v653 : Ref sig .tc := ⟨.hbm, 702, rfl⟩
abbrev main_v654 : Ref sig .tc := ⟨.hbm, 703, rfl⟩
abbrev main_v655 : Ref sig .tc := ⟨.hbm, 704, rfl⟩
abbrev main_v656 : Ref sig .tc := ⟨.hbm, 705, rfl⟩
abbrev main_v657 : Ref sig .tc := ⟨.hbm, 706, rfl⟩
abbrev main_v658 : Ref sig .tc := ⟨.hbm, 707, rfl⟩
abbrev main_v659 : Ref sig .tc := ⟨.hbm, 708, rfl⟩
abbrev main_c_45 : Ref sig .tc := ⟨.hbm, 709, rfl⟩
abbrev main_v660 : Ref sig .tc := ⟨.hbm, 710, rfl⟩
abbrev main_v661 : Ref sig .tc := ⟨.hbm, 711, rfl⟩
abbrev main_v662 : Ref sig .tc := ⟨.hbm, 712, rfl⟩
abbrev main_v663 : Ref sig .tc := ⟨.hbm, 713, rfl⟩
abbrev main_v664 : Ref sig .tc := ⟨.hbm, 714, rfl⟩
abbrev main_v665 : Ref sig .tc := ⟨.hbm, 715, rfl⟩
abbrev main_v666 : Ref sig .tc := ⟨.hbm, 716, rfl⟩
abbrev main_v667 : Ref sig .tc := ⟨.hbm, 717, rfl⟩
abbrev main_v668 : Ref sig .tc := ⟨.hbm, 718, rfl⟩
abbrev main_v669 : Ref sig .tc := ⟨.hbm, 719, rfl⟩
abbrev main_v670 : Ref sig .tc := ⟨.hbm, 720, rfl⟩
abbrev main_v671 : Ref sig .tc := ⟨.hbm, 721, rfl⟩
abbrev main_v672 : Ref sig .tc := ⟨.hbm, 722, rfl⟩
abbrev main_v673 : Ref sig .tc := ⟨.hbm, 723, rfl⟩
abbrev main_v674 : Ref sig .tc := ⟨.hbm, 724, rfl⟩
abbrev main_v675 : Ref sig .tc := ⟨.hbm, 725, rfl⟩
abbrev main_v676 : Ref sig .tc := ⟨.hbm, 726, rfl⟩
abbrev main_v677 : Ref sig .tc := ⟨.hbm, 727, rfl⟩
abbrev main_v678 : Ref sig .tc := ⟨.hbm, 728, rfl⟩
abbrev main_c_46 : Ref sig .tc := ⟨.hbm, 729, rfl⟩
abbrev main_v679 : Ref sig .tc := ⟨.hbm, 730, rfl⟩
abbrev main_v680 : Ref sig .tc := ⟨.hbm, 731, rfl⟩
abbrev main_v681 : Ref sig .tc := ⟨.hbm, 732, rfl⟩
abbrev main_v682 : Ref sig .tc := ⟨.hbm, 733, rfl⟩
abbrev main_v683 : Ref sig .tc := ⟨.hbm, 734, rfl⟩
abbrev main_v684 : Ref sig .tc := ⟨.hbm, 735, rfl⟩
abbrev main_v685 : Ref sig .tc := ⟨.hbm, 736, rfl⟩
abbrev main_v686 : Ref sig .tc := ⟨.hbm, 737, rfl⟩
abbrev main_v687 : Ref sig .tc := ⟨.hbm, 738, rfl⟩
abbrev main_c_47 : Ref sig .tc := ⟨.hbm, 739, rfl⟩
abbrev main_v688 : Ref sig .tc := ⟨.hbm, 740, rfl⟩
abbrev main_v689 : Ref sig .tc := ⟨.hbm, 741, rfl⟩
abbrev main_v690 : Ref sig .tc := ⟨.hbm, 742, rfl⟩
abbrev main_v691 : Ref sig .tc := ⟨.hbm, 743, rfl⟩
abbrev main_v692 : Ref sig .tc := ⟨.hbm, 744, rfl⟩
abbrev main_v693 : Ref sig .tc := ⟨.hbm, 745, rfl⟩
abbrev main_v694 : Ref sig .tc := ⟨.hbm, 746, rfl⟩
abbrev main_v695 : Ref sig .tc := ⟨.hbm, 747, rfl⟩
abbrev main_v696 : Ref sig .tc := ⟨.hbm, 748, rfl⟩
abbrev main_v697 : Ref sig .tc := ⟨.hbm, 749, rfl⟩
abbrev main_v698 : Ref sig .tc := ⟨.hbm, 750, rfl⟩
abbrev main_v699 : Ref sig .tc := ⟨.hbm, 751, rfl⟩
abbrev main_v700 : Ref sig .tc := ⟨.hbm, 752, rfl⟩
abbrev main_v701 : Ref sig .tc := ⟨.hbm, 753, rfl⟩
abbrev main_v702 : Ref sig .tc := ⟨.hbm, 754, rfl⟩
abbrev main_v703 : Ref sig .tc := ⟨.hbm, 755, rfl⟩
abbrev main_v704 : Ref sig .tc := ⟨.hbm, 756, rfl⟩
abbrev main_v705 : Ref sig .tc := ⟨.hbm, 757, rfl⟩
abbrev main_v706 : Ref sig .tc := ⟨.hbm, 758, rfl⟩
abbrev main_c_48 : Ref sig .tc := ⟨.hbm, 759, rfl⟩
abbrev main_v707 : Ref sig .tc := ⟨.hbm, 760, rfl⟩
abbrev main_v708 : Ref sig .tc := ⟨.hbm, 761, rfl⟩
abbrev main_v709 : Ref sig .tc := ⟨.hbm, 762, rfl⟩
abbrev main_v710 : Ref sig .tc := ⟨.hbm, 763, rfl⟩
abbrev main_v711 : Ref sig .tc := ⟨.hbm, 764, rfl⟩
abbrev main_v712 : Ref sig .tc := ⟨.hbm, 765, rfl⟩
abbrev main_v713 : Ref sig .tc := ⟨.hbm, 766, rfl⟩
abbrev main_v714 : Ref sig .tc := ⟨.hbm, 767, rfl⟩
abbrev main_v715 : Ref sig .tc := ⟨.hbm, 768, rfl⟩
abbrev main_c_49 : Ref sig .tc := ⟨.hbm, 769, rfl⟩
abbrev main_v716 : Ref sig .tc := ⟨.hbm, 770, rfl⟩
abbrev main_v717 : Ref sig .tc := ⟨.hbm, 771, rfl⟩
abbrev main_v718 : Ref sig .tc := ⟨.hbm, 772, rfl⟩
abbrev main_v719 : Ref sig .tc := ⟨.hbm, 773, rfl⟩
abbrev main_v720 : Ref sig .tc := ⟨.hbm, 774, rfl⟩
abbrev main_v721 : Ref sig .tc := ⟨.hbm, 775, rfl⟩
abbrev main_v722 : Ref sig .tc := ⟨.hbm, 776, rfl⟩
abbrev main_v723 : Ref sig .tc := ⟨.hbm, 777, rfl⟩
abbrev main_v724 : Ref sig .tc := ⟨.hbm, 778, rfl⟩
abbrev main_v725 : Ref sig .tc := ⟨.hbm, 779, rfl⟩
abbrev main_v726 : Ref sig .tc := ⟨.hbm, 780, rfl⟩
abbrev main_v727 : Ref sig .tc := ⟨.hbm, 781, rfl⟩
abbrev main_v728 : Ref sig .tc := ⟨.hbm, 782, rfl⟩
abbrev main_v729 : Ref sig .tc := ⟨.hbm, 783, rfl⟩
abbrev main_v730 : Ref sig .tc := ⟨.hbm, 784, rfl⟩
abbrev main_v731 : Ref sig .tc := ⟨.hbm, 785, rfl⟩
abbrev main_v732 : Ref sig .tc := ⟨.hbm, 786, rfl⟩
abbrev main_v733 : Ref sig .tc := ⟨.hbm, 787, rfl⟩
abbrev main_v734 : Ref sig .tc := ⟨.hbm, 788, rfl⟩
abbrev main_c_50 : Ref sig .tc := ⟨.hbm, 789, rfl⟩
abbrev main_v735 : Ref sig .tc := ⟨.hbm, 790, rfl⟩
abbrev main_v736 : Ref sig .tc := ⟨.hbm, 791, rfl⟩
abbrev main_v737 : Ref sig .tc := ⟨.hbm, 792, rfl⟩
abbrev main_v738 : Ref sig .tc := ⟨.hbm, 793, rfl⟩
abbrev main_v739 : Ref sig .tc := ⟨.hbm, 794, rfl⟩
abbrev main_v740 : Ref sig .tc := ⟨.hbm, 795, rfl⟩
abbrev main_v741 : Ref sig .tc := ⟨.hbm, 796, rfl⟩
abbrev main_v742 : Ref sig .tc := ⟨.hbm, 797, rfl⟩
abbrev main_v743 : Ref sig .tc := ⟨.hbm, 798, rfl⟩
abbrev main_c_51 : Ref sig .tc := ⟨.hbm, 799, rfl⟩
abbrev main_v744 : Ref sig .tc := ⟨.hbm, 800, rfl⟩
abbrev main_v745 : Ref sig .tc := ⟨.hbm, 801, rfl⟩
abbrev main_v746 : Ref sig .tc := ⟨.hbm, 802, rfl⟩
abbrev main_v747 : Ref sig .tc := ⟨.hbm, 803, rfl⟩
abbrev main_v748 : Ref sig .tc := ⟨.hbm, 804, rfl⟩
abbrev main_v749 : Ref sig .tc := ⟨.hbm, 805, rfl⟩
abbrev main_v750 : Ref sig .tc := ⟨.hbm, 806, rfl⟩
abbrev main_v751 : Ref sig .tc := ⟨.hbm, 807, rfl⟩
abbrev main_v752 : Ref sig .tc := ⟨.hbm, 808, rfl⟩
abbrev main_v753 : Ref sig .tc := ⟨.hbm, 809, rfl⟩
abbrev main_v754 : Ref sig .tc := ⟨.hbm, 810, rfl⟩
abbrev main_v755 : Ref sig .tc := ⟨.hbm, 811, rfl⟩
abbrev main_v756 : Ref sig .tc := ⟨.hbm, 812, rfl⟩
abbrev main_v757 : Ref sig .tc := ⟨.hbm, 813, rfl⟩
abbrev main_v758 : Ref sig .tc := ⟨.hbm, 814, rfl⟩
abbrev main_v759 : Ref sig .tc := ⟨.hbm, 815, rfl⟩
abbrev main_v760 : Ref sig .tc := ⟨.hbm, 816, rfl⟩
abbrev main_v761 : Ref sig .tc := ⟨.hbm, 817, rfl⟩
abbrev main_v762 : Ref sig .tc := ⟨.hbm, 818, rfl⟩
abbrev main_c_52 : Ref sig .tc := ⟨.hbm, 819, rfl⟩
abbrev main_v763 : Ref sig .tc := ⟨.hbm, 820, rfl⟩
abbrev main_v764 : Ref sig .tc := ⟨.hbm, 821, rfl⟩
abbrev main_v765 : Ref sig .tc := ⟨.hbm, 822, rfl⟩
abbrev main_v766 : Ref sig .tc := ⟨.hbm, 823, rfl⟩
abbrev main_v767 : Ref sig .tc := ⟨.hbm, 824, rfl⟩
abbrev main_v768 : Ref sig .tc := ⟨.hbm, 825, rfl⟩
abbrev main_v769 : Ref sig .tc := ⟨.hbm, 826, rfl⟩
abbrev main_v770 : Ref sig .tc := ⟨.hbm, 827, rfl⟩
abbrev main_v771 : Ref sig .tc := ⟨.hbm, 828, rfl⟩
abbrev main_c_53 : Ref sig .tc := ⟨.hbm, 829, rfl⟩
abbrev main_v772 : Ref sig .tc := ⟨.hbm, 830, rfl⟩
abbrev main_v773 : Ref sig .tc := ⟨.hbm, 831, rfl⟩
abbrev main_v774 : Ref sig .tc := ⟨.hbm, 832, rfl⟩
abbrev main_v775 : Ref sig .tc := ⟨.hbm, 833, rfl⟩
abbrev main_v776 : Ref sig .tc := ⟨.hbm, 834, rfl⟩
abbrev main_v777 : Ref sig .tc := ⟨.hbm, 835, rfl⟩
abbrev main_v778 : Ref sig .tc := ⟨.hbm, 836, rfl⟩
abbrev main_v779 : Ref sig .tc := ⟨.hbm, 837, rfl⟩
abbrev main_v780 : Ref sig .tc := ⟨.hbm, 838, rfl⟩
abbrev main_v781 : Ref sig .tc := ⟨.hbm, 839, rfl⟩
abbrev main_v782 : Ref sig .tc := ⟨.hbm, 840, rfl⟩
abbrev main_v783 : Ref sig .tc := ⟨.hbm, 841, rfl⟩
abbrev main_v784 : Ref sig .tc := ⟨.hbm, 842, rfl⟩
abbrev main_v785 : Ref sig .tc := ⟨.hbm, 843, rfl⟩
abbrev main_v786 : Ref sig .tc := ⟨.hbm, 844, rfl⟩
abbrev main_v787 : Ref sig .tc := ⟨.hbm, 845, rfl⟩
abbrev main_v788 : Ref sig .tc := ⟨.hbm, 846, rfl⟩
abbrev main_v789 : Ref sig .tc := ⟨.hbm, 847, rfl⟩
abbrev main_v790 : Ref sig .tc := ⟨.hbm, 848, rfl⟩
abbrev main_c_54 : Ref sig .tc := ⟨.hbm, 849, rfl⟩
abbrev main_v791 : Ref sig .tc := ⟨.hbm, 850, rfl⟩
abbrev main_v792 : Ref sig .tc := ⟨.hbm, 851, rfl⟩
abbrev main_v793 : Ref sig .tc := ⟨.hbm, 852, rfl⟩
abbrev main_v794 : Ref sig .tc := ⟨.hbm, 853, rfl⟩
abbrev main_v795 : Ref sig .tc := ⟨.hbm, 854, rfl⟩
abbrev main_v796 : Ref sig .tc := ⟨.hbm, 855, rfl⟩
abbrev main_v797 : Ref sig .tc := ⟨.hbm, 856, rfl⟩
abbrev main_v798 : Ref sig .tc := ⟨.hbm, 857, rfl⟩
abbrev main_v799 : Ref sig .tc := ⟨.hbm, 858, rfl⟩
abbrev main_c_55 : Ref sig .tc := ⟨.hbm, 859, rfl⟩
abbrev main_v800 : Ref sig .tc := ⟨.hbm, 860, rfl⟩
abbrev main_v801 : Ref sig .tc := ⟨.hbm, 861, rfl⟩
abbrev main_v802 : Ref sig .tc := ⟨.hbm, 862, rfl⟩
abbrev main_v803 : Ref sig .tc := ⟨.hbm, 863, rfl⟩
abbrev main_v804 : Ref sig .tc := ⟨.hbm, 864, rfl⟩
abbrev main_v805 : Ref sig .tc := ⟨.hbm, 865, rfl⟩
abbrev main_v806 : Ref sig .tc := ⟨.hbm, 866, rfl⟩
abbrev main_v807 : Ref sig .tc := ⟨.hbm, 867, rfl⟩
abbrev main_v808 : Ref sig .tc := ⟨.hbm, 868, rfl⟩
abbrev main_v809 : Ref sig .tc := ⟨.hbm, 869, rfl⟩

abbrev nD : Nat := 1
abbrev τ : Topo := Topo.v7x

variable {F : FTy → Type} [FloatOps F]

class Facts₀ : Prop where
  transposes_S64x256x256x16_S256x256x16x64_1_2_3_0 : S64x256x256x16.Transposes [1, 2, 3, 0] S256x256x16x64
  shapeCasts_S256x256x16x64_S65536x16x64 : S256x256x16x64.ShapeCasts S65536x16x64
  slices_S65536x16x64_S65536x8x64_0_0_0 : S65536x16x64.Slices ![0, 0, 0] S65536x8x64
  bcast_S_S8x8 : S_.BroadcastsInDim S8x8 (![] : Fin 0 → Fin S8x8.rank)
  slices_S65536x28_S65536x1_0_0 : S65536x28.Slices ![0, 0] S65536x1
  shapeCasts_S65536x1_S65536 : S65536x1.ShapeCasts S65536
  slices_S8x8_S1x8_0_0 : S8x8.Slices ![0, 0] S1x8
  shapeCasts_S1x8_S8 : S1x8.ShapeCasts S8
  slices_S8x8_S1x8_1_0 : S8x8.Slices ![1, 0] S1x8
  bcast_S8_S1x8_1 : S8.BroadcastsInDim S1x8 (![1] : Fin 1 → Fin S1x8.rank)
  bcast_S65536_S65536x1_0 : S65536.BroadcastsInDim S65536x1 (![0] : Fin 1 → Fin S65536x1.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  bcast_S_S1 : S_.BroadcastsInDim S1 (![] : Fin 0 → Fin S1.rank)
  bcast_S8x8_S65536x8x8_1_2 : S8x8.BroadcastsInDim S65536x8x8 (![1, 2] : Fin 2 → Fin S65536x8x8.rank)
  slices_S65536x28_S65536x1_0_1 : S65536x28.Slices ![0, 1] S65536x1
  slices_S65536x8x8_S65536x1x8_0_0_0 : S65536x8x8.Slices ![0, 0, 0] S65536x1x8
  shapeCasts_S65536x1x8_S65536x8 : S65536x1x8.ShapeCasts S65536x8
  slices_S65536x8x8_S65536x1x8_0_2_0 : S65536x8x8.Slices ![0, 2, 0] S65536x1x8
  slices_S65536x28_S65536x1_0_2 : S65536x28.Slices ![0, 2] S65536x1
  slices_S65536x8x8_S65536x1x8_0_3_0 : S65536x8x8.Slices ![0, 3, 0] S65536x1x8
  slices_S65536x28_S65536x1_0_3 : S65536x28.Slices ![0, 3] S65536x1
  slices_S65536x8x8_S65536x1x8_0_4_0 : S65536x8x8.Slices ![0, 4, 0] S65536x1x8
  slices_S65536x28_S65536x1_0_4 : S65536x28.Slices ![0, 4] S65536x1
  slices_S65536x8x8_S65536x1x8_0_5_0 : S65536x8x8.Slices ![0, 5, 0] S65536x1x8
  slices_S65536x28_S65536x1_0_5 : S65536x28.Slices ![0, 5] S65536x1
  slices_S65536x8x8_S65536x1x8_0_6_0 : S65536x8x8.Slices ![0, 6, 0] S65536x1x8
  slices_S65536x28_S65536x1_0_6 : S65536x28.Slices ![0, 6] S65536x1
  slices_S65536x8x8_S65536x1x8_0_7_0 : S65536x8x8.Slices ![0, 7, 0] S65536x1x8
  slices_S65536x28_S65536x1_0_7 : S65536x28.Slices ![0, 7] S65536x1
  slices_S65536x8x8_S65536x1x8_0_1_0 : S65536x8x8.Slices ![0, 1, 0] S65536x1x8
  slices_S65536x28_S65536x1_0_8 : S65536x28.Slices ![0, 8] S65536x1
  slices_S65536x28_S65536x1_0_9 : S65536x28.Slices ![0, 9] S65536x1
  slices_S65536x28_S65536x1_0_10 : S65536x28.Slices ![0, 10] S65536x1
  slices_S65536x28_S65536x1_0_11 : S65536x28.Slices ![0, 11] S65536x1
  slices_S65536x28_S65536x1_0_12 : S65536x28.Slices ![0, 12] S65536x1
  slices_S65536x28_S65536x1_0_13 : S65536x28.Slices ![0, 13] S65536x1
  slices_S65536x28_S65536x1_0_14 : S65536x28.Slices ![0, 14] S65536x1
  slices_S65536x28_S65536x1_0_15 : S65536x28.Slices ![0, 15] S65536x1
  slices_S65536x28_S65536x1_0_16 : S65536x28.Slices ![0, 16] S65536x1
  slices_S65536x28_S65536x1_0_17 : S65536x28.Slices ![0, 17] S65536x1
  slices_S65536x28_S65536x1_0_18 : S65536x28.Slices ![0, 18] S65536x1
  slices_S65536x28_S65536x1_0_19 : S65536x28.Slices ![0, 19] S65536x1
  slices_S65536x28_S65536x1_0_20 : S65536x28.Slices ![0, 20] S65536x1
  slices_S65536x28_S65536x1_0_21 : S65536x28.Slices ![0, 21] S65536x1
  slices_S65536x28_S65536x1_0_22 : S65536x28.Slices ![0, 22] S65536x1
  slices_S65536x28_S65536x1_0_23 : S65536x28.Slices ![0, 23] S65536x1
  slices_S65536x28_S65536x1_0_24 : S65536x28.Slices ![0, 24] S65536x1
  slices_S65536x28_S65536x1_0_25 : S65536x28.Slices ![0, 25] S65536x1
  slices_S65536x28_S65536x1_0_26 : S65536x28.Slices ![0, 26] S65536x1
  slices_S65536x28_S65536x1_0_27 : S65536x28.Slices ![0, 27] S65536x1
  bcast_S65536x8_S65536x8x1_0_1 : S65536x8.BroadcastsInDim S65536x8x1 (![0, 1] : Fin 2 → Fin S65536x8x1.rank)
  bcast_S65536x8x1_S65536x8x8_0_1_2 : S65536x8x1.BroadcastsInDim S65536x8x8 (![0, 1, 2] : Fin 3 → Fin S65536x8x8.rank)
  slices_S65536x16x64_S65536x8x64_0_8_0 : S65536x16x64.Slices ![0, 8, 0] S65536x8x64
  concatenates_S65536x8x64_S65536x8x64_S65536x16x64_d1 : Shape.Concatenates [S65536x8x64, S65536x8x64] S65536x16x64 1
  shapeCasts_S65536x16x64_S256x256x16x64 : S65536x16x64.ShapeCasts S256x256x16x64
  transposes_S256x256x16x64_S64x256x256x16_3_0_1_2 : S256x256x16x64.Transposes [3, 0, 1, 2] S64x256x256x16
  scatter_S65536x8x8_S1_S65536x8_01_1_1_0_wf : ScatterDims.WF S65536x8x8 S1 S65536x8 [0, 1] [1] [1] 0
  dot_S65536x8x8_S65536x8x64_S65536x8x64_1_1_2_2_0_0_wf : DotDims.WF S65536x8x8 S65536x8x64 S65536x8x64 [1] [1] [2] [2] [0] [0]

variable [Facts₀]

def scatter_S65536x8x8_S1_S65536x8_01_1_1_0 : ScatterDims S65536x8x8 S1 S65536x8 where
  updateWindowDims := [0, 1]
  insertedWindowDims := [1]
  scatterDimsToOperandDims := [1]
  indexVectorDim := 0
  wf := scatter_S65536x8x8_S1_S65536x8_01_1_1_0_wf
def dot_S65536x8x8_S65536x8x64_S65536x8x64_1_1_2_2_0_0 : DotDims S65536x8x8 S65536x8x64 S65536x8x64 where
  lhsContracting := [1]
  rhsContracting := [1]
  lhsNonContracting := [2]
  rhsNonContracting := [2]
  lhsBatch := [0]
  rhsBatch := [0]
  wf := dot_S65536x8x8_S65536x8x64_S65536x8x64_1_1_2_2_0_0_wf

class Facts : Prop extends Facts₀ where

variable [Facts]
-- ==== Proof.LoopPiecesBits.lean ====
/-
  The sample loop's pieces do not depend on what it finds in the output buffer.

  Each trip stores eight planes computed from the channels, angles and sign factors alone; the loads of the output buffer
  that precede each store are not used. So the list of pieces the first n trips write is the same from any starting
  contents of the output buffer.
-/
import proofs.«126786_j41601053229316_2_alg».proof.Proof.Gen.Kernel.Loops

set_option maxRecDepth 16384

noncomputable section

namespace Cert.Kernel.LoopPieces

open Cert.Kernel Cert.Kernel.Gen Idealize.ShloMosaic Idealize.ShloMosaic.TcCoe Idealize.ShloMosaic.Tactic
open Idealize.SL Idealize.SL.Sem

variable {F : FTy → Type} [FloatOps F]

/-- One trip's pieces are the same whatever the trip finds in the output buffer. -/
theorem tripL_indep (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole) (v2 : Vec F S4x256x28 .f32) (v5 : Vec F S4x256x28 .f32) (v8 : Vec F S4x256x8 .f32) (X_arg1 : BufTy.Contents (Elt F) arg1.view.ty) (k : Fin k0_t1_loop.trips) (f f' : BufTy.Contents (Elt F) arg4.view.ty) :
    tripL_k0_t1 (F := F) 𝒱 c bd i arg1 harg1 arg2 harg2 arg3 harg3 arg4 harg4 v2 v5 v8 X_arg1 k f = tripL_k0_t1 (F := F) 𝒱 c bd i arg1 harg1 arg2 harg2 arg3 harg3 arg4 harg4 v2 v5 v8 X_arg1 k f' := by
  unfold tripL_k0_t1
  unfold trip_k0_t1
  rfl

/-- The pieces of the first `n` trips are the same from any starting contents of the output buffer. -/
theorem pb_indep (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole) (v2 : Vec F S4x256x28 .f32) (v5 : Vec F S4x256x28 .f32) (v8 : Vec F S4x256x8 .f32) (X_arg1 : BufTy.Contents (Elt F) arg1.view.ty) (G G' : BufTy.Contents (Elt F) arg4.view.ty) (n : ℕ) :
    pb_k0_t1 (F := F) 𝒱 c bd i arg1 harg1 arg2 harg2 arg3 harg3 arg4 harg4 v2 v5 v8 X_arg1 G n = pb_k0_t1 (F := F) 𝒱 c bd i arg1 harg1 arg2 harg2 arg3 harg3 arg4 harg4 v2 v5 v8 X_arg1 G' n := by
  induction n with
  | zero => rfl
  | succ n ih =>
    rw [pb_k0_t1.eq_2, pb_k0_t1.eq_2, ih]
    unfold pb_k0_t1Step
    by_cases h : n < k0_t1_loop.trips
    · rw [dif_pos h, dif_pos h, tripL_indep 𝒱 c bd i arg1 harg1 arg2 harg2 arg3 harg3 arg4 harg4 v2 v5 v8 X_arg1 ⟨n, h⟩ _ (arg4.view.writes (Elt F) G' (pb_k0_t1 (F := F) 𝒱 c bd i arg1 harg1 arg2 harg2 arg3 harg3 arg4 harg4 v2 v5 v8 X_arg1 G' n))]
    · rw [dif_neg h, dif_neg h]

end Cert.Kernel.LoopPieces

end
-- ==== Proof.LoopPiecesIdeal.lean ====
/-
  The sample loop's pieces do not depend on what it finds in the output buffer.

  Each trip stores eight planes computed from the channels, angles and sign factors alone; the loads of the output buffer
  that precede each store are not used. So the list of pieces the first n trips write is the same from any starting
  contents of the output buffer.
-/
import proofs.«126786_j41601053229316_2_alg».proof.Proof.Gen.KernelIdeal.Loops

set_option maxRecDepth 16384

noncomputable section

namespace Cert.KernelIdeal.LoopPieces

open Cert.KernelIdeal Cert.KernelIdeal.Gen Idealize.ShloMosaic Idealize.ShloMosaic.TcCoe Idealize.ShloMosaic.Tactic
open Idealize.SL Idealize.SL.Sem

variable {F : FTy → Type} [FloatOps F]

/-- One trip's pieces are the same whatever the trip finds in the output buffer. -/
theorem tripL_indep (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole) (v2 : Vec F S4x256x28 .f32) (v5 : Vec F S4x256x28 .f32) (v8 : Vec F S4x256x8 .f32) (X_arg1 : BufTy.Contents (Elt F) arg1.view.ty) (k : Fin k0_t1_loop.trips) (f f' : BufTy.Contents (Elt F) arg4.view.ty) :
    tripL_k0_t1 (F := F) 𝒱 c bd i arg1 harg1 arg2 harg2 arg3 harg3 arg4 harg4 v2 v5 v8 X_arg1 k f = tripL_k0_t1 (F := F) 𝒱 c bd i arg1 harg1 arg2 harg2 arg3 harg3 arg4 harg4 v2 v5 v8 X_arg1 k f' := by
  unfold tripL_k0_t1
  unfold trip_k0_t1
  rfl

/-- The pieces of the first `n` trips are the same from any starting contents of the output buffer. -/
theorem pb_indep (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole) (v2 : Vec F S4x256x28 .f32) (v5 : Vec F S4x256x28 .f32) (v8 : Vec F S4x256x8 .f32) (X_arg1 : BufTy.Contents (Elt F) arg1.view.ty) (G G' : BufTy.Contents (Elt F) arg4.view.ty) (n : ℕ) :
    pb_k0_t1 (F := F) 𝒱 c bd i arg1 harg1 arg2 harg2 arg3 harg3 arg4 harg4 v2 v5 v8 X_arg1 G n = pb_k0_t1 (F := F) 𝒱 c bd i arg1 harg1 arg2 harg2 arg3 harg3 arg4 harg4 v2 v5 v8 X_arg1 G' n := by
  induction n with
  | zero => rfl
  | succ n ih =>
    rw [pb_k0_t1.eq_2, pb_k0_t1.eq_2, ih]
    unfold pb_k0_t1Step
    by_cases h : n < k0_t1_loop.trips
    · rw [dif_pos h, dif_pos h, tripL_indep 𝒱 c bd i arg1 harg1 arg2 harg2 arg3 harg3 arg4 harg4 v2 v5 v8 X_arg1 ⟨n, h⟩ _ (arg4.view.writes (Elt F) G' (pb_k0_t1 (F := F) 𝒱 c bd i arg1 harg1 arg2 harg2 arg3 harg3 arg4 harg4 v2 v5 v8 X_arg1 G' n))]
    · rw [dif_neg h, dif_neg h]

end Cert.KernelIdeal.LoopPieces

end
-- ==== Proof.Givens.lean ====
/-
  The mathematics both programs compute, stated once over the extended reals and over plain index types.

  A spatial block carries 28 angles, 8 sign factors and, per sample, 16 channels. The first 8 channels pass through.
  The last 8 are multiplied by the transpose of R = diag(mu) · G_27 ⋯ G_0, where G_k is the planar rotation by
  angle k in the coordinate pair (pT k, pB k), the pairs (t, b), t < b, in lexicographic order.

  One program builds R row by row (`mat`, `stepR`) and contracts it with the channels (`applied`); the other never
  builds R: it scales the channels by mu and applies the transposed rotations G_27ᵀ, …, G_0ᵀ in that order
  (`casc`, `stepT`, `rotated`). `Gat` / `G` is the whole result array in the second form.
-/
import Idealize.ShloMosaic.PureOps.Ideal
import Idealize.ShloMosaic.Lib.ValueIdx

noncomputable section

namespace Cert.Givens

open Idealize.ShloMosaic Idealize.ShloMosaic.ValueIdx

/-- The first coordinate of pair `k` (the index is read modulo 28; only `k < 28` is ever used). -/
def pT (k : ℕ) : Fin 8 :=
  (![0,0,0,0,0,0,0, 1,1,1,1,1,1, 2,2,2,2,2, 3,3,3,3, 4,4,4, 5,5, 6] : Fin 28 → Fin 8) (Fin.ofNat 28 k)

/-- The second coordinate of pair `k` (the index read the same way). -/
def pB (k : ℕ) : Fin 8 :=
  (![1,2,3,4,5,6,7, 2,3,4,5,6,7, 3,4,5,6,7, 4,5,6,7, 5,6,7, 6,7, 7] : Fin 28 → Fin 8) (Fin.ofNat 28 k)

/-- The transposed rotation on a vector: coordinates `t` and `b` become `c·w_t + s·w_b` and `(0 − s)·w_t + c·w_b`. -/
def stepT (c s : EReal) (t b : Fin 8) (w : Fin 8 → EReal) : Fin 8 → EReal :=
  fun i => if i = t then c * w t + s * w b else if i = b then (0 - s) * w t + c * w b else w i

/-- The rotation on a matrix's rows: rows `t` and `b` become `c·R_t − s·R_b` and `s·R_t + c·R_b` (both of the OLD rows). -/
def stepR (c s : EReal) (t b : Fin 8) (R : Fin 8 → Fin 8 → EReal) : Fin 8 → Fin 8 → EReal :=
  fun i j => if i = b then s * R t j + c * R b j else if i = t then c * R t j - s * R b j else R i j

/-- The matrix after the first `n` rotations, from the identity. -/
def mat (c s : ℕ → EReal) : ℕ → Fin 8 → Fin 8 → EReal
  | 0 => fun i j => if i = j then 1 else 0
  | n + 1 => stepR (c n) (s n) (pT n) (pB n) (mat c s n)

/-- The transposed rotations `n − 1, …, 0` applied to a vector, in that order. -/
def casc (c s : ℕ → EReal) : ℕ → (Fin 8 → EReal) → Fin 8 → EReal
  | 0, w => w
  | n + 1, w => casc c s n (stepT (c n) (s n) (pT n) (pB n) w)

/-- Rᵀ·x with R = diag(mu)·(the 28 rotations), by contraction with the built matrix. -/
def applied (c s : ℕ → EReal) (mu x : Fin 8 → EReal) : Fin 8 → EReal :=
  fun i => ∑ j : Fin 8, (mu j * mat c s 28 j i) * x j

/-- The same vector, by scaling and rotating `x` directly. -/
def rotated (c s : ℕ → EReal) (mu x : Fin 8 → EReal) : Fin 8 → EReal :=
  casc c s 28 (fun j => mu j * x j)

/-- Spatial block `(r, q)` in row-major order. -/
def blkOf (r q : Fin 256) : Fin 65536 := ⟨r.val * 256 + q.val, by omega⟩

/-- Channel `8 + j`. -/
def hi (j : Fin 8) : Fin 16 := ⟨8 + j.val, by omega⟩

/-- The cosines of a row of 28 angles, as a sequence (0 beyond). -/
def cosSeq (a : Fin 28 → EReal) : ℕ → EReal := fun k => if h : k < 28 then Ideal.cos (a ⟨k, h⟩) else 0

/-- The sines of a row of 28 angles, as a sequence (0 beyond). -/
def sinSeq (a : Fin 28 → EReal) : ℕ → EReal := fun k => if h : k < 28 then Ideal.sin (a ⟨k, h⟩) else 0

/-- The result at sample `n`, block `(r, q)`, channel `ch`. -/
def Gat (X : (⟨4, ![64, 256, 256, 16]⟩ : Shape).Idx → EReal) (A : (⟨2, ![65536, 28]⟩ : Shape).Idx → EReal)
    (M : (⟨2, ![65536, 8]⟩ : Shape).Idx → EReal) (n : Fin 64) (r q : Fin 256) (ch : Fin 16) : EReal :=
  if h : ch.val < 8 then X (ix4 n r q ch)
  else rotated (cosSeq fun k => A (ix2 (blkOf r q) k)) (sinSeq fun k => A (ix2 (blkOf r q) k))
    (fun j => M (ix2 (blkOf r q) j)) (fun j => X (ix4 n r q (hi j))) ⟨ch.val - 8, by omega⟩

/-- One grid point's output block [64, 4, 256, 16] as a function of its input blocks: the channels block `x0`, the angles
    block (read once for the cosines, `xc`, once for the sines, `xs`: the same array) and the sign-factor block `x2`. -/
def blockFn (x0 : (⟨4, ![64, 4, 256, 16]⟩ : Shape).Idx → EReal) (xc xs : (⟨3, ![4, 256, 28]⟩ : Shape).Idx → EReal)
    (x2 : (⟨3, ![4, 256, 8]⟩ : Shape).Idx → EReal) : (⟨4, ![64, 4, 256, 16]⟩ : Shape).Idx → EReal :=
  fun y => if h : (y 3).val < 8 then x0 y
    else rotated (cosSeq fun a => xc (ix3 (y 1) (y 2) a)) (sinSeq fun a => xs (ix3 (y 1) (y 2) a))
      (fun b => x2 (ix3 (y 1) (y 2) b)) (fun b => x0 (ix4 (y 0) (y 1) (y 2) (hi b))) ⟨(y 3).val - 8, by have h16 : (y 3).val < 16 := (y 3).isLt; omega⟩

/-- The whole result array. -/
def G (X : (⟨4, ![64, 256, 256, 16]⟩ : Shape).Idx → EReal) (A : (⟨2, ![65536, 28]⟩ : Shape).Idx → EReal)
    (M : (⟨2, ![65536, 8]⟩ : Shape).Idx → EReal) : (⟨4, ![64, 256, 256, 16]⟩ : Shape).Idx → EReal :=
  fun y => Gat X A M (y 0) (y 1) (y 2) (y 3)

theorem G_ix4 (X A M) (n : Fin 64) (r q : Fin 256) (ch : Fin 16) : G X A M (ix4 n r q ch) = Gat X A M n r q ch := rfl

end Cert.Givens

end
-- ==== Proof.KerTrip.lean ====
/-
  One trip of the sample loop, as pieces of the output block.

  Trip k loads the sample's eight upper channel planes [4, 256], scales plane j by the sign factors' column j, applies the
  28 transposed planar rotations (steps 27, …, 0, with the angle block's cosines and sines, column by column) and stores
  the eight resulting planes at (k, ·, ·, 8 + j). Each stored plane is the block function `blockFn` restricted to its
  rectangle: entry (p, q) of plane j is `rotated` of that position's cosines, sines, sign factors and channels, at j.

  The proof has three layers. (1) The same arithmetic is written once more as a recursion on planes (`vcasc`, the plane
  counterpart of `Givens.casc`) with the trip's operations in the trip's order, and each stored plane IS the recursion's
  plane j — the two are one tree of operations, so the equation holds by unfolding. (2) Every operation of the recursion
  acts entry by entry, so plane j at position (p, q) is `Givens.casc` of the numbers at (p, q) (`vcasc_apply`, an induction
  on the number of rotations), and the columns and loaded planes read the arrays at the expected indices. (3) A stored
  plane [4, 256] → [1, 4, 256, 1] placed at offset (k, 0, 0, 8 + j) covers exactly the indices (k, p, q, 8 + j), where the
  block function is `rotated … j`.
-/
import proofs.«126786_j41601053229316_2_alg».proof.Proof.Gen.KernelIdeal.Loops
import proofs.«126786_j41601053229316_2_alg».proof.Proof.Givens
import Idealize.ShloMosaic.Lib.Pipeline.Value
import Idealize.ShloMosaic.Lib.ValueLayout
import Idealize.ShloMosaic.Lib.WholeRead
import Idealize.ShloMosaic.PureOps.Ideal.Laws

set_option maxRecDepth 16384

noncomputable section

namespace Cert.KerTrip

open Cert.KernelIdeal Cert.KernelIdeal.Gen Idealize.ShloMosaic Idealize.ShloMosaic.TcCoe Idealize.ShloMosaic.Tactic Idealize.SL Idealize.SL.Sem Idealize.ShloMosaic.ValueIdx Cert.Givens

/-! ## The trip's arithmetic, on planes -/

/-- Column `c` of a [4, 256, n] block, as a [4, 256] plane (the zero plane past the last column). -/
def colPlane {n : ℕ} (V : (⟨3, ![4, 256, n]⟩ : Shape).Idx → EReal) (c : ℕ) : FVec Ideal S4x256 .f32 :=
  if h : c < n then
    shapeCast S4x256 (extractStridedSlice S4x256x1 ![0, 0, c] V
      ⟨rfl, fun a => match a with
        | ⟨0, _⟩ => Nat.le_refl 4
        | ⟨1, _⟩ => Nat.le_refl 256
        | ⟨2, _⟩ => h⟩) (by decide)
  else fun _ => (0 : EReal)

/-- The zero plane the kernel subtracts the sines from. -/
def zeroPlane : FVec Ideal S4x256 .f32 := broadcast S4x256 (Scalar.ofBits (F := Ideal) .f32 0x00000000#32)

/-- One transposed rotation on eight planes, with the kernel's operations in the kernel's order. -/
def vstep (cc ss : FVec Ideal S4x256 .f32) (t b : Fin 8) (w : Fin 8 → FVec Ideal S4x256 .f32) : Fin 8 → FVec Ideal S4x256 .f32 :=
  fun i => if i = t then addf (mulf cc (w t)) (mulf ss (w b))
    else if i = b then addf (mulf (subf zeroPlane ss) (w t)) (mulf cc (w b)) else w i

/-- The rotations `n − 1, …, 0` on eight planes, in that order. -/
def vcasc (cc ss : ℕ → FVec Ideal S4x256 .f32) : ℕ → (Fin 8 → FVec Ideal S4x256 .f32) → Fin 8 → FVec Ideal S4x256 .f32
  | 0, w => w
  | n + 1, w => vcasc cc ss n (vstep (cc n) (ss n) (pT n) (pB n) w)

/-- Sample `k`'s upper channel plane `j`, as the trip loads it. -/
def xPlane (arg1 : Memref sig .tc .vmem S64x4x256x16 .f32) (harg1 : arg1.IsWhole) (x0 : Vec Ideal S64x4x256x16 .f32)
    (k : Fin k0_t1_loop.trips) (j : Fin 8) : FVec Ideal S4x256 .f32 :=
  match j with
  | ⟨0, _⟩ => shapeCast S4x256 (View.readAt (Elt Ideal) arg1.view (Rect.unit (s := S64x4x256x16) (k0_off1 k) S1x4x256x1.size (k0_off1_inb k)).toLoadRect (harg1.unread x0)) (by decide : S1x4x256x1.ShapeCasts S4x256)
  | ⟨1, _⟩ => shapeCast S4x256 (View.readAt (Elt Ideal) arg1.view (Rect.unit (s := S64x4x256x16) (k0_off2 k) S1x4x256x1.size (k0_off2_inb k)).toLoadRect (harg1.unread x0)) (by decide : S1x4x256x1.ShapeCasts S4x256)
  | ⟨2, _⟩ => shapeCast S4x256 (View.readAt (Elt Ideal) arg1.view (Rect.unit (s := S64x4x256x16) (k0_off3 k) S1x4x256x1.size (k0_off3_inb k)).toLoadRect (harg1.unread x0)) (by decide : S1x4x256x1.ShapeCasts S4x256)
  | ⟨3, _⟩ => shapeCast S4x256 (View.readAt (Elt Ideal) arg1.view (Rect.unit (s := S64x4x256x16) (k0_off4 k) S1x4x256x1.size (k0_off4_inb k)).toLoadRect (harg1.unread x0)) (by decide : S1x4x256x1.ShapeCasts S4x256)
  | ⟨4, _⟩ => shapeCast S4x256 (View.readAt (Elt Ideal) arg1.view (Rect.unit (s := S64x4x256x16) (k0_off5 k) S1x4x256x1.size (k0_off5_inb k)).toLoadRect (harg1.unread x0)) (by decide : S1x4x256x1.ShapeCasts S4x256)
  | ⟨5, _⟩ => shapeCast S4x256 (View.readAt (Elt Ideal) arg1.view (Rect.unit (s := S64x4x256x16) (k0_off6 k) S1x4x256x1.size (k0_off6_inb k)).toLoadRect (harg1.unread x0)) (by decide : S1x4x256x1.ShapeCasts S4x256)
  | ⟨6, _⟩ => shapeCast S4x256 (View.readAt (Elt Ideal) arg1.view (Rect.unit (s := S64x4x256x16) (k0_off7 k) S1x4x256x1.size (k0_off7_inb k)).toLoadRect (harg1.unread x0)) (by decide : S1x4x256x1.ShapeCasts S4x256)
  | ⟨7, _⟩ => shapeCast S4x256 (View.readAt (Elt Ideal) arg1.view (Rect.unit (s := S64x4x256x16) (k0_off8 k) S1x4x256x1.size (k0_off8_inb k)).toLoadRect (harg1.unread x0)) (by decide : S1x4x256x1.ShapeCasts S4x256)

/-- The eight planes the rotations start from: plane `j` scaled by the sign factors' column `j`. -/
def wStart (arg1 : Memref sig .tc .vmem S64x4x256x16 .f32) (harg1 : arg1.IsWhole) (v8 : Vec Ideal S4x256x8 .f32)
    (x0 : Vec Ideal S64x4x256x16 .f32) (k : Fin k0_t1_loop.trips) : Fin 8 → FVec Ideal S4x256 .f32 :=
  fun j => mulf (colPlane (k0_pay3 v8) j.val) (xPlane arg1 harg1 x0 k j)

/-- Plane `j` after the 28 rotations. -/
def outPlane (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) (j : Fin 8) : FVec Ideal S4x256 .f32 :=
  vcasc (colPlane (k0_pay1 v2)) (colPlane (k0_pay2 v5)) 28 (wStart arg1 harg1 v8 x0 k) j

/-! ## The stored planes are the recursion's planes

Both sides are the same tree of plane operations (column slices, loads, products, sums, differences from the zero plane), so
each equation holds by unfolding the definitions. -/

set_option maxHeartbeats 4000000 in
/-- The plane stored at channel 8 is plane 0 of the recursion. -/
theorem plane0 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay136 (k0_pay1 v2) (k0_pay2 v5) (trip_k0_t1.sl.r_46 arg1 v2 v5 v8 (harg1.unread x0) k) (trip_k0_t1.sl.r_58 arg1 v2 v5 v8 (harg1.unread x0) k)
      = shapeCast S1x4x256x1 (outPlane arg1 harg1 v2 v5 v8 x0 k 0) (by decide : S4x256.ShapeCasts S1x4x256x1) := by
  rfl

set_option maxHeartbeats 4000000 in
/-- The plane stored at channel 9 is plane 1 of the recursion. -/
theorem plane1 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay137 (k0_pay1 v2) (k0_pay2 v5) (trip_k0_t1.sl.r_46 arg1 v2 v5 v8 (harg1.unread x0) k) (trip_k0_t1.sl.r_58 arg1 v2 v5 v8 (harg1.unread x0) k)
      = shapeCast S1x4x256x1 (outPlane arg1 harg1 v2 v5 v8 x0 k 1) (by decide : S4x256.ShapeCasts S1x4x256x1) := by
  rfl

set_option maxHeartbeats 4000000 in
/-- The plane stored at channel 10 is plane 2 of the recursion. -/
theorem plane2 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay138 (trip_k0_t1.sl.r_47 arg1 v2 v5 v8 (harg1.unread x0) k) (trip_k0_t1.sl.r_54 arg1 v2 v5 v8 (harg1.unread x0) k) (trip_k0_t1.sl.r_56 v2) (trip_k0_t1.sl.r_57 v5) k0_pay133
      = shapeCast S1x4x256x1 (outPlane arg1 harg1 v2 v5 v8 x0 k 2) (by decide : S4x256.ShapeCasts S1x4x256x1) := by
  rfl

set_option maxHeartbeats 4000000 in
/-- The plane stored at channel 11 is plane 3 of the recursion. -/
theorem plane3 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay139 (trip_k0_t1.sl.r_55 arg1 v2 v5 v8 (harg1.unread x0) k)
      = shapeCast S1x4x256x1 (outPlane arg1 harg1 v2 v5 v8 x0 k 3) (by decide : S4x256.ShapeCasts S1x4x256x1) := by
  rfl

set_option maxHeartbeats 4000000 in
/-- The plane stored at channel 12 is plane 4 of the recursion. -/
theorem plane4 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay140 (trip_k0_t1.sl.r_53 arg1 v2 v5 v8 (harg1.unread x0) k)
      = shapeCast S1x4x256x1 (outPlane arg1 harg1 v2 v5 v8 x0 k 4) (by decide : S4x256.ShapeCasts S1x4x256x1) := by
  rfl

set_option maxHeartbeats 4000000 in
/-- The plane stored at channel 13 is plane 5 of the recursion. -/
theorem plane5 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay4 (trip_k0_t1.sl.r_52 arg1 v2 v5 v8 (harg1.unread x0) k)
      = shapeCast S1x4x256x1 (outPlane arg1 harg1 v2 v5 v8 x0 k 5) (by decide : S4x256.ShapeCasts S1x4x256x1) := by
  rfl

set_option maxHeartbeats 4000000 in
/-- The plane stored at channel 14 is plane 6 of the recursion. -/
theorem plane6 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay5 (trip_k0_t1.sl.r_51 arg1 v2 v5 v8 (harg1.unread x0) k)
      = shapeCast S1x4x256x1 (outPlane arg1 harg1 v2 v5 v8 x0 k 6) (by decide : S4x256.ShapeCasts S1x4x256x1) := by
  rfl

set_option maxHeartbeats 4000000 in
/-- The plane stored at channel 15 is plane 7 of the recursion. -/
theorem plane7 (arg1 : Memref sig .tc .vmem S64x4x256x16 .f32) (harg1 : arg1.IsWhole) (v2 v5 : Vec Ideal S4x256x28 .f32) (v8 : Vec Ideal S4x256x8 .f32)
    (x0 : Vec Ideal S64x4x256x16 .f32) (k : Fin k0_t1_loop.trips) :
    k0_pay6 (trip_k0_t1.sl.r_49 arg1 v2 v5 v8 (harg1.unread x0) k)
      = shapeCast S1x4x256x1 (outPlane arg1 harg1 v2 v5 v8 x0 k 7) (by decide : S4x256.ShapeCasts S1x4x256x1) := by
  rfl

/-! ## Reading the planes at one position -/

/-- A column plane at (p, q) is the block at (p, q, c), and 0 past the last column. -/
theorem colPlane_apply {n : ℕ} (V : (⟨3, ![4, 256, n]⟩ : Shape).Idx → EReal) (c : ℕ) (p : Fin 4) (q : Fin 256) :
    colPlane V c (ix2 p q) = if h : c < n then V (ix3 p q ⟨c, h⟩) else 0 := by
  unfold colPlane
  by_cases h : c < n
  · rw [dif_pos h, dif_pos h]
    refine (shapeCast_apply _ _ (ix2 p q) (ix3 p q (0 : Fin 1)) ?_).trans ?_
    · rw [Shape.rowMajor_val_three, Shape.rowMajor_val_two]
      show (p.val * 256 + q.val) * 1 + 0 = p.val * 256 + q.val
      omega
    · exact extractStridedSlice_apply _ V _ (ix3 p q (0 : Fin 1)) (ix3 p q ⟨c, h⟩) fun a => match a with
        | ⟨0, _⟩ => (Nat.zero_add _).symm
        | ⟨1, _⟩ => (Nat.zero_add _).symm
        | ⟨2, _⟩ => rfl
  · rw [dif_neg h, dif_neg h]

/-- The zero plane is 0 everywhere. -/
theorem zeroPlane_apply (y : S4x256.Idx) : zeroPlane y = 0 := Ideal.ofBits_zero_f32

/-- One rotation on planes, read at a position, is the rotation of the numbers there. -/
theorem vstep_apply (cc ss : FVec Ideal S4x256 .f32) (t b : Fin 8) (w : Fin 8 → FVec Ideal S4x256 .f32) (i : Fin 8) (y : S4x256.Idx) :
    vstep cc ss t b w i y = stepT (cc y) (ss y) t b (fun j => w j y) i := by
  unfold vstep stepT
  by_cases h1 : i = t
  · rw [if_pos h1, if_pos h1]; rfl
  · rw [if_neg h1, if_neg h1]
    by_cases h2 : i = b
    · rw [if_pos h2, if_pos h2]
      show (zeroPlane y - ss y) * w t y + cc y * w b y = _
      rw [zeroPlane_apply]
    · rw [if_neg h2, if_neg h2]

/-- The rotations on planes, read at a position, are the rotations of the numbers there. -/
theorem vcasc_apply (cc ss : ℕ → FVec Ideal S4x256 .f32) (y : S4x256.Idx) :
    ∀ (n : ℕ) (w : Fin 8 → FVec Ideal S4x256 .f32) (i : Fin 8),
      vcasc cc ss n w i y = casc (fun k => cc k y) (fun k => ss k y) n (fun j => w j y) i
  | 0, _, _ => rfl
  | n + 1, w, i => by
    show vcasc cc ss n (vstep (cc n) (ss n) (pT n) (pB n) w) i y
      = casc (fun k => cc k y) (fun k => ss k y) n (stepT (cc n y) (ss n y) (pT n) (pB n) (fun j => w j y)) i
    rw [vcasc_apply cc ss y n]
    exact congrArg (fun W => casc (fun k => cc k y) (fun k => ss k y) n W i)
      (funext fun j => vstep_apply (cc n) (ss n) (pT n) (pB n) w j y)

/-- The cosine block's column c at (p, q) is the c-th cosine of the angles at (p, q). -/
theorem cosPlane_apply (v2 : Vec Ideal S4x256x28 .f32) (c : ℕ) (p : Fin 4) (q : Fin 256) :
    colPlane (k0_pay1 v2) c (ix2 p q) = cosSeq (fun a => v2 (ix3 p q a)) c := by
  rw [colPlane_apply]
  unfold cosSeq
  by_cases h : c < 28
  · rw [dif_pos h, dif_pos h]
    unfold k0_pay1
    show Ideal.cos (shapeCast S4x256x28 v2 _ (ix3 p q ⟨c, h⟩)) = _
    rw [shapeCast_self]
  · rw [dif_neg h, dif_neg h]

/-- The sine block's column c at (p, q) is the c-th sine of the angles at (p, q). -/
theorem sinPlane_apply (v5 : Vec Ideal S4x256x28 .f32) (c : ℕ) (p : Fin 4) (q : Fin 256) :
    colPlane (k0_pay2 v5) c (ix2 p q) = sinSeq (fun a => v5 (ix3 p q a)) c := by
  rw [colPlane_apply]
  unfold sinSeq
  by_cases h : c < 28
  · rw [dif_pos h, dif_pos h]
    unfold k0_pay2
    show Ideal.sin (shapeCast S4x256x28 v5 _ (ix3 p q ⟨c, h⟩)) = _
    rw [shapeCast_self]
  · rw [dif_neg h, dif_neg h]

/-- The sign-factor block's column j at (p, q). -/
theorem muPlane_apply (v8 : Vec Ideal S4x256x8 .f32) (j : Fin 8) (p : Fin 4) (q : Fin 256) :
    colPlane (k0_pay3 v8) j.val (ix2 p q) = v8 (ix3 p q j) := by
  rw [colPlane_apply, dif_pos j.isLt]
  unfold k0_pay3
  show shapeCast S4x256x8 v8 _ (ix3 p q ⟨j.val, j.isLt⟩) = _
  rw [shapeCast_self]

/-- A unit-stride [1, 4, 256, 1] rectangle at offset (k, 0, 0, ch) places (0, p, q, 0) at (k, p, q, ch). -/
theorem idx_load (off : Fin 4 → ℕ) (kk : Fin 64) (ch : Fin 16) (hoff : off = ![kk.val, 0, 0, ch.val])
    (inb : ∀ a, off a + S1x4x256x1.size a ≤ S64x4x256x16.size a) (p : Fin 4) (q : Fin 256) :
    (Rect.unit (s := S64x4x256x16) off S1x4x256x1.size inb).emb (ix4 (0 : Fin 1) p q (0 : Fin 1)) = ix4 kk p q ch := by
  subst hoff
  funext a
  apply Fin.ext
  match a with
  | ⟨0, _⟩ => show kk.val + 1 * 0 = kk.val; omega
  | ⟨1, _⟩ => show 0 + 1 * p.val = p.val; omega
  | ⟨2, _⟩ => show 0 + 1 * q.val = q.val; omega
  | ⟨3, _⟩ => show ch.val + 1 * 0 = ch.val; omega

/-- A plane loaded through such a rectangle from the block x0, at (p, q), is x0 at (k, p, q, ch). -/
theorem load_apply (arg1 : Memref sig .tc .vmem S64x4x256x16 .f32) (harg1 : arg1.IsWhole) (x0 : Vec Ideal S64x4x256x16 .f32)
    (off : Fin 4 → ℕ) (kk : Fin 64) (ch : Fin 16) (hoff : off = ![kk.val, 0, 0, ch.val])
    (inb : ∀ a, off a + S1x4x256x1.size a ≤ S64x4x256x16.size a) (hc : S1x4x256x1.ShapeCasts S4x256) (p : Fin 4) (q : Fin 256) :
    shapeCast S4x256 (View.readAt (Elt Ideal) arg1.view (Rect.unit (s := S64x4x256x16) off S1x4x256x1.size inb).toLoadRect (harg1.unread x0)) hc (ix2 p q)
      = x0 (ix4 kk p q ch) := by
  refine (shapeCast_apply _ hc (ix2 p q) (ix4 (0 : Fin 1) p q (0 : Fin 1)) ?_).trans ?_
  · rw [Shape.rowMajor_val_four, Shape.rowMajor_val_two]
    show ((0 * 4 + p.val) * 256 + q.val) * 1 + 0 = p.val * 256 + q.val
    omega
  · refine (harg1.readAt_unread x0 _ _).trans ?_
    exact congrArg x0 (idx_load off kk ch hoff inb p q)

/-- The loaded plane j of sample k at (p, q) is channel 8 + j of the block at (k, p, q). -/
theorem xPlane_apply (arg1 : Memref sig .tc .vmem S64x4x256x16 .f32) (harg1 : arg1.IsWhole) (x0 : Vec Ideal S64x4x256x16 .f32)
    (k : Fin k0_t1_loop.trips) (hk : k.val < 64) (j : Fin 8) (p : Fin 4) (q : Fin 256) :
    xPlane arg1 harg1 x0 k j (ix2 p q) = x0 (ix4 (⟨k.val, hk⟩ : Fin 64) p q (hi j)) := by
  match j with
  | ⟨0, _⟩ => exact load_apply arg1 harg1 x0 _ ⟨k.val, hk⟩ (hi 0) (k0_off1_eq k) _ _ p q
  | ⟨1, _⟩ => exact load_apply arg1 harg1 x0 _ ⟨k.val, hk⟩ (hi 1) (k0_off2_eq k) _ _ p q
  | ⟨2, _⟩ => exact load_apply arg1 harg1 x0 _ ⟨k.val, hk⟩ (hi 2) (k0_off3_eq k) _ _ p q
  | ⟨3, _⟩ => exact load_apply arg1 harg1 x0 _ ⟨k.val, hk⟩ (hi 3) (k0_off4_eq k) _ _ p q
  | ⟨4, _⟩ => exact load_apply arg1 harg1 x0 _ ⟨k.val, hk⟩ (hi 4) (k0_off5_eq k) _ _ p q
  | ⟨5, _⟩ => exact load_apply arg1 harg1 x0 _ ⟨k.val, hk⟩ (hi 5) (k0_off6_eq k) _ _ p q
  | ⟨6, _⟩ => exact load_apply arg1 harg1 x0 _ ⟨k.val, hk⟩ (hi 6) (k0_off7_eq k) _ _ p q
  | ⟨7, _⟩ => exact load_apply arg1 harg1 x0 _ ⟨k.val, hk⟩ (hi 7) (k0_off8_eq k) _ _ p q

/-- Plane j after the rotations, at (p, q): `rotated` of that position's cosines, sines, sign factors and channels, at j. -/
theorem outPlane_apply (arg1 : Memref sig .tc .vmem S64x4x256x16 .f32) (harg1 : arg1.IsWhole) (v2 v5 : Vec Ideal S4x256x28 .f32)
    (v8 : Vec Ideal S4x256x8 .f32) (x0 : Vec Ideal S64x4x256x16 .f32) (k : Fin k0_t1_loop.trips) (hk : k.val < 64) (j : Fin 8)
    (p : Fin 4) (q : Fin 256) :
    outPlane arg1 harg1 v2 v5 v8 x0 k j (ix2 p q)
      = rotated (cosSeq fun a => v2 (ix3 p q a)) (sinSeq fun a => v5 (ix3 p q a)) (fun b => v8 (ix3 p q b))
          (fun b => x0 (ix4 (⟨k.val, hk⟩ : Fin 64) p q (hi b))) j := by
  unfold outPlane rotated
  rw [vcasc_apply]
  have hc : (fun c => colPlane (k0_pay1 v2) c (ix2 p q)) = cosSeq (fun a => v2 (ix3 p q a)) :=
    funext fun c => cosPlane_apply v2 c p q
  have hs : (fun c => colPlane (k0_pay2 v5) c (ix2 p q)) = sinSeq (fun a => v5 (ix3 p q a)) :=
    funext fun c => sinPlane_apply v5 c p q
  have hw : (fun b => wStart arg1 harg1 v8 x0 k b (ix2 p q))
      = fun b => v8 (ix3 p q b) * x0 (ix4 (⟨k.val, hk⟩ : Fin 64) p q (hi b)) :=
    funext fun b => by
      show colPlane (k0_pay3 v8) b.val (ix2 p q) * xPlane arg1 harg1 x0 k b (ix2 p q) = _
      rw [muPlane_apply, xPlane_apply arg1 harg1 x0 k hk]
  rw [hc, hs, hw]

/-! ## A stored plane against the block function -/

/-- Every index of a [1, 4, 256, 1] rectangle is (0, p, q, 0). -/
theorem idx_piece (x : (⟨4, ![1, 4, 256, 1]⟩ : Shape).Idx) : ∃ (p : Fin 4) (q : Fin 256), x = ix4 (0 : Fin 1) p q (0 : Fin 1) := by
  refine ⟨x 1, x 2, funext fun a => ?_⟩
  match a with
  | ⟨0, _⟩ => exact Fin.ext (Nat.lt_one_iff.mp (x 0).isLt)
  | ⟨1, _⟩ => rfl
  | ⟨2, _⟩ => rfl
  | ⟨3, _⟩ => exact Fin.ext (Nat.lt_one_iff.mp (x 3).isLt)

/-- The block function at an upper channel 8 + j. -/
theorem blockFn_hi (x0 : Vec Ideal S64x4x256x16 .f32) (v2 v5 : Vec Ideal S4x256x28 .f32) (v8 : Vec Ideal S4x256x8 .f32)
    (kk : Fin 64) (p : Fin 4) (q : Fin 256) (j : Fin 8) :
    blockFn x0 v2 v5 v8 (ix4 kk p q (hi j))
      = rotated (cosSeq fun a => v2 (ix3 p q a)) (sinSeq fun a => v5 (ix3 p q a)) (fun b => v8 (ix3 p q b))
          (fun b => x0 (ix4 kk p q (hi b))) j := by
  unfold blockFn
  rw [dif_neg (by show ¬ (8 + j.val < 8); omega)]
  refine congrArg _ (Fin.ext ?_)
  show 8 + j.val - 8 = j.val
  omega

/-- A plane that is `rotated … j` at every (p, q), stored as [1, 4, 256, 1] at offset (k, 0, 0, 8 + j), agrees with the block
    function on its rectangle. -/
theorem piece_agree (x0 : Vec Ideal S64x4x256x16 .f32) (v2 v5 : Vec Ideal S4x256x28 .f32) (v8 : Vec Ideal S4x256x8 .f32)
    (kk : Fin 64) (j : Fin 8) (off : Fin 4 → ℕ) (hoff : off = ![kk.val, 0, 0, (hi j).val])
    (inb : ∀ a, off a + S1x4x256x1.size a ≤ S64x4x256x16.size a)
    (plane : FVec Ideal S4x256 .f32) (hc : S4x256.ShapeCasts S1x4x256x1)
    (hplane : ∀ (p : Fin 4) (q : Fin 256), plane (ix2 p q)
      = rotated (cosSeq fun a => v2 (ix3 p q a)) (sinSeq fun a => v5 (ix3 p q a)) (fun b => v8 (ix3 p q b))
          (fun b => x0 (ix4 kk p q (hi b))) j)
    (x : (Rect.unit (s := S64x4x256x16) off S1x4x256x1.size inb).shape.Idx) :
    shapeCast S1x4x256x1 plane hc x
      = blockFn x0 v2 v5 v8 ((Rect.unit (s := S64x4x256x16) off S1x4x256x1.size inb).emb x) := by
  obtain ⟨p, q, rfl⟩ := idx_piece x
  rw [idx_load off kk (hi j) hoff inb p q, blockFn_hi]
  refine (shapeCast_apply plane hc (ix4 (0 : Fin 1) p q (0 : Fin 1)) (ix2 p q) ?_).trans (hplane p q)
  rw [Shape.rowMajor_val_two, Shape.rowMajor_val_four]
  show p.val * 256 + q.val = ((0 * 4 + p.val) * 256 + q.val) * 1 + 0
  omega

/-! ## The trip -/

/-- Every piece trip `k` writes is the block function on its rectangle, whatever the trip found in the output buffer. -/
theorem trip_agree (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole)
    (v2 v5 : Vec Ideal S4x256x28 .f32) (v8 : Vec Ideal S4x256x8 .f32) (x0 : Vec Ideal S64x4x256x16 .f32)
    (k : Fin k0_t1_loop.trips) (f : BufTy.Contents (Elt Ideal) arg4.view.ty) :
    ∀ p ∈ tripL_k0_t1 (F := Ideal) 𝒱 c bd i arg1 harg1 arg2 harg2 arg3 harg3 arg4 harg4 v2 v5 v8 (harg1.unread x0) k f,
      ∀ x : p.1.shape.Idx, p.2 x = blockFn x0 v2 v5 v8 (p.1.emb x) := by
  intro p hp
  unfold tripL_k0_t1 at hp
  unfold trip_k0_t1 at hp
  dsimp only at hp
  simp only [List.mem_cons, List.mem_nil_iff, or_false] at hp
  have hk : k.val < 64 := Nat.lt_of_lt_of_le k.isLt k0_t1_abs.2.1
  rcases hp with rfl | rfl | rfl | rfl | rfl | rfl | rfl | rfl
  · intro x
    exact (congrFun (plane7 arg1 harg1 v2 v5 v8 x0 k) x).trans
      (piece_agree x0 v2 v5 v8 ⟨k.val, hk⟩ 7 (k0_off8 k) (k0_off8_eq k) (k0_off8_inb k) _ _ (outPlane_apply arg1 harg1 v2 v5 v8 x0 k hk 7) x)
  · intro x
    exact (congrFun (plane6 arg1 harg1 v2 v5 v8 x0 k) x).trans
      (piece_agree x0 v2 v5 v8 ⟨k.val, hk⟩ 6 (k0_off7 k) (k0_off7_eq k) (k0_off7_inb k) _ _ (outPlane_apply arg1 harg1 v2 v5 v8 x0 k hk 6) x)
  · intro x
    exact (congrFun (plane5 arg1 harg1 v2 v5 v8 x0 k) x).trans
      (piece_agree x0 v2 v5 v8 ⟨k.val, hk⟩ 5 (k0_off6 k) (k0_off6_eq k) (k0_off6_inb k) _ _ (outPlane_apply arg1 harg1 v2 v5 v8 x0 k hk 5) x)
  · intro x
    exact (congrFun (plane4 arg1 harg1 v2 v5 v8 x0 k) x).trans
      (piece_agree x0 v2 v5 v8 ⟨k.val, hk⟩ 4 (k0_off5 k) (k0_off5_eq k) (k0_off5_inb k) _ _ (outPlane_apply arg1 harg1 v2 v5 v8 x0 k hk 4) x)
  · intro x
    exact (congrFun (plane3 arg1 harg1 v2 v5 v8 x0 k) x).trans
      (piece_agree x0 v2 v5 v8 ⟨k.val, hk⟩ 3 (k0_off4 k) (k0_off4_eq k) (k0_off4_inb k) _ _ (outPlane_apply arg1 harg1 v2 v5 v8 x0 k hk 3) x)
  · intro x
    exact (congrFun (plane2 arg1 harg1 v2 v5 v8 x0 k) x).trans
      (piece_agree x0 v2 v5 v8 ⟨k.val, hk⟩ 2 (k0_off3 k) (k0_off3_eq k) (k0_off3_inb k) _ _ (outPlane_apply arg1 harg1 v2 v5 v8 x0 k hk 2) x)
  · intro x
    exact (congrFun (plane1 arg1 harg1 v2 v5 v8 x0 k) x).trans
      (piece_agree x0 v2 v5 v8 ⟨k.val, hk⟩ 1 (k0_off2 k) (k0_off2_eq k) (k0_off2_inb k) _ _ (outPlane_apply arg1 harg1 v2 v5 v8 x0 k hk 1) x)
  · intro x
    exact (congrFun (plane0 arg1 harg1 v2 v5 v8 x0 k) x).trans
      (piece_agree x0 v2 v5 v8 ⟨k.val, hk⟩ 0 (k0_off1 k) (k0_off1_eq k) (k0_off1_inb k) _ _ (outPlane_apply arg1 harg1 v2 v5 v8 x0 k hk 0) x)

end Cert.KerTrip

end
-- ==== Proof.KerBlock.lean ====
/-
  The output block one grid point leaves, as one function of its input blocks.

  The body first copies channels 0–7 of the whole channels block, then runs 64 trips, trip k writing the eight upper
  channel planes of sample k. Every one of these 513 pieces is the block function `blockFn` on its rectangle, and together
  they cover the block; so what the point leaves in the output's staging buffer is `blockFn` of the point's input blocks.
-/
import proofs.«126786_j41601053229316_2_alg».proof.Proof.FrameIdealP
import proofs.«126786_j41601053229316_2_alg».proof.Proof.KerTrip
import Idealize.ShloMosaic.Lib.Pipeline.Value
import Idealize.ShloMosaic.Lib.Pipeline.Frame

set_option maxRecDepth 16384

noncomputable section

namespace Cert.KerBlock

open Cert.KernelIdeal Cert.KernelIdeal.Gen Cert.KernelIdeal.GenP Idealize.ShloMosaic Idealize.ShloMosaic.TcCoe Idealize.ShloMosaic.Tactic Idealize.SL Idealize.SL.Sem Idealize.ShloMosaic.ValueIdx Cert.Givens

/-- The zero offsets of a rank-three block, however spelt. -/
theorem hz3 : (![0, 0, 0] : Fin 3 → Nat) = fun _ => 0 := funext fun a => by fin_cases a <;> rfl

/-- The rectangle of the first store: channels 0–7 of the whole block. -/
abbrev R0 : Rect S64x4x256x16 :=
  Rect.unit (s := S64x4x256x16) ![0, 0, 0, 0] S64x4x256x8.size inb_S64x4x256x16_S64x4x256x8_0_0_0_0

/-- An index of the first store's rectangle has its channel below 8. -/
theorem R0_last (x : R0.shape.Idx) : ((R0.emb x) (3 : Fin 4)).val < 8 := by
  have h : (x (3 : Fin 4)).val < 8 := (x (3 : Fin 4)).isLt
  show 0 + 1 * (x (3 : Fin 4)).val < 8
  omega

/-- The first store's payload, the channels block read through its rectangle, is any function that is the channels
    block on channels 0–7, on that rectangle. -/
theorem first_agree (x0 : Vec Ideal S64x4x256x16 .f32) (B : (⟨4, ![64, 4, 256, 16]⟩ : Shape).Idx → EReal)
    (hB : ∀ y : (⟨4, ![64, 4, 256, 16]⟩ : Shape).Idx, (y 3).val < 8 → B y = x0 y) (x : R0.shape.Idx) :
    View.ld x0 R0 x = B (R0.emb x) :=
  (hB (R0.emb x) (R0_last x)).symm

/-- The whole angle block loaded through the whole rectangle is the block. -/
theorem load_x1 (arg2 : Memref sig .tc .vmem S4x256x28 .f32) (harg2 : arg2.IsWhole) (x1 : Vec Ideal S4x256x28 .f32) :
    View.readAt (Elt Ideal) arg2.view (Rect.unit (s := S4x256x28) ![0, 0, 0] S4x256x28.size inb_S4x256x28_S4x256x28_0_0_0).toLoadRect (harg2.unread x1) = x1 := by
  rw [View.readAt_eq_ld, harg2.read_unread, View.ld_unit_zero (S := S4x256x28) hz3]

/-- The whole sign-factor block loaded through the whole rectangle is the block. -/
theorem load_x2 (arg3 : Memref sig .tc .vmem S4x256x8 .f32) (harg3 : arg3.IsWhole) (x2 : Vec Ideal S4x256x8 .f32) :
    View.readAt (Elt Ideal) arg3.view (Rect.unit (s := S4x256x8) ![0, 0, 0] S4x256x8.size inb_S4x256x8_S4x256x8_0_0_0).toLoadRect (harg3.unread x2) = x2 := by
  rw [View.readAt_eq_ld, harg3.read_unread, View.ld_unit_zero (S := S4x256x8) hz3]

/-- The channels block loaded through the first store's rectangle is the block read through it. -/
theorem load_x0 (arg1 : Memref sig .tc .vmem S64x4x256x16 .f32) (harg1 : arg1.IsWhole) (x0 : Vec Ideal S64x4x256x16 .f32) :
    View.readAt (Elt Ideal) arg1.view R0.toLoadRect (harg1.unread x0) = View.ld x0 R0 := by
  rw [View.readAt_eq_ld, harg1.read_unread]

/-- If every trip writes blocks of one function `B` of the output index, whatever it finds in the output buffer, so do
    the first `n` trips together: the pieces of `n + 1` trips are trip `n`'s in front of those of the first `n`. -/
theorem pb_agree (𝒱 : Variants) (c : Dev nD) (bd : Option 𝒱.V) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole)
    (v2 v5 : Vec Ideal S4x256x28 .f32) (v8 : Vec Ideal S4x256x8 .f32) (X_arg1 : BufTy.Contents (Elt Ideal) arg1.view.ty)
    (G_arg4 : BufTy.Contents (Elt Ideal) arg4.view.ty) (B : S64x4x256x16.Idx → Elt Ideal .f32)
    (htrip : ∀ (k : Fin k0_t1_loop.trips) (f : BufTy.Contents (Elt Ideal) arg4.view.ty),
      ∀ p ∈ tripL_k0_t1 (F := Ideal) 𝒱 c bd i arg1 harg1 arg2 harg2 arg3 harg3 arg4 harg4 v2 v5 v8 X_arg1 k f,
        ∀ x : p.1.shape.Idx, p.2 x = B (p.1.emb x)) :
    ∀ n : ℕ, n ≤ k0_t1_loop.trips →
      ∀ p ∈ pb_k0_t1 (F := Ideal) 𝒱 c bd i arg1 harg1 arg2 harg2 arg3 harg3 arg4 harg4 v2 v5 v8 X_arg1 G_arg4 n,
        ∀ x : p.1.shape.Idx, p.2 x = B (p.1.emb x)
  | 0, _, p, hp, _ => by rw [pb_k0_t1.eq_1] at hp; exact absurd hp List.not_mem_nil
  | n + 1, hn, p, hp, x => by
    have hs := pb_k0_t1_succ (F := Ideal) 𝒱 c bd i arg1 harg1 arg2 harg2 arg3 harg3 arg4 harg4 v2 v5 v8 X_arg1 G_arg4 ⟨n, hn⟩
    rw [show (⟨n, hn⟩ : Fin k0_t1_loop.trips).val = n from rfl] at hs
    rw [hs] at hp
    rcases List.mem_append.mp hp with h | h
    · exact htrip ⟨n, hn⟩ _ p h x
    · exact pb_agree 𝒱 c bd i arg1 harg1 arg2 harg2 arg3 harg3 arg4 harg4 v2 v5 v8 X_arg1 G_arg4 B htrip n (Nat.le_of_succ_le hn) p h x

/-- The run's pieces written out — the pieces of the first `n` trips (last first), taken at the loaded angle and
    sign-factor blocks from any loop-entry contents `G`, in front of the first store's — are each the block function on
    its rectangle. -/
theorem list_agree (c : Dev nD) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole)
    (x0 : Vec Ideal S64x4x256x16 .f32) (x1 : Vec Ideal S4x256x28 .f32) (x2 : Vec Ideal S4x256x8 .f32)
    (G : BufTy.Contents (Elt Ideal) arg4.view.ty) (n : ℕ) (hn : n ≤ k0_t1_loop.trips) :
    ∀ p ∈ pb_k0_t1 (F := Ideal) Variants.none c none i arg1 harg1 arg2 harg2 arg3 harg3 arg4 harg4
          (View.readAt (Elt Ideal) arg2.view (Rect.unit (s := S4x256x28) ![0, 0, 0] S4x256x28.size inb_S4x256x28_S4x256x28_0_0_0).toLoadRect (harg2.unread x1))
          (View.readAt (Elt Ideal) arg2.view (Rect.unit (s := S4x256x28) ![0, 0, 0] S4x256x28.size inb_S4x256x28_S4x256x28_0_0_0).toLoadRect (harg2.unread x1))
          (View.readAt (Elt Ideal) arg3.view (Rect.unit (s := S4x256x8) ![0, 0, 0] S4x256x8.size inb_S4x256x8_S4x256x8_0_0_0).toLoadRect (harg3.unread x2))
          (harg1.unread x0) G n
        ++ [(⟨R0, View.readAt (Elt Ideal) arg1.view R0.toLoadRect (harg1.unread x0)⟩ : View.Piece (Elt Ideal) S64x4x256x16 .f32)],
      ∀ x : p.1.shape.Idx, p.2 x = blockFn x0 x1 x1 x2 (p.1.emb x) := by
  rw [load_x1, load_x2, load_x0]
  intro p hp
  rcases List.mem_append.mp hp with h | h
  · exact pb_agree Variants.none c none i arg1 harg1 arg2 harg2 arg3 harg3 arg4 harg4 x1 x1 x2 (harg1.unread x0) G
      (blockFn x0 x1 x1 x2)
      (fun k f => Cert.KerTrip.trip_agree Variants.none c none i arg1 harg1 arg2 harg2 arg3 harg3 arg4 harg4 x1 x1 x2 x0 k f)
      n hn p h
  · obtain rfl := List.mem_singleton.mp h
    exact first_agree x0 (blockFn x0 x1 x1 x2) (fun y hy => dif_pos hy)

/-- Every piece the body's run writes is the block function on its rectangle. -/
theorem run_agree (c : Dev nD) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole)
    (x0 : Vec Ideal S64x4x256x16 .f32) (x1 : Vec Ideal S4x256x28 .f32) (x2 : Vec Ideal S4x256x8 .f32) :
    ∀ p ∈ (kernelRun0_A (F := Ideal) c i arg1 harg1 arg2 harg2 arg3 harg3 arg4 harg4 x0 x1 x2).1,
      ∀ x : p.1.shape.Idx, p.2 x = blockFn x0 x1 x1 x2 (p.1.emb x) := by
  intro p hp
  unfold kernelRun0_A at hp
  dsimp only at hp
  exact list_agree c i arg1 harg1 arg2 harg2 arg3 harg3 arg4 harg4 x0 x1 x2 (harg4.unread x0) _ (Nat.le_refl _) p hp

/-- What the point leaves in the output's staging buffer is the block function of its input blocks. -/
theorem out_block (c : Dev nD) (i : grid0.Coords) (arg1 : Memref sig .tc .vmem S64x4x256x16 .f32) (harg1 : arg1.IsWhole) (arg2 : Memref sig .tc .vmem S4x256x28 .f32) (harg2 : arg2.IsWhole) (arg3 : Memref sig .tc .vmem S4x256x8 .f32) (harg3 : arg3.IsWhole) (arg4 : Memref sig .tc .vmem S64x4x256x16 .f32) (harg4 : arg4.IsWhole)
    (x0 : Vec Ideal S64x4x256x16 .f32) (x1 : Vec Ideal S4x256x28 .f32) (x2 : Vec Ideal S4x256x8 .f32) :
    out0_A_3 (F := Ideal) c i arg1 harg1 arg2 harg2 arg3 harg3 arg4 harg4 x0 x1 x2 = blockFn x0 x1 x1 x2 := by
  funext y
  unfold out0_A_3
  exact View.read_writes_apply_of_pieces (Val := Elt Ideal) VO0_3 VO0_3.junk (blockFn x0 x1 x1 x2) _
    (run_agree c i arg1 harg1 arg2 harg2 arg3 harg3 arg4 harg4 x0 x1 x2) y (cover0_A_3 c i arg1 harg1 arg2 harg2 arg3 harg3 arg4 harg4 x0 x1 x2 y)

end Cert.KerBlock

end
-- ==== Proof.KerHost.lean ====
/-
  The arrays the region finds for the angles and the sign factors.

  Before the region the host reshapes the angles [65536, 28] to [256, 256, 28] and the sign factors [65536, 8] to
  [256, 256, 8]: metadata only, spatial block r·256 + q becoming position (r, q).
-/
import proofs.«126786_j41601053229316_2_alg».proof.Proof.Gen.KernelIdeal.Frame.Runs
import Idealize.ShloMosaic.Lib.ValueIdx
import Idealize.ShloMosaic.Lib.Pipeline.Value
import Idealize.ShloMosaic.Lib.ValueLayout
import Idealize.ShloMosaic.Lib.StableHlo.Run

noncomputable section

namespace Cert.KerHost

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Row `n`, column `a` of a `[N, K]` array and position `(r, q, a)` of its reshape to `[R, Q, K]` are one entry when
`n = r·Q + q`: both have row-major position `(r·Q + q)·K + a`. -/
theorem reshape3_apply {N R Q K : Nat} {α : Type} (x : (⟨2, ![N, K]⟩ : Shape).Idx → α)
    (h : (⟨2, ![N, K]⟩ : Shape).ShapeCasts ⟨3, ![R, Q, K]⟩) (r : Fin R) (q : Fin Q) (a : Fin K) (n : Fin N)
    (hn : n.val = r.val * Q + q.val) :
    shapeCast (⟨3, ![R, Q, K]⟩ : Shape) x h (ix3 r q a) = x (ix2 n a) := by
  refine shapeCast_apply x h (ix3 r q a) (ix2 n a) ?_
  rw [Shape.rowMajor_val_two, Shape.rowMajor_val_three]
  show n.val * K + a.val = (r.val * Q + q.val) * K + a.val
  rw [hn]

/-- The angles as the region finds them: position (r, q), angle a is the launch array's row r·256 + q, column a. -/
theorem V_main_v0_apply (c : Dev nD) (r q : Fin 256) (a : Fin 28) :
    (V m c main_v0 : S256x256x28.Idx → EReal) (ix3 r q a)
      = (m ((c : Thread nD τ).loc main_arg1) : S65536x28.Idx → EReal) (ix2 (⟨r.val * 256 + q.val, by omega⟩ : Fin 65536) a) := by
  have e : (V m c main_v0 : S256x256x28.Idx → EReal)
      = shapeCast _ (m ((c : Thread nD τ).loc main_arg1)) shapeCasts_S65536x28_S256x256x28 := by
    dsimp only [Gen.V, Gen.hostOps0]
    after_results
    rfl
  rw [e]
  exact reshape3_apply _ _ r q a _ rfl

/-- The sign factors as the region finds them: position (r, q), factor b is the launch array's row r·256 + q, column b. -/
theorem V_main_v1_apply (c : Dev nD) (r q : Fin 256) (b : Fin 8) :
    (V m c main_v1 : S256x256x8.Idx → EReal) (ix3 r q b)
      = (m ((c : Thread nD τ).loc main_arg2) : S65536x8.Idx → EReal) (ix2 (⟨r.val * 256 + q.val, by omega⟩ : Fin 65536) b) := by
  have e : (V m c main_v1 : S256x256x8.Idx → EReal)
      = shapeCast _ (m ((c : Thread nD τ).loc main_arg2)) shapeCasts_S65536x8_S256x256x8 := by
    dsimp only [Gen.V, Gen.hostOps0]
    after_results
    rfl
  rw [e]
  exact reshape3_apply _ _ r q b _ rfl

end Cert.KerHost

end
-- ==== Proof.KerValue.lean ====
/-
  The kernel's result array as one function of the launch arrays.

  Grid point t stages rows 4t … 4t+3 of the channels array (all samples, columns, channels), the same rows of the
  reshaped angles and sign factors, and writes back the same rows of the result. What it writes is the block function of
  its input blocks, which is the whole-array function `G` read through the block: row 4t + p of the block is row 4t + p of
  the arrays, and position (4t + p, q) of the reshaped angles and sign factors is spatial block (4t + p)·256 + q. The 64
  blocks tile the result array, so it ends holding `G` of the launch arrays.
-/
import proofs.«126786_j41601053229316_2_alg».proof.Proof.FrameIdealP
import Idealize.ShloMosaic.Lib.Pipeline.Value
import proofs.«126786_j41601053229316_2_alg».proof.Proof.KerBlock
import proofs.«126786_j41601053229316_2_alg».proof.Proof.KerHost
import proofs.«126786_j41601053229316_2_alg».proof.Proof.Givens

set_option maxRecDepth 16384

noncomputable section

namespace Cert.KerValue

open Cert.KernelIdeal Cert.KernelIdeal.Gen Cert.KernelIdeal.GenP Idealize.ShloMosaic Idealize.ShloMosaic.TcCoe Idealize.SL.Sem
open Idealize.ShloMosaic.ValueIdx Cert.Givens
open Idealize.ShloMosaic.Pipeline (Dat)

variable (m : (ℓ : Loc nD τ sig) → Buf (Elt Ideal) ℓ) (ρ : Dev nD → PrngReg)

/-- The launch arrays on core `c`: channels, angles, sign factors. -/
abbrev X (c : Dev nD) : S64x256x256x16.Idx → EReal := m ((c : Thread nD τ).loc main_arg0)
abbrev A (c : Dev nD) : S65536x28.Idx → EReal := m ((c : Thread nD τ).loc main_arg1)
abbrev M (c : Dev nD) : S65536x8.Idx → EReal := m ((c : Thread nD τ).loc main_arg2)

/-- The printed index maps over the grid: every window's block at point `t` is block `t` along the rows axis and block 0
    along every other axis. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 4) = 0 ∧ win0_3.index t (1 : Fin 4) = t.val ∧ win0_3.index t (2 : Fin 4) = 0 ∧ win0_3.index t (3 : Fin 4) = 0 :=
  (by decide +kernel : ∀ t : Fin grid0.N, _)

/-- Row `4t + p` of the arrays. -/
def row (t : Fin cfg0.N) (p : Fin 4) : Fin 256 := ⟨t.val * 4 + p.val, by have ht : t.val < 64 := t.isLt; omega⟩

/-- The channels block at point `t`, entry by entry. -/
theorem iblk0_apply (c : Dev nD) (t : Fin cfg0.N) (n : Fin 64) (p : Fin 4) (q : Fin 256) (ch : Fin 16) :
    iblk m c 0 t (ix4 n p q ch) = X m c (ix4 n (row t p) q ch) := by
  obtain ⟨e0, e1, e2, e3, -⟩ := idx_facts t
  show V m c main_arg0 (((cfg0.win 0).blk t).view.emb (ix4 n p q ch)) = _
  rw [V_main_arg0]
  refine congrArg (m ((c : Thread nD τ).loc main_arg0)) ?_
  funext a; apply Fin.ext
  match a with
  | ⟨0, _⟩ => show win0_0.index t (0 : Fin 4) * 64 + 1 * n.val = n.val; omega
  | ⟨1, _⟩ => show win0_0.index t (1 : Fin 4) * 4 + 1 * p.val = t.val * 4 + p.val; omega
  | ⟨2, _⟩ => show win0_0.index t (2 : Fin 4) * 256 + 1 * q.val = q.val; omega
  | ⟨3, _⟩ => show win0_0.index t (3 : Fin 4) * 16 + 1 * ch.val = ch.val; omega

/-- The angles block at point `t`, entry by entry: position (4t + p, q) is a spatial block's row of angles. -/
theorem iblk1_apply (c : Dev nD) (t : Fin cfg0.N) (p : Fin 4) (q : Fin 256) (a : Fin 28) :
    iblk m c 1 t (ix3 p q a) = A m c (ix2 (blkOf (row t p) q) a) := by
  obtain ⟨-, -, -, -, e0, e1, e2, -⟩ := idx_facts t
  show V m c main_v0 (((cfg0.win 1).blk t).view.emb (ix3 p q a)) = _
  have h : ((cfg0.win 1).blk t).view.emb (ix3 p q a) = ix3 (row t p) q a := by
    funext d; apply Fin.ext
    match d with
    | ⟨0, _⟩ => show win0_1.index t (0 : Fin 3) * 4 + 1 * p.val = t.val * 4 + p.val; omega
    | ⟨1, _⟩ => show win0_1.index t (1 : Fin 3) * 256 + 1 * q.val = q.val; omega
    | ⟨2, _⟩ => show win0_1.index t (2 : Fin 3) * 28 + 1 * a.val = a.val; omega
  rw [h]
  exact Cert.KerHost.V_main_v0_apply m c (row t p) q a

/-- The sign-factor block at point `t`, entry by entry. -/
theorem iblk2_apply (c : Dev nD) (t : Fin cfg0.N) (p : Fin 4) (q : Fin 256) (b : Fin 8) :
    iblk m c 2 t (ix3 p q b) = M m c (ix2 (blkOf (row t p) q) b) := by
  obtain ⟨-, -, -, -, -, -, -, e0, e1, e2, -⟩ := idx_facts t
  show V m c main_v1 (((cfg0.win 2).blk t).view.emb (ix3 p q b)) = _
  have h : ((cfg0.win 2).blk t).view.emb (ix3 p q b) = ix3 (row t p) q b := by
    funext d; apply Fin.ext
    match d with
    | ⟨0, _⟩ => show win0_2.index t (0 : Fin 3) * 4 + 1 * p.val = t.val * 4 + p.val; omega
    | ⟨1, _⟩ => show win0_2.index t (1 : Fin 3) * 256 + 1 * q.val = q.val; omega
    | ⟨2, _⟩ => show win0_2.index t (2 : Fin 3) * 8 + 1 * b.val = b.val; omega
  rw [h]
  exact Cert.KerHost.V_main_v1_apply m c (row t p) q b

/-- Where entry (n, p, q, ch) of the result's block at point `t` sits in the result array. -/
theorem emb3_apply (t : Fin cfg0.N) (n : Fin 64) (p : Fin 4) (q : Fin 256) (ch : Fin 16) :
    ((cfg0.win 3).blk t).view.emb (ix4 n p q ch) = ix4 n (row t p) q ch := by
  obtain ⟨-, -, -, -, -, -, -, -, -, -, e0, e1, e2, e3⟩ := idx_facts t
  funext a; apply Fin.ext
  match a with
  | ⟨0, _⟩ => show win0_3.index t (0 : Fin 4) * 64 + 1 * n.val = n.val; omega
  | ⟨1, _⟩ => show win0_3.index t (1 : Fin 4) * 4 + 1 * p.val = t.val * 4 + p.val; omega
  | ⟨2, _⟩ => show win0_3.index t (2 : Fin 4) * 256 + 1 * q.val = q.val; omega
  | ⟨3, _⟩ => show win0_3.index t (3 : Fin 4) * 16 + 1 * ch.val = ch.val; omega

/-- The block function of point `t`'s input blocks is `G` of the launch arrays read through the result's block. -/
theorem block_eq (c : Dev nD) (t : Fin cfg0.N) (n : Fin 64) (p : Fin 4) (q : Fin 256) (ch : Fin 16) :
    blockFn (iblk m c 0 t) (iblk m c 1 t) (iblk m c 1 t) (iblk m c 2 t) (ix4 n p q ch)
      = G (X m c) (A m c) (M m c) (ix4 n (row t p) q ch) := by
  rw [G_ix4]
  unfold blockFn Gat
  by_cases h : ch.val < 8
  · rw [dif_pos h, dif_pos h]; exact iblk0_apply m c t n p q ch
  · rw [dif_neg h, dif_neg h]
    simp only [iblk0_apply, iblk1_apply, iblk2_apply]

/-- What point `t` would write back is what the body's run left in the result's staging buffer at that point. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (iblk m c 0 t) (iblk m c 1 t) (iblk m c 2 t)) := by
  show (cfg0.win 3).cut (grid0.coords t) ((dats m 0 c).after 3 t) = _
  rw [after0_3]
  rfl

/-- What point `t` writes back is block `t` of `G` of the launch arrays. -/
theorem flushed3_eq (c : Dev nD) (t : Fin cfg0.N) :
    (dats m 0 c).flushed 3 t = ((cfg0.win 3).blk t).view.read (Elt Ideal) (G (X m c) (A m c) (M m c)) := by
  rw [flushed3_A, Cert.KerBlock.out_block]
  funext j
  have hj : (ix4 (j 0) (j 1) (j 2) (j 3) : S64x4x256x16.Idx) = j :=
    (eq_ix4 (n0 := 64) (n1 := 4) (n2 := 256) (n3 := 16) j).symm
  have key := block_eq m c t (j 0) (j 1) (j 2) (j 3)
  have he := emb3_apply t (j 0) (j 1) (j 2) (j 3)
  rw [hj] at key he
  show blockFn (iblk m c 0 t) (iblk m c 1 t) (iblk m c 1 t) (iblk m c 2 t) j
    = G (X m c) (A m c) (M m c) (((cfg0.win 3).blk t).view.emb j)
  rw [he]
  exact key

/-- An index of the result array is in point `t`'s block iff each coordinate is in the block's range on its axis. -/
theorem mem_blk3 (t : Fin cfg0.N) (i : S64x256x256x16.Idx) :
    i ∈ ((cfg0.win 3).blk t).view.set ↔ ∀ a : Fin 4, win0_3.index t a * S64x4x256x16.size a ≤ (i a).val ∧ (i a).val < win0_3.index t a * S64x4x256x16.size a + S64x4x256x16.size a := by
  show i ∈ ((View.whole main_v2).slice (win0_3.rect t)).set ↔ _
  rw [View.set_slice_whole, Rect.mem_set_unit]
  exact Iff.rfl

/-- Every index of the result array is in the block of the point its row belongs to. -/
theorem cover3 (i : S64x256x256x16.Idx) : ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 256 := (i 2).isLt
  have hi3 : (i 3).val < 16 := (i 3).isLt
  let t : Fin cfg0.N := ⟨(i 1).val / 4, by show (i 1).val / 4 < 64; omega⟩
  obtain ⟨-, -, -, -, -, -, -, -, -, -, e0, e1, e2, e3⟩ := idx_facts t
  have ht : t.val = (i 1).val / 4 := rfl
  refine ⟨t, flush0_3 t, ?_⟩
  rw [mem_blk3]
  intro a
  match a with
  | ⟨0, _⟩ => show win0_3.index t (0 : Fin 4) * 64 ≤ (i 0).val ∧ (i 0).val < win0_3.index t (0 : Fin 4) * 64 + 64; omega
  | ⟨1, _⟩ => show win0_3.index t (1 : Fin 4) * 4 ≤ (i 1).val ∧ (i 1).val < win0_3.index t (1 : Fin 4) * 4 + 4; omega
  | ⟨2, _⟩ => show win0_3.index t (2 : Fin 4) * 256 ≤ (i 2).val ∧ (i 2).val < win0_3.index t (2 : Fin 4) * 256 + 256; omega
  | ⟨3, _⟩ => show win0_3.index t (3 : Fin 4) * 16 ≤ (i 3).val ∧ (i 3).val < win0_3.index t (3 : Fin 4) * 16 + 16; omega

/-- The result array after the run is `G` of the launch arrays. -/
theorem final3 (c : Dev nD) : (dats m 0 c).arrAt 3 cfg0.N = G (X m c) (A m c) (M m c) :=
  (dats m 0 c).arrAt_eq_of_cover 3 (G (X m c) (A m c) (M m c)) (fun t _ => flushed3_eq m c t) cover3

/-- The kernel's run: every weakly fair execution terminates with the result array at `G` of the launch arrays and the
    arguments unchanged. -/
theorem run : θ_run defs (onTc (τ := τ) (main (F := Ideal))) ⟨m, fun _ => 0, ρ⟩ fun r => ∀ c : Dev nD,
      r.2.mem ((c : Thread nD τ).loc main_v2) = G (X m c) (A m c) (M m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KerValue

end
-- ==== Proof.LibScatterRow.lean ====
/-
  A scatter that overwrites ONE row, read at an index.

  The operand is a stack of n matrices [a, c]; the update is one row [c] per matrix; the single scatter index t names the
  row. Update entry (p, j) lands at operand entry (p, t, j): distinct update entries land at distinct places, so the
  left fold over the update entries leaves, at (p, i, j), the update's (p, j) when i = t and the operand's own entry
  otherwise.
-/
import Idealize.ShloMosaic.PureOps.ShapeOps
import Idealize.ShloMosaic.PureOps.Dims
import Idealize.ShloMosaic.Lib.ValueIdx

noncomputable section

namespace Cert.Lib.ScatterRow

open Idealize.ShloMosaic Idealize.ShloMosaic.ValueIdx

/-- A 32-bit word made from a natural below 2^31 reads, signed, as that natural. -/
theorem toInt_ofNat_small (t : ℕ) (h : t < 2 ^ 31) : (BitVec.ofNat 32 t).toInt = (t : ℤ) := by
  rw [BitVec.toInt_eq_toNat_cond, BitVec.toNat_ofNat]
  have : t % 2 ^ 32 = t := Nat.mod_eq_of_lt (by omega)
  rw [this]
  split <;> omega

/-- A left fold of overwrites "entry `g k` becomes `v k`" leaves an entry no `g k` names as it was. -/
theorem foldl_overwrite_of_not_mem {ι κ α : Type} [DecidableEq ι] (g : κ → ι) (v : κ → α) (i' : ι) :
    ∀ (l : List κ) (x : ι → α), (∀ k ∈ l, g k ≠ i') →
      (l.foldl (fun r k => fun i => if i = g k then v k else r i) x) i' = x i'
  | [], _, _ => rfl
  | k :: l, x, h => by
    rw [List.foldl_cons, foldl_overwrite_of_not_mem g v i' l _ (fun k' hk' => h k' (List.mem_cons_of_mem _ hk'))]
    exact if_neg (fun e => h k (List.mem_cons_self ..) e.symm)

/-- A left fold of overwrites "entry `g k` becomes `v k`" with `g` injective leaves `v k0` at entry `g k0` for every
    `k0` of the list: after the last occurrence of `k0` no later step names that entry. -/
theorem foldl_overwrite_of_mem {ι κ α : Type} [DecidableEq ι] (g : κ → ι) (hg : Function.Injective g) (v : κ → α) (k0 : κ) :
    ∀ (l : List κ) (x : ι → α), k0 ∈ l →
      (l.foldl (fun r k => fun i => if i = g k then v k else r i) x) (g k0) = v k0
  | [], _, h => absurd h (List.not_mem_nil)
  | k :: l, x, h => by
    rw [List.foldl_cons]
    by_cases hm : k0 ∈ l
    · exact foldl_overwrite_of_mem g hg v k0 l _ hm
    · have hk : k0 = k := by
        rcases List.mem_cons.1 h with e | e
        · exact e
        · exact absurd e hm
      subst hk
      rw [foldl_overwrite_of_not_mem g v (g k0) l _ (fun k' hk' e => hm (hg e ▸ hk'))]
      exact if_pos rfl

/-- An update index lands at `i` when, on every operand axis, window start plus window coordinate is `i`'s coordinate
    (which is inside the operand, being a coordinate). -/
theorem resultIdx?_eq_some {s si u : Shape} {w : ℕ} (d : ScatterDims s si u) (jj : u.Idx) (idx : IVec si w) (i : s.Idx)
    (h : ∀ a, d.start jj idx a + d.window jj a = ((i a).val : ℤ)) : d.resultIdx? jj idx = some i := by
  unfold ScatterDims.resultIdx?
  rw [dif_pos (fun a => by rw [h a]; exact ⟨Int.natCast_nonneg _, by exact_mod_cast (i a).isLt⟩)]
  congr 1; funext a; apply Fin.ext; simp [h a]

/-- Where update entry `(q, l)` lands: at operand entry `(q, t, l)`. The start is `t` on axis 1 (the one indexed axis, the
    index read signed) and 0 on axes 0 and 2; the window coordinate is `q` on axis 0, 0 on the inserted axis 1, `l` on axis 2. -/
theorem landing {n a c : ℕ} (d : ScatterDims (⟨3, ![n, a, c]⟩ : Shape) (⟨1, ![1]⟩ : Shape) (⟨2, ![n, c]⟩ : Shape))
    (h1 : d.updateWindowDims = [0, 1]) (h2 : d.insertedWindowDims = [1]) (h3 : d.scatterDimsToOperandDims = [1])
    (h4 : d.indexVectorDim = 0) (t : ℕ) (ht : t < a) (ha : a < 2 ^ 31)
    (idx : IVec (⟨1, ![1]⟩ : Shape) 32) (hidx : ∀ k, idx k = BitVec.ofNat 32 t)
    (jj : (⟨2, ![n, c]⟩ : Shape).Idx) :
    d.resultIdx? jj idx = some (ix3 (jj 0 : Fin n) (⟨t, ht⟩ : Fin a) (jj 1 : Fin c)) := by
  obtain ⟨uw, iw, sd, iv, wf⟩ := d
  dsimp only at h1 h2 h3 h4
  subst h1 h2 h3 h4
  apply resultIdx?_eq_some
  intro b
  have hs0 : ScatterDims.start ⟨[0, 1], [1], [1], 0, wf⟩ jj idx 0 = 0 := rfl
  have hs1 : ScatterDims.start ⟨[0, 1], [1], [1], 0, wf⟩ jj idx 1 = (t : ℤ) := by
    have : ScatterDims.start ⟨[0, 1], [1], [1], 0, wf⟩ jj idx 1
        = (idx (ScatterDims.siIdx ⟨[0, 1], [1], [1], 0, wf⟩ jj ⟨0, Nat.zero_lt_one⟩)).toInt := rfl
    rw [this, hidx]; exact toInt_ofNat_small t (by omega)
  have hs2 : ScatterDims.start ⟨[0, 1], [1], [1], 0, wf⟩ jj idx 2 = 0 := rfl
  have hw0 : ScatterDims.window ⟨[0, 1], [1], [1], 0, wf⟩ jj 0 = (jj 0).val := rfl
  have hw1 : ScatterDims.window ⟨[0, 1], [1], [1], 0, wf⟩ jj 1 = 0 := rfl
  have hw2 : ScatterDims.window ⟨[0, 1], [1], [1], 0, wf⟩ jj 2 = (jj 1).val := rfl
  match b with
  | ⟨0, _⟩ => exact (congrArg₂ (· + ·) hs0 (congrArg Nat.cast hw0)).trans (zero_add _)
  | ⟨1, _⟩ => exact (congrArg₂ (· + ·) hs1 (congrArg Nat.cast hw1)).trans (by simp)
  | ⟨2, _⟩ => exact (congrArg₂ (· + ·) hs2 (congrArg Nat.cast hw2)).trans (zero_add _)

/-- `x.at[:, t, :].set(u)` at `(p, i, j)`: the update's `(p, j)` on row `t`, the operand elsewhere. For any extents
    (the row count below 2^31, so that the 32-bit index reads as itself), any element type, any dimension-number
    record with these lists (window axes 0 and 1 of the update; operand axis 1 inserted and indexed; the index
    vector on axis 0). -/
theorem scatter_row_apply {α : Type} {n a c : ℕ} (d : ScatterDims (⟨3, ![n, a, c]⟩ : Shape) (⟨1, ![1]⟩ : Shape) (⟨2, ![n, c]⟩ : Shape))
    (h1 : d.updateWindowDims = [0, 1]) (h2 : d.insertedWindowDims = [1]) (h3 : d.scatterDimsToOperandDims = [1])
    (h4 : d.indexVectorDim = 0)
    (x : (⟨3, ![n, a, c]⟩ : Shape).Idx → α) (t : ℕ) (ht : t < a) (ha : a < 2 ^ 31)
    (idx : IVec (⟨1, ![1]⟩ : Shape) 32) (hidx : ∀ k, idx k = BitVec.ofNat 32 t)
    (u : (⟨2, ![n, c]⟩ : Shape).Idx → α) (p : Fin n) (i : Fin a) (j : Fin c) :
    Host.scatter d (fun _ b => b) x idx u (ix3 p i j) = if i.val = t then u (ix2 p j) else x (ix3 p i j) := by
  have hres := landing d h1 h2 h3 h4 t ht ha idx hidx
  unfold Host.scatter
  simp only [hres]
  have hg : Function.Injective (fun k : Fin (⟨2, ![n, c]⟩ : Shape).numel =>
      ix3 ((⟨2, ![n, c]⟩ : Shape).rowMajor.symm k 0 : Fin n) (⟨t, ht⟩ : Fin a) ((⟨2, ![n, c]⟩ : Shape).rowMajor.symm k 1 : Fin c)) := by
    intro k k' e
    apply (⟨2, ![n, c]⟩ : Shape).rowMajor.symm.injective
    have e0 := congrFun e 0
    have e2 := congrFun e 2
    funext b
    match b with
    | ⟨0, _⟩ => exact e0
    | ⟨1, _⟩ => exact e2
  by_cases hi : i.val = t
  · subst hi
    rw [if_pos rfl]
    have hmem : (⟨2, ![n, c]⟩ : Shape).rowMajor (ix2 p j) ∈ List.finRange (⟨2, ![n, c]⟩ : Shape).numel := List.mem_finRange _
    have := foldl_overwrite_of_mem _ hg (fun k => u ((⟨2, ![n, c]⟩ : Shape).rowMajor.symm k)) _ _ x hmem
    simp only [Equiv.symm_apply_apply] at this
    exact this
  · rw [if_neg hi]
    exact foldl_overwrite_of_not_mem
      (fun k : Fin (⟨2, ![n, c]⟩ : Shape).numel =>
        ix3 ((⟨2, ![n, c]⟩ : Shape).rowMajor.symm k 0 : Fin n) (⟨t, ht⟩ : Fin a) ((⟨2, ![n, c]⟩ : Shape).rowMajor.symm k 1 : Fin c))
      (fun k => u ((⟨2, ![n, c]⟩ : Shape).rowMajor.symm k)) _ _ x
      (fun k _ e => hi (congrArg Fin.val (congrFun e 1)).symm)

end Cert.Lib.ScatterRow

end
-- ==== Proof.RefMatLay.lean ====
/-
  Layout operations of the host program read at an index, over any number of blocks.

  A vector spread along rows, a row or a column cut out of an array and cast to one axis less, a matrix repeated over a
  new leading axis, a scalar word as a one-element vector: each reads, at an index, its operand at one index. And the
  8×8 identity as a comparison of two counters converted to a number.
-/
import Idealize.ShloMosaic.PureOps.Ideal
import Idealize.ShloMosaic.PureOps.ShapeOps
import Idealize.ShloMosaic.Lib.ValueIdx
import Idealize.ShloMosaic.Lib.Pipeline.Value
import Idealize.ShloMosaic.Lib.ValueLayout

noncomputable section

namespace Cert.RefMat

open Idealize.ShloMosaic Idealize.ShloMosaic.ValueIdx

variable {α : Type}

/-- A 32-bit word broadcast from a scalar to a one-element vector reads as the word. -/
theorem idx_apply (t : ℕ) (h : (⟨0, ![]⟩ : Shape).BroadcastsInDim ⟨1, ![1]⟩ (![] : Fin 0 → Fin 1))
    (k : (⟨1, ![1]⟩ : Shape).Idx) :
    broadcastInDim (⟨1, ![1]⟩ : Shape) ![] h (constantI ⟨0, ![]⟩ 32 (BitVec.ofNat 32 t)) k = BitVec.ofNat 32 t := rfl

/-- A vector [n] broadcast to a column [n, 1] and then along rows to [n, c] reads, at (p, j), the vector at p. -/
theorem bcol_apply {n c : ℕ} (v : (⟨1, ![n]⟩ : Shape).Idx → α)
    (h0 : (⟨1, ![n]⟩ : Shape).BroadcastsInDim ⟨2, ![n, 1]⟩ (![0] : Fin 1 → Fin 2))
    (h1 : (⟨2, ![n, 1]⟩ : Shape).BroadcastsInDim ⟨2, ![n, c]⟩ (![0, 1] : Fin 2 → Fin 2))
    (p : Fin n) (j : Fin c) :
    broadcastInDim (⟨2, ![n, c]⟩ : Shape) ![0, 1] h1 (broadcastInDim (⟨2, ![n, 1]⟩ : Shape) ![0] h0 v) (ix2 p j)
      = v (ix1 p) := by
  have hp : p.val = if n = 1 then 0 else p.val := by
    split
    · have := p.isLt; omega
    · rfl
  refine (broadcastInDim_apply _ h1 _ (ix2 p j) (ix2 p (0 : Fin 1)) fun a => ?_).trans
    (broadcastInDim_apply _ h0 v (ix2 p (0 : Fin 1)) (ix1 p) fun a => ?_)
  · match a with
    | ⟨0, _⟩ => exact hp
    | ⟨1, _⟩ => rfl
  · match a with
    | ⟨0, _⟩ => exact hp

/-- Row t of a stack [n, a, c], cut out as [n, 1, c] and cast to [n, c], reads at (p, j) the stack at (p, t, j). -/
theorem row_apply {n a c : ℕ} (t : ℕ) (ht : t < a) (R : (⟨3, ![n, a, c]⟩ : Shape).Idx → α)
    (hs : (⟨3, ![n, a, c]⟩ : Shape).Slices ![0, t, 0] ⟨3, ![n, 1, c]⟩)
    (hc : (⟨3, ![n, 1, c]⟩ : Shape).ShapeCasts ⟨2, ![n, c]⟩) (p : Fin n) (j : Fin c) :
    shapeCast (⟨2, ![n, c]⟩ : Shape) (extractStridedSlice (⟨3, ![n, 1, c]⟩ : Shape) ![0, t, 0] R hs) hc (ix2 p j)
      = R (ix3 p ⟨t, ht⟩ j) := by
  refine (shapeCast_apply _ hc (ix2 p j) (ix3 p (0 : Fin 1) j) ?_).trans
    (slice3_axis1_apply t R hs p (0 : Fin 1) j ⟨t, ht⟩ rfl)
  rw [Shape.rowMajor_val_three, Shape.rowMajor_val_two]
  show (p.val * 1 + 0) * c + j.val = p.val * c + j.val
  rw [Nat.mul_one, Nat.add_zero]

/-- Column k of a matrix [n, m], cut out as [n, 1] and cast to [n], reads at p the matrix at (p, k). -/
theorem col_apply {n m : ℕ} (k : ℕ) (hk : k < m) (A : (⟨2, ![n, m]⟩ : Shape).Idx → α)
    (hs : (⟨2, ![n, m]⟩ : Shape).Slices ![0, k] ⟨2, ![n, 1]⟩)
    (hc : (⟨2, ![n, 1]⟩ : Shape).ShapeCasts ⟨1, ![n]⟩) (p : Fin n) :
    shapeCast (⟨1, ![n]⟩ : Shape) (extractStridedSlice (⟨2, ![n, 1]⟩ : Shape) ![0, k] A hs) hc (ix1 p)
      = A (ix2 p ⟨k, hk⟩) := by
  refine (shapeCast_apply _ hc (ix1 p) (ix2 p (0 : Fin 1)) ?_).trans
    (slice2_axis1_apply k A hs p (0 : Fin 1) ⟨k, hk⟩ rfl)
  rw [Shape.rowMajor_val_two, Shape.rowMajor_val_one]
  show p.val * 1 + 0 = p.val
  rw [Nat.mul_one, Nat.add_zero]

/-- A matrix [a, c] broadcast over a new leading axis to [n, a, c] reads at (p, i, j) the matrix at (i, j). -/
theorem bstack_apply {n a c : ℕ} (ha : a ≠ 1) (hc : c ≠ 1) (M : (⟨2, ![a, c]⟩ : Shape).Idx → α)
    (h : (⟨2, ![a, c]⟩ : Shape).BroadcastsInDim ⟨3, ![n, a, c]⟩ (![1, 2] : Fin 2 → Fin 3))
    (p : Fin n) (i : Fin a) (j : Fin c) :
    broadcastInDim (⟨3, ![n, a, c]⟩ : Shape) ![1, 2] h M (ix3 p i j) = M (ix2 i j) := by
  refine broadcastInDim_apply _ h M (ix3 p i j) (ix2 i j) fun ax => ?_
  match ax with
  | ⟨0, _⟩ => exact (if_neg ha).symm
  | ⟨1, _⟩ => exact (if_neg hc).symm

/-- Row t of a matrix [a, c], cut out as [1, c], cast to [c], put back as [1, c] and broadcast to [n, c], reads at
    (p, j) the matrix at (t, j). -/
theorem brow_apply {n a c : ℕ} (hc1 : c ≠ 1) (t : ℕ) (ht : t < a) (M : (⟨2, ![a, c]⟩ : Shape).Idx → α)
    (hs : (⟨2, ![a, c]⟩ : Shape).Slices ![t, 0] ⟨2, ![1, c]⟩)
    (hc : (⟨2, ![1, c]⟩ : Shape).ShapeCasts ⟨1, ![c]⟩)
    (h0 : (⟨1, ![c]⟩ : Shape).BroadcastsInDim ⟨2, ![1, c]⟩ (![1] : Fin 1 → Fin 2))
    (h1 : (⟨2, ![1, c]⟩ : Shape).BroadcastsInDim ⟨2, ![n, c]⟩ (![0, 1] : Fin 2 → Fin 2))
    (p : Fin n) (j : Fin c) :
    broadcastInDim (⟨2, ![n, c]⟩ : Shape) ![0, 1] h1 (broadcastInDim (⟨2, ![1, c]⟩ : Shape) ![1] h0
        (shapeCast (⟨1, ![c]⟩ : Shape) (extractStridedSlice (⟨2, ![1, c]⟩ : Shape) ![t, 0] M hs) hc)) (ix2 p j)
      = M (ix2 ⟨t, ht⟩ j) := by
  refine (broadcastInDim_apply _ h1 _ (ix2 p j) (ix2 (0 : Fin 1) j) fun ax => ?_).trans
    ((broadcastInDim_apply _ h0 _ (ix2 (0 : Fin 1) j) (ix1 j) fun ax => ?_).trans
      ((shapeCast_1a_a_apply _ hc j).trans (slice2_axis0_apply t M hs (0 : Fin 1) j ⟨t, ht⟩ rfl)))
  · match ax with
    | ⟨0, _⟩ => rfl
    | ⟨1, _⟩ => exact (if_neg hc1).symm
  · match ax with
    | ⟨0, _⟩ => exact (if_neg hc1).symm

/-- Two naturals below 8, as 32-bit words (the first plus the zero word), are equal words exactly when equal. -/
theorem word_eq_iff (i j : Fin 8) : (BitVec.ofNat 32 i.val + 0#32 == BitVec.ofNat 32 j.val) = decide (i = j) := by
  revert i j; decide

/-- The 8×8 comparison of the row counter with the column counter, converted to a number, is 1 on the diagonal, 0 off it. -/
theorem eye_apply (h : (⟨0, ![]⟩ : Shape).BroadcastsInDim ⟨2, ![8, 8]⟩ (![] : Fin 0 → Fin 2)) (i j : Fin 8) :
    (uitofp (F := Ideal) .f32 (cmpi .eq (addi (iotaInDim (⟨2, ![8, 8]⟩ : Shape) 32 0)
      (broadcastInDim (⟨2, ![8, 8]⟩ : Shape) ![] h (constantI ⟨0, ![]⟩ 32 0#32))) (iotaInDim (⟨2, ![8, 8]⟩ : Shape) 32 1)) :
        FVec Ideal (⟨2, ![8, 8]⟩ : Shape) .f32) (ix2 i j) = if i = j then 1 else 0 := by
  show (((BitVec.ofBool (BitVec.ofNat 32 i.val + 0#32 == BitVec.ofNat 32 j.val)).toNat : ℝ) : EReal) = _
  rw [word_eq_iff]
  by_cases hij : i = j
  · rw [if_pos hij, decide_eq_true hij]; simp
  · rw [if_neg hij, decide_eq_false hij]; simp

end Cert.RefMat

end
-- ==== Proof.RefMatStep.lean ====
/-
  One step of the host program on the matrix stack, entry by entry.

  A step overwrites row t of every block's matrix by c·(row t) − s·(row b) and then row b by s·(row t) + c·(row b), the
  two rows read before either is written, c and s the cosine and sine of the block's angle k. If the stack held the matrix
  after k rotations, and the two rows handed in were its rows t and b, the stack now holds the matrix after k + 1.
-/
import proofs.«126786_j41601053229316_2_alg».proof.Proof.Gen.ReferenceIdeal
import proofs.«126786_j41601053229316_2_alg».proof.Proof.Givens
import proofs.«126786_j41601053229316_2_alg».proof.Proof.LibScatterRow
import proofs.«126786_j41601053229316_2_alg».proof.Proof.RefMatLay

noncomputable section

namespace Cert.RefMat

open Idealize.ShloMosaic Idealize.ShloMosaic.ValueIdx

/-- One row update pair on a stack of matrices, read at an entry: row b becomes s·(row t) + c·(row b), row t becomes
    c·(row t) − s·(row b), both of the rows handed in; the other rows stay. -/
theorem step_apply {n : ℕ} (d : ScatterDims (⟨3, ![n, 8, 8]⟩ : Shape) (⟨1, ![1]⟩ : Shape) (⟨2, ![n, 8]⟩ : Shape))
    (h1 : d.updateWindowDims = [0, 1]) (h2 : d.insertedWindowDims = [1]) (h3 : d.scatterDimsToOperandDims = [1])
    (h4 : d.indexVectorDim = 0)
    (R : FVec Ideal (⟨3, ![n, 8, 8]⟩ : Shape) .f32) (Cv Sv rt rb : FVec Ideal (⟨2, ![n, 8]⟩ : Shape) .f32)
    (t b : ℕ) (ht : t < 8) (hb : b < 8)
    (it ib : IVec (⟨1, ![1]⟩ : Shape) 32) (hit : ∀ k, it k = BitVec.ofNat 32 t) (hib : ∀ k, ib k = BitVec.ofNat 32 b)
    (p : Fin n) (i j : Fin 8) :
    Host.scatter d (fun _ b => b) (Host.scatter d (fun _ b => b) R it (subf (mulf Cv rt) (mulf Sv rb))) ib
        (addf (mulf Sv rt) (mulf Cv rb)) (ix3 p i j)
      = if i.val = b then Sv (ix2 p j) * rt (ix2 p j) + Cv (ix2 p j) * rb (ix2 p j)
        else if i.val = t then Cv (ix2 p j) * rt (ix2 p j) - Sv (ix2 p j) * rb (ix2 p j) else R (ix3 p i j) := by
  refine (Cert.Lib.ScatterRow.scatter_row_apply d h1 h2 h3 h4 _ b hb (by norm_num) ib hib _ p i j).trans ?_
  refine congrArg (fun z => if i.val = b then _ else z) ?_
  exact Cert.Lib.ScatterRow.scatter_row_apply d h1 h2 h3 h4 R t ht (by norm_num) it hit _ p i j

open Cert.ReferenceIdeal Cert.ReferenceIdeal.Gen Cert.Givens

/-- The stack R holds, in every block, the matrix after the first n rotations by the block's angles (row blk of A). -/
def IsMat (A : FVec Ideal S65536x28 .f32) (n : ℕ) (R : FVec Ideal S65536x8x8 .f32) : Prop :=
  ∀ (blk : Fin 65536) (i j : Fin 8),
    R (ix3 blk i j) = mat (cosSeq fun q => A (ix2 blk q)) (sinSeq fun q => A (ix2 blk q)) n i j

/-- Column k of the angles, as a vector over the blocks. -/
abbrev colOf (A : FVec Ideal S65536x28 .f32) (k : ℕ) (hsk : S65536x28.Slices ![0, k] S65536x1) : FVec Ideal S65536 .f32 :=
  shapeCast S65536 (extractStridedSlice S65536x1 ![0, k] A hsk) shapeCasts_S65536x1_S65536

/-- Row t of every block's matrix, as a [65536, 8] array. -/
abbrev rowOf (R : FVec Ideal S65536x8x8 .f32) (t : ℕ) (hst : S65536x8x8.Slices ![0, t, 0] S65536x1x8) : FVec Ideal S65536x8 .f32 :=
  shapeCast S65536x8 (extractStridedSlice S65536x1x8 ![0, t, 0] R hst) shapeCasts_S65536x1x8_S65536x8

/-- A per-block number spread along the 8 entries of a row. -/
abbrev spread (v : FVec Ideal S65536 .f32) : FVec Ideal S65536x8 .f32 :=
  broadcastInDim S65536x8 ![0, 1] bcast_S65536x1_S65536x8_0_1 (broadcastInDim S65536x1 ![0] bcast_S65536_S65536x1_0 v)

/-- The row number t as the one-element index vector of a row update. -/
abbrev rowIdx (t : ℕ) : IVec S1 32 := broadcastInDim S1 ![] bcast_S_S1 (constantI S_ 32 (BitVec.ofNat 32 t))

/-- One step of the host program on the stack: rows t and b overwritten by the pair rotated by (cv, sv) of the rows handed in. -/
abbrev stepOf (R : FVec Ideal S65536x8x8 .f32) (cv sv : FVec Ideal S65536 .f32) (rt rb : FVec Ideal S65536x8 .f32) (t b : ℕ) :
    FVec Ideal S65536x8x8 .f32 :=
  Host.scatter scatter_S65536x8x8_S1_S65536x8_01_1_1_0 (fun _ b => b)
    (Host.scatter scatter_S65536x8x8_S1_S65536x8_01_1_1_0 (fun _ b => b) R (rowIdx t)
      (subf (mulf (spread cv) rt) (mulf (spread sv) rb)))
    (rowIdx b) (addf (mulf (spread sv) rt) (mulf (spread cv) rb))

theorem cosSeq_of_lt (a : Fin 28 → EReal) (k : ℕ) (hk : k < 28) : cosSeq a k = Ideal.cos (a ⟨k, hk⟩) := dif_pos hk

theorem sinSeq_of_lt (a : Fin 28 → EReal) (k : ℕ) (hk : k < 28) : sinSeq a k = Ideal.sin (a ⟨k, hk⟩) := dif_pos hk

/-- The cosine of angle column k at block blk is entry k of the block's cosine sequence. -/
theorem cos_col (A : FVec Ideal S65536x28 .f32) (k : ℕ) (hk : k < 28) (hsk : S65536x28.Slices ![0, k] S65536x1)
    (blk : Fin 65536) (j : Fin 8) :
    spread (Host.cos (colOf A k hsk)) (ix2 blk j) = cosSeq (fun q => A (ix2 blk q)) k := by
  refine (bcol_apply _ _ _ blk j).trans ?_
  exact (congrArg Ideal.cos (col_apply k hk A hsk _ blk)).trans (cosSeq_of_lt (fun q => A (ix2 blk q)) k hk).symm

/-- The sine of angle column k at block blk is entry k of the block's sine sequence. -/
theorem sin_col (A : FVec Ideal S65536x28 .f32) (k : ℕ) (hk : k < 28) (hsk : S65536x28.Slices ![0, k] S65536x1)
    (blk : Fin 65536) (j : Fin 8) :
    spread (Host.sin (colOf A k hsk)) (ix2 blk j) = sinSeq (fun q => A (ix2 blk q)) k := by
  refine (bcol_apply _ _ _ blk j).trans ?_
  exact (congrArg Ideal.sin (col_apply k hk A hsk _ blk)).trans (sinSeq_of_lt (fun q => A (ix2 blk q)) k hk).symm

/-- The update pair of step k, whatever arrays hold the two old rows: if they read as rows t and b of the matrix after
    k rotations, the updated stack reads as the matrix after k + 1. -/
theorem step_core (A : FVec Ideal S65536x28 .f32) (k t b : ℕ) (hk : k < 28) (ht : t < 8) (hb : b < 8)
    (hT : pT k = ⟨t, ht⟩) (hB : pB k = ⟨b, hb⟩) (hsk : S65536x28.Slices ![0, k] S65536x1)
    (R : FVec Ideal S65536x8x8 .f32) (hR : IsMat A k R) (rt rb : FVec Ideal S65536x8 .f32)
    (hrt : ∀ (blk : Fin 65536) (j : Fin 8),
      rt (ix2 blk j) = mat (cosSeq fun q => A (ix2 blk q)) (sinSeq fun q => A (ix2 blk q)) k ⟨t, ht⟩ j)
    (hrb : ∀ (blk : Fin 65536) (j : Fin 8),
      rb (ix2 blk j) = mat (cosSeq fun q => A (ix2 blk q)) (sinSeq fun q => A (ix2 blk q)) k ⟨b, hb⟩ j) :
    IsMat A (k + 1) (stepOf R (Host.cos (colOf A k hsk)) (Host.sin (colOf A k hsk)) rt rb t b) := by
  intro blk i j
  refine (step_apply scatter_S65536x8x8_S1_S65536x8_01_1_1_0 rfl rfl rfl rfl R _ _ rt rb t b ht hb _ _
    (fun _ => rfl) (fun _ => rfl) blk i j).trans ?_
  rw [cos_col A k hk hsk blk j, sin_col A k hk hsk blk j, hrt blk j, hrb blk j, hR blk i j]
  show _ = stepR (cosSeq (fun q => A (ix2 blk q)) k) (sinSeq (fun q => A (ix2 blk q)) k) (pT k) (pB k)
    (mat (cosSeq fun q => A (ix2 blk q)) (sinSeq fun q => A (ix2 blk q)) k) i j
  rw [hT, hB]
  unfold stepR
  by_cases h1 : i.val = b
  · rw [if_pos h1, if_pos (Fin.ext h1 : i = ⟨b, hb⟩)]
  · rw [if_neg h1, if_neg (fun e => h1 (congrArg Fin.val e) : ¬ i = ⟨b, hb⟩)]
    by_cases h2 : i.val = t
    · rw [if_pos h2, if_pos (Fin.ext h2 : i = ⟨t, ht⟩)]
    · rw [if_neg h2, if_neg (fun e => h2 (congrArg Fin.val e) : ¬ i = ⟨t, ht⟩)]

/-- Step k ≥ 1 of the host program: the two old rows are cut out of the stack itself. -/
theorem step_mat (A : FVec Ideal S65536x28 .f32) (k t b : ℕ) (hk : k < 28) (ht : t < 8) (hb : b < 8)
    (hT : pT k = ⟨t, ht⟩) (hB : pB k = ⟨b, hb⟩) (hsk : S65536x28.Slices ![0, k] S65536x1)
    (hst : S65536x8x8.Slices ![0, t, 0] S65536x1x8) (hsb : S65536x8x8.Slices ![0, b, 0] S65536x1x8)
    (R : FVec Ideal S65536x8x8 .f32) (hR : IsMat A k R) :
    IsMat A (k + 1) (stepOf R (Host.cos (colOf A k hsk)) (Host.sin (colOf A k hsk)) (rowOf R t hst) (rowOf R b hsb) t b) :=
  step_core A k t b hk ht hb hT hB hsk R hR _ _
    (fun blk j => (row_apply t ht R hst _ blk j).trans (hR blk ⟨t, ht⟩ j))
    (fun blk j => (row_apply b hb R hsb _ blk j).trans (hR blk ⟨b, hb⟩ j))

/-- The 8×8 identity as the host program computes it. -/
abbrev eye : FVec Ideal S8x8 .f32 :=
  uitofp .f32 (cmpi .eq (addi (iotaInDim S8x8 32 0) (broadcastInDim S8x8 ![] bcast_S_S8x8 (constantI S_ 32 0#32))) (iotaInDim S8x8 32 1))

/-- Row t of the identity, repeated for every block. -/
abbrev eyeRow (t : ℕ) (hs : S8x8.Slices ![t, 0] S1x8) : FVec Ideal S65536x8 .f32 :=
  broadcastInDim S65536x8 ![0, 1] bcast_S1x8_S65536x8_0_1 (broadcastInDim S1x8 ![1] bcast_S8_S1x8_1
    (shapeCast S8 (extractStridedSlice S1x8 ![t, 0] eye hs) shapeCasts_S1x8_S8))

/-- The identity repeated for every block: the stack before any rotation. -/
abbrev eyeStack : FVec Ideal S65536x8x8 .f32 := broadcastInDim S65536x8x8 ![1, 2] bcast_S8x8_S65536x8x8_1_2 eye

theorem eyeStack_isMat (A : FVec Ideal S65536x28 .f32) : IsMat A 0 eyeStack := fun blk i j =>
  (bstack_apply (by norm_num) (by norm_num) eye _ blk i j).trans (eye_apply _ i j)

/-- Step 0 of the host program: the two old rows are rows 0 and 1 of the identity. -/
theorem step0_mat (A : FVec Ideal S65536x28 .f32) (hsk : S65536x28.Slices ![0, 0] S65536x1)
    (hs0 : S8x8.Slices ![0, 0] S1x8) (hs1 : S8x8.Slices ![1, 0] S1x8) :
    IsMat A 1 (stepOf eyeStack (Host.cos (colOf A 0 hsk)) (Host.sin (colOf A 0 hsk)) (eyeRow 0 hs0) (eyeRow 1 hs1) 0 1) :=
  step_core A 0 0 1 (by norm_num) (by norm_num) (by norm_num) rfl rfl hsk eyeStack (eyeStack_isMat A) _ _
    (fun blk j => (brow_apply (by norm_num) 0 (by norm_num) eye hs0 _ _ _ blk j).trans (eye_apply _ _ j))
    (fun blk j => (brow_apply (by norm_num) 1 (by norm_num) eye hs1 _ _ _ blk j).trans (eye_apply _ _ j))

end Cert.RefMat

end
-- ==== Proof.RefMat.lean ====
/-
  The reference's matrix stack, entry by entry.

  The host program starts every block's 8×8 matrix at the identity and, for k = 0, …, 27, overwrites rows t = pT k and
  b = pB k by c_k·R_t − s_k·R_b and s_k·R_t + c_k·R_b (both of the old rows), c_k and s_k the cosine and sine of the
  block's angle k. Read at block `blk`, entry (i, j), the stack after n updates is `mat` of the block's cosines and sines.
-/
import proofs.«126786_j41601053229316_2_alg».proof.Proof.Gen.ReferenceIdeal.Run
import proofs.«126786_j41601053229316_2_alg».proof.Proof.Givens
import proofs.«126786_j41601053229316_2_alg».proof.Proof.LibScatterRow
import proofs.«126786_j41601053229316_2_alg».proof.Proof.RefMatStep
import Idealize.ShloMosaic.Lib.ValueIdx
import Idealize.ShloMosaic.Lib.Pipeline.Value
import Idealize.ShloMosaic.Lib.ValueLayout

noncomputable section

namespace Cert.RefMat

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.Givens

/-- The 28 angles of block `blk`. -/
def ang (V0 : Valuation τ sig (Elt Ideal)) (blk : Fin 65536) : Fin 28 → EReal :=
  fun k => (V0 (Proc.devRef .tc main_arg1) : FVec Ideal S65536x28 .f32) (ix2 blk k)

/-- The matrix stack after all 28 row updates: the generated run's term for it (the last update is not named there). -/
def Rfinal (V0 : Valuation τ sig (Elt Ideal)) : FVec Ideal S65536x8x8 .f32 :=
  Host.scatter scatter_S65536x8x8_S1_S65536x8_01_1_1_0 (fun _ b => b) (Host.scatter scatter_S65536x8x8_S1_S65536x8_01_1_1_0 (fun _ b => b) (res_main_v773 V0) (broadcastInDim S1 ![] bcast_S_S1 (constantI S_ 32 6#32)) (subf (mulf (broadcastInDim S65536x8 ![0, 1] bcast_S65536x1_S65536x8_0_1 (broadcastInDim S65536x1 ![0] bcast_S65536_S65536x1_0 (res_main_v776 V0))) (res_main_v781 V0)) (mulf (broadcastInDim S65536x8 ![0, 1] bcast_S65536x1_S65536x8_0_1 (broadcastInDim S65536x1 ![0] bcast_S65536_S65536x1_0 (res_main_v779 V0))) (res_main_v783 V0)))) (broadcastInDim S1 ![] bcast_S_S1 (constantI S_ 32 7#32)) (addf (mulf (broadcastInDim S65536x8 ![0, 1] bcast_S65536x1_S65536x8_0_1 (broadcastInDim S65536x1 ![0] bcast_S65536_S65536x1_0 (res_main_v779 V0))) (res_main_v781 V0)) (mulf (broadcastInDim S65536x8 ![0, 1] bcast_S65536x1_S65536x8_0_1 (broadcastInDim S65536x1 ![0] bcast_S65536_S65536x1_0 (res_main_v776 V0))) (res_main_v783 V0)))

/-- The angles array at launch. -/
abbrev angs (V0 : Valuation τ sig (Elt Ideal)) : FVec Ideal S65536x28 .f32 := V0 (Proc.devRef .tc main_arg1)

/-! The stack after each of the first 27 updates, in the host program's order of the pairs (t, b). -/

theorem mat_0 (V0 : Valuation τ sig (Elt Ideal)) : IsMat (angs V0) 1 (res_main_v45 V0) :=
  step0_mat (angs V0) slices_S65536x28_S65536x1_0_0 slices_S8x8_S1x8_0_0 slices_S8x8_S1x8_1_0

theorem mat_1 (V0 : Valuation τ sig (Elt Ideal)) : IsMat (angs V0) 2 (res_main_v73 V0) :=
  step_mat (angs V0) 1 0 2 (by decide) (by decide) (by decide) rfl rfl slices_S65536x28_S65536x1_0_1
    slices_S65536x8x8_S65536x1x8_0_0_0 slices_S65536x8x8_S65536x1x8_0_2_0 (res_main_v45 V0) (mat_0 V0)

theorem mat_2 (V0 : Valuation τ sig (Elt Ideal)) : IsMat (angs V0) 3 (res_main_v101 V0) :=
  step_mat (angs V0) 2 0 3 (by decide) (by decide) (by decide) rfl rfl slices_S65536x28_S65536x1_0_2
    slices_S65536x8x8_S65536x1x8_0_0_0 slices_S65536x8x8_S65536x1x8_0_3_0 (res_main_v73 V0) (mat_1 V0)

theorem mat_3 (V0 : Valuation τ sig (Elt Ideal)) : IsMat (angs V0) 4 (res_main_v129 V0) :=
  step_mat (angs V0) 3 0 4 (by decide) (by decide) (by decide) rfl rfl slices_S65536x28_S65536x1_0_3
    slices_S65536x8x8_S65536x1x8_0_0_0 slices_S65536x8x8_S65536x1x8_0_4_0 (res_main_v101 V0) (mat_2 V0)

theorem mat_4 (V0 : Valuation τ sig (Elt Ideal)) : IsMat (angs V0) 5 (res_main_v157 V0) :=
  step_mat (angs V0) 4 0 5 (by decide) (by decide) (by decide) rfl rfl slices_S65536x28_S65536x1_0_4
    slices_S65536x8x8_S65536x1x8_0_0_0 slices_S65536x8x8_S65536x1x8_0_5_0 (res_main_v129 V0) (mat_3 V0)

theorem mat_5 (V0 : Valuation τ sig (Elt Ideal)) : IsMat (angs V0) 6 (res_main_v185 V0) :=
  step_mat (angs V0) 5 0 6 (by decide) (by decide) (by decide) rfl rfl slices_S65536x28_S65536x1_0_5
    slices_S65536x8x8_S65536x1x8_0_0_0 slices_S65536x8x8_S65536x1x8_0_6_0 (res_main_v157 V0) (mat_4 V0)

theorem mat_6 (V0 : Valuation τ sig (Elt Ideal)) : IsMat (angs V0) 7 (res_main_v213 V0) :=
  step_mat (angs V0) 6 0 7 (by decide) (by decide) (by decide) rfl rfl slices_S65536x28_S65536x1_0_6
    slices_S65536x8x8_S65536x1x8_0_0_0 slices_S65536x8x8_S65536x1x8_0_7_0 (res_main_v185 V0) (mat_5 V0)

theorem mat_7 (V0 : Valuation τ sig (Elt Ideal)) : IsMat (angs V0) 8 (res_main_v241 V0) :=
  step_mat (angs V0) 7 1 2 (by decide) (by decide) (by decide) rfl rfl slices_S65536x28_S65536x1_0_7
    slices_S65536x8x8_S65536x1x8_0_1_0 slices_S65536x8x8_S65536x1x8_0_2_0 (res_main_v213 V0) (mat_6 V0)

theorem mat_8 (V0 : Valuation τ sig (Elt Ideal)) : IsMat (angs V0) 9 (res_main_v269 V0) :=
  step_mat (angs V0) 8 1 3 (by decide) (by decide) (by decide) rfl rfl slices_S65536x28_S65536x1_0_8
    slices_S65536x8x8_S65536x1x8_0_1_0 slices_S65536x8x8_S65536x1x8_0_3_0 (res_main_v241 V0) (mat_7 V0)

theorem mat_9 (V0 : Valuation τ sig (Elt Ideal)) : IsMat (angs V0) 10 (res_main_v297 V0) :=
  step_mat (angs V0) 9 1 4 (by decide) (by decide) (by decide) rfl rfl slices_S65536x28_S65536x1_0_9
    slices_S65536x8x8_S65536x1x8_0_1_0 slices_S65536x8x8_S65536x1x8_0_4_0 (res_main_v269 V0) (mat_8 V0)

theorem mat_10 (V0 : Valuation τ sig (Elt Ideal)) : IsMat (angs V0) 11 (res_main_v325 V0) :=
  step_mat (angs V0) 10 1 5 (by decide) (by decide) (by decide) rfl rfl slices_S65536x28_S65536x1_0_10
    slices_S65536x8x8_S65536x1x8_0_1_0 slices_S65536x8x8_S65536x1x8_0_5_0 (res_main_v297 V0) (mat_9 V0)

theorem mat_11 (V0 : Valuation τ sig (Elt Ideal)) : IsMat (angs V0) 12 (res_main_v353 V0) :=
  step_mat (angs V0) 11 1 6 (by decide) (by decide) (by decide) rfl rfl slices_S65536x28_S65536x1_0_11
    slices_S65536x8x8_S65536x1x8_0_1_0 slices_S65536x8x8_S65536x1x8_0_6_0 (res_main_v325 V0) (mat_10 V0)

theorem mat_12 (V0 : Valuation τ sig (Elt Ideal)) : IsMat (angs V0) 13 (res_main_v381 V0) :=
  step_mat (angs V0) 12 1 7 (by decide) (by decide) (by decide) rfl rfl slices_S65536x28_S65536x1_0_12
    slices_S65536x8x8_S65536x1x8_0_1_0 slices_S65536x8x8_S65536x1x8_0_7_0 (res_main_v353 V0) (mat_11 V0)

theorem mat_13 (V0 : Valuation τ sig (Elt Ideal)) : IsMat (angs V0) 14 (res_main_v409 V0) :=
  step_mat (angs V0) 13 2 3 (by decide) (by decide) (by decide) rfl rfl slices_S65536x28_S65536x1_0_13
    slices_S65536x8x8_S65536x1x8_0_2_0 slices_S65536x8x8_S65536x1x8_0_3_0 (res_main_v381 V0) (mat_12 V0)

theorem mat_14 (V0 : Valuation τ sig (Elt Ideal)) : IsMat (angs V0) 15 (res_main_v437 V0) :=
  step_mat (angs V0) 14 2 4 (by decide) (by decide) (by decide) rfl rfl slices_S65536x28_S65536x1_0_14
    slices_S65536x8x8_S65536x1x8_0_2_0 slices_S65536x8x8_S65536x1x8_0_4_0 (res_main_v409 V0) (mat_13 V0)

theorem mat_15 (V0 : Valuation τ sig (Elt Ideal)) : IsMat (angs V0) 16 (res_main_v465 V0) :=
  step_mat (angs V0) 15 2 5 (by decide) (by decide) (by decide) rfl rfl slices_S65536x28_S65536x1_0_15
    slices_S65536x8x8_S65536x1x8_0_2_0 slices_S65536x8x8_S65536x1x8_0_5_0 (res_main_v437 V0) (mat_14 V0)

theorem mat_16 (V0 : Valuation τ sig (Elt Ideal)) : IsMat (angs V0) 17 (res_main_v493 V0) :=
  step_mat (angs V0) 16 2 6 (by decide) (by decide) (by decide) rfl rfl slices_S65536x28_S65536x1_0_16
    slices_S65536x8x8_S65536x1x8_0_2_0 slices_S65536x8x8_S65536x1x8_0_6_0 (res_main_v465 V0) (mat_15 V0)

theorem mat_17 (V0 : Valuation τ sig (Elt Ideal)) : IsMat (angs V0) 18 (res_main_v521 V0) :=
  step_mat (angs V0) 17 2 7 (by decide) (by decide) (by decide) rfl rfl slices_S65536x28_S65536x1_0_17
    slices_S65536x8x8_S65536x1x8_0_2_0 slices_S65536x8x8_S65536x1x8_0_7_0 (res_main_v493 V0) (mat_16 V0)

theorem mat_18 (V0 : Valuation τ sig (Elt Ideal)) : IsMat (angs V0) 19 (res_main_v549 V0) :=
  step_mat (angs V0) 18 3 4 (by decide) (by decide) (by decide) rfl rfl slices_S65536x28_S65536x1_0_18
    slices_S65536x8x8_S65536x1x8_0_3_0 slices_S65536x8x8_S65536x1x8_0_4_0 (res_main_v521 V0) (mat_17 V0)

theorem mat_19 (V0 : Valuation τ sig (Elt Ideal)) : IsMat (angs V0) 20 (res_main_v577 V0) :=
  step_mat (angs V0) 19 3 5 (by decide) (by decide) (by decide) rfl rfl slices_S65536x28_S65536x1_0_19
    slices_S65536x8x8_S65536x1x8_0_3_0 slices_S65536x8x8_S65536x1x8_0_5_0 (res_main_v549 V0) (mat_18 V0)

theorem mat_20 (V0 : Valuation τ sig (Elt Ideal)) : IsMat (angs V0) 21 (res_main_v605 V0) :=
  step_mat (angs V0) 20 3 6 (by decide) (by decide) (by decide) rfl rfl slices_S65536x28_S65536x1_0_20
    slices_S65536x8x8_S65536x1x8_0_3_0 slices_S65536x8x8_S65536x1x8_0_6_0 (res_main_v577 V0) (mat_19 V0)

theorem mat_21 (V0 : Valuation τ sig (Elt Ideal)) : IsMat (angs V0) 22 (res_main_v633 V0) :=
  step_mat (angs V0) 21 3 7 (by decide) (by decide) (by decide) rfl rfl slices_S65536x28_S65536x1_0_21
    slices_S65536x8x8_S65536x1x8_0_3_0 slices_S65536x8x8_S65536x1x8_0_7_0 (res_main_v605 V0) (mat_20 V0)

theorem mat_22 (V0 : Valuation τ sig (Elt Ideal)) : IsMat (angs V0) 23 (res_main_v661 V0) :=
  step_mat (angs V0) 22 4 5 (by decide) (by decide) (by decide) rfl rfl slices_S65536x28_S65536x1_0_22
    slices_S65536x8x8_S65536x1x8_0_4_0 slices_S65536x8x8_S65536x1x8_0_5_0 (res_main_v633 V0) (mat_21 V0)

theorem mat_23 (V0 : Valuation τ sig (Elt Ideal)) : IsMat (angs V0) 24 (res_main_v689 V0) :=
  step_mat (angs V0) 23 4 6 (by decide) (by decide) (by decide) rfl rfl slices_S65536x28_S65536x1_0_23
    slices_S65536x8x8_S65536x1x8_0_4_0 slices_S65536x8x8_S65536x1x8_0_6_0 (res_main_v661 V0) (mat_22 V0)

theorem mat_24 (V0 : Valuation τ sig (Elt Ideal)) : IsMat (angs V0) 25 (res_main_v717 V0) :=
  step_mat (angs V0) 24 4 7 (by decide) (by decide) (by decide) rfl rfl slices_S65536x28_S65536x1_0_24
    slices_S65536x8x8_S65536x1x8_0_4_0 slices_S65536x8x8_S65536x1x8_0_7_0 (res_main_v689 V0) (mat_23 V0)

theorem mat_25 (V0 : Valuation τ sig (Elt Ideal)) : IsMat (angs V0) 26 (res_main_v745 V0) :=
  step_mat (angs V0) 25 5 6 (by decide) (by decide) (by decide) rfl rfl slices_S65536x28_S65536x1_0_25
    slices_S65536x8x8_S65536x1x8_0_5_0 slices_S65536x8x8_S65536x1x8_0_6_0 (res_main_v717 V0) (mat_24 V0)

theorem mat_26 (V0 : Valuation τ sig (Elt Ideal)) : IsMat (angs V0) 27 (res_main_v773 V0) :=
  step_mat (angs V0) 26 5 7 (by decide) (by decide) (by decide) rfl rfl slices_S65536x28_S65536x1_0_26
    slices_S65536x8x8_S65536x1x8_0_5_0 slices_S65536x8x8_S65536x1x8_0_7_0 (res_main_v745 V0) (mat_25 V0)

/-- The last update (rows 6 and 7), which the generated run does not name. -/
theorem mat_27 (V0 : Valuation τ sig (Elt Ideal)) : IsMat (angs V0) 28 (Rfinal V0) :=
  step_mat (angs V0) 27 6 7 (by decide) (by decide) (by decide) rfl rfl slices_S65536x28_S65536x1_0_27
    slices_S65536x8x8_S65536x1x8_0_6_0 slices_S65536x8x8_S65536x1x8_0_7_0 (res_main_v773 V0) (mat_26 V0)

/-- Entry (i, j) of block `blk`'s finished matrix is `mat` after 28 rotations by the block's angles. -/
theorem Rfinal_apply (V0 : Valuation τ sig (Elt Ideal)) (blk : Fin 65536) (i j : Fin 8) :
    Rfinal V0 (ix3 blk i j) = mat (cosSeq (ang V0 blk)) (sinSeq (ang V0 blk)) 28 i j :=
  mat_27 V0 blk i j

end Cert.RefMat

end
-- ==== Proof.GivensAlg.lean ====
/-
  The two ways of computing Rᵀ·x agree on real data.

  With R = diag(mu)·G_{27}⋯G_0 built row by row, (Rᵀx)_i = Σ_j mu_j·R'_{ji}·x_j where R' = G_{27}⋯G_0. By induction on
  the number n of rotations, for every vector w: Σ_j (G_{n-1}⋯G_0)_{ji}·w_j = (G_0ᵀ⋯G_{n-1}ᵀ w)_i — the step is
  (G·R')ᵀ w = R'ᵀ (Gᵀ w), which for a planar rotation touches only the two coordinates of its pair. All of it holds in ℝ;
  on the extended reals it needs every entry to be a real number, since distributing a product over a sum fails at the
  infinities.

  The algebra is therefore done over ℝ: `Alg.matr` and `Alg.cascr` are the real counterparts of `mat` and `casc`, on real
  data the extended-real objects are their coercions (`Alg.mat_coe`, `Alg.casc_coe`), and the identity
  Σ_j matr n j i · w j = cascr n w i (`Alg.sum_matr_mul`) is carried back through the coercion of a finite sum.
-/
import proofs.«126786_j41601053229316_2_alg».proof.Proof.Givens

noncomputable section

namespace Cert.Givens

open Idealize.ShloMosaic

/-- The cosines of real angles are real. -/
theorem cosSeq_real (a : Fin 28 → EReal) (ha : ∀ k, ∃ r : ℝ, a k = (r : EReal)) (k : ℕ) : ∃ r : ℝ, cosSeq a k = (r : EReal) := by
  unfold cosSeq
  split_ifs with h
  · obtain ⟨r, hr⟩ := ha ⟨k, h⟩
    exact ⟨Real.cos r, by rw [hr, Ideal.cos_coe]⟩
  · exact ⟨0, EReal.coe_zero.symm⟩

/-- The sines of real angles are real. -/
theorem sinSeq_real (a : Fin 28 → EReal) (ha : ∀ k, ∃ r : ℝ, a k = (r : EReal)) (k : ℕ) : ∃ r : ℝ, sinSeq a k = (r : EReal) := by
  unfold sinSeq
  split_ifs with h
  · obtain ⟨r, hr⟩ := ha ⟨k, h⟩
    exact ⟨Real.sin r, by rw [hr, Ideal.sin_coe]⟩
  · exact ⟨0, EReal.coe_zero.symm⟩

namespace Alg

/-- The two coordinates of a pair are different: every listed pair has `t < b`. -/
theorem pT_ne_pB (k : ℕ) : pT k ≠ pB k := by
  unfold pT pB
  generalize Fin.ofNat 28 k = m
  revert m
  decide

/-- `stepT` over the reals. -/
def stepTr (c s : ℝ) (t b : Fin 8) (w : Fin 8 → ℝ) : Fin 8 → ℝ :=
  fun i => if i = t then c * w t + s * w b else if i = b then (0 - s) * w t + c * w b else w i

/-- `stepR` over the reals. -/
def stepRr (c s : ℝ) (t b : Fin 8) (R : Fin 8 → Fin 8 → ℝ) : Fin 8 → Fin 8 → ℝ :=
  fun i j => if i = b then s * R t j + c * R b j else if i = t then c * R t j - s * R b j else R i j

/-- `mat` over the reals. -/
def matr (c s : ℕ → ℝ) : ℕ → Fin 8 → Fin 8 → ℝ
  | 0 => fun i j => if i = j then 1 else 0
  | n + 1 => stepRr (c n) (s n) (pT n) (pB n) (matr c s n)

/-- `casc` over the reals. -/
def cascr (c s : ℕ → ℝ) : ℕ → (Fin 8 → ℝ) → Fin 8 → ℝ
  | 0, w => w
  | n + 1, w => cascr c s n (stepTr (c n) (s n) (pT n) (pB n) w)

/-- On real data `stepT` is the coercion of its real counterpart. -/
theorem stepT_coe (c s : ℝ) (t b : Fin 8) (w : Fin 8 → ℝ) :
    stepT (c : EReal) (s : EReal) t b (fun j => (w j : EReal)) = fun i => ((stepTr c s t b w i : ℝ) : EReal) := by
  funext i
  unfold stepT stepTr
  split_ifs
  · rw [EReal.coe_add, EReal.coe_mul, EReal.coe_mul]
  · rw [EReal.coe_add, EReal.coe_mul, EReal.coe_mul, EReal.coe_sub, EReal.coe_zero]
  · rfl

/-- On real data `stepR` is the coercion of its real counterpart. -/
theorem stepR_coe (c s : ℝ) (t b : Fin 8) (R : Fin 8 → Fin 8 → ℝ) :
    stepR (c : EReal) (s : EReal) t b (fun i j => (R i j : EReal)) = fun i j => ((stepRr c s t b R i j : ℝ) : EReal) := by
  funext i j
  unfold stepR stepRr
  split_ifs
  · rw [EReal.coe_add, EReal.coe_mul, EReal.coe_mul]
  · rw [EReal.coe_sub, EReal.coe_mul, EReal.coe_mul]
  · rfl

/-- The matrix built from real cosines and sines is the coercion of the real matrix. -/
theorem mat_coe (c s : ℕ → ℝ) (n : ℕ) :
    mat (fun k => (c k : EReal)) (fun k => (s k : EReal)) n = fun i j => ((matr c s n i j : ℝ) : EReal) := by
  induction n with
  | zero =>
    funext i j
    simp only [mat, matr]
    split_ifs
    · exact EReal.coe_one.symm
    · exact EReal.coe_zero.symm
  | succ n ih =>
    show stepR ((c n : ℝ) : EReal) ((s n : ℝ) : EReal) (pT n) (pB n) (mat _ _ n) = _
    rw [ih]
    exact stepR_coe _ _ _ _ _

/-- The cascade of a real vector is the coercion of the real cascade. -/
theorem casc_coe (c s : ℕ → ℝ) (n : ℕ) (w : Fin 8 → ℝ) :
    casc (fun k => (c k : EReal)) (fun k => (s k : EReal)) n (fun j => (w j : EReal))
      = fun i => ((cascr c s n w i : ℝ) : EReal) := by
  induction n generalizing w with
  | zero => rfl
  | succ n ih =>
    show casc _ _ n (stepT ((c n : ℝ) : EReal) ((s n : ℝ) : EReal) (pT n) (pB n) fun j => (w j : EReal)) = _
    rw [stepT_coe]
    exact ih _

/-- One rotation moves from the matrix to the vector: `(G·R)ᵀ w = Rᵀ (Gᵀ w)`, column `i`. Only the two coordinates of the
pair differ, and there `(c R_t − s R_b) w_t + (s R_t + c R_b) w_b = R_t (c w_t + s w_b) + R_b ((0 − s) w_t + c w_b)`. -/
theorem step_sum (c s : ℝ) (t b : Fin 8) (htb : t ≠ b) (R : Fin 8 → Fin 8 → ℝ) (w : Fin 8 → ℝ) (i : Fin 8) :
    ∑ j, stepRr c s t b R j i * w j = ∑ j, R j i * stepTr c s t b w j := by
  have hb : b ∈ (Finset.univ : Finset (Fin 8)).erase t := Finset.mem_erase.mpr ⟨htb.symm, Finset.mem_univ _⟩
  rw [← Finset.add_sum_erase _ _ (Finset.mem_univ t), ← Finset.add_sum_erase _ _ hb,
    ← Finset.add_sum_erase _ (fun j => R j i * stepTr c s t b w j) (Finset.mem_univ t),
    ← Finset.add_sum_erase _ (fun j => R j i * stepTr c s t b w j) hb]
  have hrest : ∑ x ∈ ((Finset.univ : Finset (Fin 8)).erase t).erase b, stepRr c s t b R x i * w x
      = ∑ x ∈ ((Finset.univ : Finset (Fin 8)).erase t).erase b, R x i * stepTr c s t b w x := by
    apply Finset.sum_congr rfl
    intro x hx
    have hxb : x ≠ b := (Finset.mem_erase.mp hx).1
    have hxt : x ≠ t := (Finset.mem_erase.mp (Finset.mem_erase.mp hx).2).1
    simp only [stepRr, stepTr, if_neg hxb, if_neg hxt]
  rw [hrest]
  simp only [stepRr, stepTr, if_neg htb, if_neg htb.symm, eq_self_iff_true, if_true]
  ring

/-- Contracting the first `n` rotations' matrix with `w` is applying the transposed rotations to `w`. -/
theorem sum_matr_mul (c s : ℕ → ℝ) (n : ℕ) (w : Fin 8 → ℝ) (i : Fin 8) :
    ∑ j, matr c s n j i * w j = cascr c s n w i := by
  induction n generalizing w with
  | zero =>
    simp only [matr, cascr, ite_mul, one_mul, zero_mul]
    rw [Finset.sum_ite_eq' Finset.univ i w, if_pos (Finset.mem_univ i)]
  | succ n ih =>
    show ∑ j, stepRr (c n) (s n) (pT n) (pB n) (matr c s n) j i * w j = cascr c s n (stepTr (c n) (s n) (pT n) (pB n) w) i
    rw [step_sum _ _ _ _ (pT_ne_pB n)]
    exact ih _

/-- The coercion of a finite sum of reals is the sum of the coercions. -/
theorem coe_finset_sum {ι : Type} (S : Finset ι) (f : ι → ℝ) : ((∑ j ∈ S, f j : ℝ) : EReal) = ∑ j ∈ S, (f j : EReal) := by
  classical
  refine Finset.induction_on S ?_ ?_
  · simp
  · intro a S ha ih
    rw [Finset.sum_insert ha, Finset.sum_insert ha, EReal.coe_add, ih]

end Alg

open Alg in
/-- Contracting the built matrix with `x` is scaling `x` and rotating it, when every entry is real. -/
theorem applied_eq_rotated (c s : ℕ → EReal) (mu x : Fin 8 → EReal)
    (hc : ∀ k, ∃ r : ℝ, c k = (r : EReal)) (hs : ∀ k, ∃ r : ℝ, s k = (r : EReal))
    (hmu : ∀ j, ∃ r : ℝ, mu j = (r : EReal)) (hx : ∀ j, ∃ r : ℝ, x j = (r : EReal)) (i : Fin 8) :
    applied c s mu x i = rotated c s mu x i := by
  choose cr hcr using hc
  choose sr hsr using hs
  choose mr hmr using hmu
  choose xr hxr using hx
  obtain rfl : c = fun k => (cr k : EReal) := funext hcr
  obtain rfl : s = fun k => (sr k : EReal) := funext hsr
  obtain rfl : mu = fun j => (mr j : EReal) := funext hmr
  obtain rfl : x = fun j => (xr j : EReal) := funext hxr
  have hv : (fun j => (mr j : EReal) * (xr j : EReal)) = fun j => ((mr j * xr j : ℝ) : EReal) := by
    funext j
    rw [EReal.coe_mul]
  simp only [applied, rotated]
  rw [mat_coe, hv, casc_coe]
  show _ = ((cascr cr sr 28 (fun j => mr j * xr j) i : ℝ) : EReal)
  rw [← sum_matr_mul, coe_finset_sum]
  apply Finset.sum_congr rfl
  intro j _
  show (mr j : EReal) * ((matr cr sr 28 j i : ℝ) : EReal) * (xr j : EReal) = _
  rw [← EReal.coe_mul, ← EReal.coe_mul]
  congr 1
  ring

end Cert.Givens

end
-- ==== Proof.RefTail.lean ====
/-
  The reference's result array, entry by entry.

  The input [64, 256, 256, 16] is transposed and reshaped to one [16, 64] slab per spatial block (channel × sample).
  Channels 0–7 pass through; channels 8–15 are contracted with diag(mu)·R: entry (i, n) is Σ_j (mu_j·R_{ji})·Y_{8+j,n}.
  The two halves are joined along the channel axis and the layout is undone. So the result at (n, r, q, ch) is the input's
  own entry for ch < 8 and `applied` of the block's cosines, sines and sign factors to the sample's upper channels beyond.
  On real data that is `rotated`, i.e. the whole array is `G`.
-/
import proofs.«126786_j41601053229316_2_alg».proof.Proof.RefMat
import proofs.«126786_j41601053229316_2_alg».proof.Proof.GivensAlg
import Idealize.ShloMosaic.PureOps.Ideal.Laws
import Idealize.ShloMosaic.Lib.ValueIdx
import Idealize.ShloMosaic.Lib.Pipeline.Value
import Idealize.ShloMosaic.Lib.ValueLayout

noncomputable section

namespace Cert.RefTail

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx Cert.Givens Cert.RefMat

section Layout
variable {α : Type}

/-- The input transposed to [256, 256, 16, 64] and reshaped to [65536, 16, 64], read at block `r·256 + q`, channel `ch`,
    sample `n`, is the input at `(n, r, q, ch)`: the two row-major positions agree. -/
theorem reshapeIn_apply (X : (⟨4, ![64, 256, 256, 16]⟩ : Shape).Idx → α)
    (hT : (⟨4, ![64, 256, 256, 16]⟩ : Shape).Transposes [1, 2, 3, 0] ⟨4, ![256, 256, 16, 64]⟩)
    (hC : (⟨4, ![256, 256, 16, 64]⟩ : Shape).ShapeCasts ⟨3, ![65536, 16, 64]⟩)
    (n : Fin 64) (r q : Fin 256) (ch : Fin 16) (b : Fin 65536) (hb : b.val = r.val * 256 + q.val) :
    shapeCast ⟨3, ![65536, 16, 64]⟩ (transpose ⟨4, ![256, 256, 16, 64]⟩ [1, 2, 3, 0] X hT) hC (ix3 b ch n) = X (ix4 n r q ch) := by
  refine (shapeCast_apply _ hC (ix3 b ch n) (ix4 r q ch n) ?_).trans ?_
  · rw [Shape.rowMajor_val_four, Shape.rowMajor_val_three]
    show ((r.val * 256 + q.val) * 16 + ch.val) * 64 + n.val = (b.val * 16 + ch.val) * 64 + n.val
    rw [hb]
  · exact transpose_apply [1, 2, 3, 0] X hT (ix4 r q ch n) (ix4 n r q ch)
      (fun a => match a with | ⟨0, _⟩ => rfl | ⟨1, _⟩ => rfl | ⟨2, _⟩ => rfl | ⟨3, _⟩ => rfl)

/-- A [65536, 16, 64] array reshaped to [256, 256, 16, 64] and transposed to [64, 256, 256, 16], read at `(n, r, q, ch)`, is
    the array at block `r·256 + q`, channel `ch`, sample `n`. -/
theorem reshapeOut_apply (Z : (⟨3, ![65536, 16, 64]⟩ : Shape).Idx → α)
    (hC : (⟨3, ![65536, 16, 64]⟩ : Shape).ShapeCasts ⟨4, ![256, 256, 16, 64]⟩)
    (hT : (⟨4, ![256, 256, 16, 64]⟩ : Shape).Transposes [3, 0, 1, 2] ⟨4, ![64, 256, 256, 16]⟩)
    (n : Fin 64) (r q : Fin 256) (ch : Fin 16) (b : Fin 65536) (hb : b.val = r.val * 256 + q.val) :
    transpose ⟨4, ![64, 256, 256, 16]⟩ [3, 0, 1, 2] (shapeCast ⟨4, ![256, 256, 16, 64]⟩ Z hC) hT (ix4 n r q ch) = Z (ix3 b ch n) := by
  refine (transpose_apply [3, 0, 1, 2] _ hT (ix4 n r q ch) (ix4 r q ch n)
      (fun a => match a with | ⟨0, _⟩ => rfl | ⟨1, _⟩ => rfl | ⟨2, _⟩ => rfl | ⟨3, _⟩ => rfl)).trans ?_
  refine shapeCast_apply Z hC (ix4 r q ch n) (ix3 b ch n) ?_
  rw [Shape.rowMajor_val_four, Shape.rowMajor_val_three]
  show (b.val * 16 + ch.val) * 64 + n.val = ((r.val * 256 + q.val) * 16 + ch.val) * 64 + n.val
  rw [hb]

/-- Two [65536, 8, 64] halves joined along the channel axis, read at a channel below 8: the first half. -/
theorem concat_lo (Zs Za : (⟨3, ![65536, 8, 64]⟩ : Shape).Idx → α)
    (h : Shape.Concatenates [⟨3, ![65536, 8, 64]⟩, ⟨3, ![65536, 8, 64]⟩] ⟨3, ![65536, 16, 64]⟩ 1)
    (b : Fin 65536) (ch : Fin 16) (n : Fin 64) (c : Fin 8) (hc : c.val = ch.val) :
    concatenate ⟨3, ![65536, 16, 64]⟩ 1 [⟨⟨3, ![65536, 8, 64]⟩, Zs⟩, ⟨⟨3, ![65536, 8, 64]⟩, Za⟩] h (ix3 b ch n) = Zs (ix3 b c n) :=
  concatenate_pair_apply_left 1 Zs Za h (ix3 b ch n) rfl (ix3 b c n)
    (fun a => match a with | ⟨0, _⟩ => rfl | ⟨1, _⟩ => hc | ⟨2, _⟩ => rfl)

/-- The same at a channel from 8 on: the second half, eight channels down. -/
theorem concat_hi (Zs Za : (⟨3, ![65536, 8, 64]⟩ : Shape).Idx → α)
    (h : Shape.Concatenates [⟨3, ![65536, 8, 64]⟩, ⟨3, ![65536, 8, 64]⟩] ⟨3, ![65536, 16, 64]⟩ 1)
    (b : Fin 65536) (ch : Fin 16) (n : Fin 64) (c : Fin 8) (hc : c.val + 8 = ch.val) :
    concatenate ⟨3, ![65536, 16, 64]⟩ 1 [⟨⟨3, ![65536, 8, 64]⟩, Zs⟩, ⟨⟨3, ![65536, 8, 64]⟩, Za⟩] h (ix3 b ch n) = Za (ix3 b c n) :=
  concatenate_pair_apply_right 1 Zs Za h (ix3 b ch n) rfl rfl (ix3 b c n)
    (fun a hne => match a, hne with | ⟨0, _⟩, _ => rfl | ⟨1, _⟩, hne => absurd rfl hne | ⟨2, _⟩, _ => rfl) hc

/-- The sign factors broadcast along the matrix's column axis, read at `(b, j, i)`: factor `j` of block `b`. -/
theorem bmu_apply (M : (⟨2, ![65536, 8]⟩ : Shape).Idx → α)
    (h1 : (⟨2, ![65536, 8]⟩ : Shape).BroadcastsInDim ⟨3, ![65536, 8, 1]⟩ (![0, 1] : Fin 2 → Fin (⟨3, ![65536, 8, 1]⟩ : Shape).rank))
    (h2 : (⟨3, ![65536, 8, 1]⟩ : Shape).BroadcastsInDim ⟨3, ![65536, 8, 8]⟩ (![0, 1, 2] : Fin 3 → Fin (⟨3, ![65536, 8, 8]⟩ : Shape).rank))
    (b : Fin 65536) (j i : Fin 8) :
    broadcastInDim ⟨3, ![65536, 8, 8]⟩ ![0, 1, 2] h2 (broadcastInDim ⟨3, ![65536, 8, 1]⟩ ![0, 1] h1 M) (ix3 b j i) = M (ix2 b j) :=
  (broadcastInDim_apply ![0, 1, 2] h2 _ (ix3 b j i) (ix3 b j (0 : Fin 1))
      (fun a => match a with | ⟨0, _⟩ => rfl | ⟨1, _⟩ => rfl | ⟨2, _⟩ => rfl)).trans
    (broadcastInDim_apply ![0, 1] h1 M (ix3 b j (0 : Fin 1)) (ix2 b j) (fun a => match a with | ⟨0, _⟩ => rfl | ⟨1, _⟩ => rfl))

end Layout

/-- The product of two stacks contracted over their MIDDLE axes — `dot_general` over [G, k, m] and [G, k, n] with batch
    axes 0 and 0 and contracting axes 1 and 1 — read at an index: the sum over the contracted coordinate. -/
theorem dotGeneral_stackT_apply {G m n k : Nat} {φ₁ φ₂ : FTy}
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ix3 g a b)
      = ∑ c : Fin k, A (ix3 g c a) * B (ix3 g c b) := by
  show FloatOps.dotGeneral _ prec _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- The reference's result: the generated run's term, with the finished matrix stack named. -/
def refOut (V0 : Valuation τ sig (Elt Ideal)) : FVec Ideal S64x256x256x16 .f32 :=
  transpose S64x256x256x16 [3, 0, 1, 2] (shapeCast _ (concatenate S65536x16x64 1 [⟨S65536x8x64, (extractStridedSlice S65536x8x64 ![0, 0, 0] (res_main_v1 V0) slices_S65536x16x64_S65536x8x64_0_0_0)⟩, ⟨S65536x8x64, (Host.dotGeneral (φ₂ := .f32) dot_S65536x8x8_S65536x8x64_S65536x8x64_1_1_2_2_0_0 none (mulf (broadcastInDim S65536x8x8 ![0, 1, 2] bcast_S65536x8x1_S65536x8x8_0_1_2 (broadcastInDim S65536x8x1 ![0, 1] bcast_S65536x8_S65536x8x1_0_1 (V0 (Proc.devRef .tc main_arg2)))) (Rfinal V0)) (extractStridedSlice S65536x8x64 ![0, 8, 0] (res_main_v1 V0) slices_S65536x16x64_S65536x8x64_0_8_0))⟩] concatenates_S65536x8x64_S65536x8x64_S65536x16x64_d1) shapeCasts_S65536x16x64_S256x256x16x64) transposes_S256x256x16x64_S64x256x256x16_3_0_1_2

/-- The result at sample `n`, block `(r, q)`, channel `ch`. -/
theorem refOut_apply (V0 : Valuation τ sig (Elt Ideal)) (n : Fin 64) (r q : Fin 256) (ch : Fin 16) :
    refOut V0 (ix4 n r q ch) =
      if h : ch.val < 8 then (V0 (Proc.devRef .tc main_arg0) : FVec Ideal S64x256x256x16 .f32) (ix4 n r q ch)
      else applied (cosSeq (ang V0 (blkOf r q))) (sinSeq (ang V0 (blkOf r q)))
        (fun j => (V0 (Proc.devRef .tc main_arg2) : FVec Ideal S65536x8 .f32) (ix2 (blkOf r q) j))
        (fun j => (V0 (Proc.devRef .tc main_arg0) : FVec Ideal S64x256x256x16 .f32) (ix4 n r q (hi j))) ⟨ch.val - 8, by omega⟩ := by
  have hb : (blkOf r q).val = r.val * 256 + q.val := rfl
  have hY : ∀ c : Fin 16, res_main_v1 V0 (ix3 (blkOf r q) c n)
      = (V0 (Proc.devRef .tc main_arg0) : FVec Ideal S64x256x256x16 .f32) (ix4 n r q c) := fun c =>
    reshapeIn_apply (V0 (Proc.devRef .tc main_arg0) : FVec Ideal S64x256x256x16 .f32) _ _ n r q c (blkOf r q) hb
  unfold refOut
  refine (reshapeOut_apply _ _ _ n r q ch (blkOf r q) hb).trans ?_
  by_cases h : ch.val < 8
  · rw [dif_pos h]
    refine (concat_lo _ _ _ (blkOf r q) ch n ⟨ch.val, h⟩ rfl).trans ?_
    refine (slice3_axis1_apply 0 _ _ (blkOf r q) ⟨ch.val, h⟩ n ch (Nat.zero_add _).symm).trans ?_
    exact hY ch
  · rw [dif_neg h]
    have h8 : ch.val - 8 < 8 := by have := ch.isLt; omega
    refine (concat_hi _ _ _ (blkOf r q) ch n ⟨ch.val - 8, h8⟩ (by show ch.val - 8 + 8 = ch.val; omega)).trans ?_
    refine (dotGeneral_stackT_apply _ none _ _ (blkOf r q) ⟨ch.val - 8, h8⟩ n).trans ?_
    simp only [applied]
    refine Finset.sum_congr rfl fun j _ => ?_
    rw [mulf_apply, bmu_apply, Rfinal_apply]
    congr 1
    refine (slice3_axis1_apply 8 _ _ (blkOf r q) j n (hi j) rfl).trans ?_
    exact hY (hi j)

/-- On real inputs the reference's result is the array `G` of the inputs. -/
theorem refOut_eq_G (V0 : Valuation τ sig (Elt Ideal))
    (hX : ∀ y, ∃ x : ℝ, (V0 (Proc.devRef .tc main_arg0) : FVec Ideal S64x256x256x16 .f32) y = (x : EReal))
    (hA : ∀ y, ∃ x : ℝ, (V0 (Proc.devRef .tc main_arg1) : FVec Ideal S65536x28 .f32) y = (x : EReal))
    (hM : ∀ y, ∃ x : ℝ, (V0 (Proc.devRef .tc main_arg2) : FVec Ideal S65536x8 .f32) y = (x : EReal)) :
    refOut V0 = G (V0 (Proc.devRef .tc main_arg0) : FVec Ideal S64x256x256x16 .f32)
      (V0 (Proc.devRef .tc main_arg1) : FVec Ideal S65536x28 .f32) (V0 (Proc.devRef .tc main_arg2) : FVec Ideal S65536x8 .f32) := by
  funext y
  obtain ⟨n, r, q, ch, rfl⟩ : ∃ n r q ch, y = ix4 n r q ch := ⟨y 0, y 1, y 2, y 3, eq_ix4 y⟩
  rw [refOut_apply, G_ix4]
  unfold Gat
  by_cases h : ch.val < 8
  · rw [dif_pos h, dif_pos h]
  · rw [dif_neg h, dif_neg h]
    exact applied_eq_rotated _ _ _ _ (cosSeq_real _ (fun k => hA _)) (sinSeq_real _ (fun k => hA _))
      (fun j => hM _) (fun j => hX _) _

end Cert.RefTail

end
-- ==== Proof.Finite.lean ====
/-
  The precondition says every input entry is a real number.

  `finite_inputs` is the conjunction, over the three input arrays, of "every entry's absolute value is below +∞". On the
  extended reals |x| < +∞ excludes exactly the two infinities, so each entry is the coercion of a real.
-/
import proofs.«126786_j41601053229316_2_alg».proof.Pre_finite_inputs
import proofs.«126786_j41601053229316_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs Cert.Pre_finite_inputs.Gen

/-- A shape of rank 0 has one index. -/
instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value is below `+∞` is a real number: `|⊥| = |⊤| = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- An entry of the comparison `|V| < +∞` that is 1 says that entry of `V` is a real number. -/
theorem real_of_entry {S : Shape} (V : FVec Ideal S .f32) (hb : S_.BroadcastsInDim S (![] : Fin 0 → Fin S.rank)) (y : S.Idx)
    (h : cmpf .olt (Host.absf V) (broadcastInDim S ![] hb (constant (F := Ideal) S_ .f32 0x7F800000#32)) y = 1#1) :
    ∃ r : ℝ, V y = (r : EReal) := by
  apply real_of_abs_lt_top
  have h' : Ideal.cmp .olt (max (V y) (-(V y))) (Ideal.ofBits .f32 0x7F800000#32) = 1#1 := h
  rw [ofBits_inf] at h'
  by_contra hlt
  have h0 : Ideal.cmp .olt (max (V y) (-(V y))) ⊤ = 0#1 := by
    show BitVec.ofBool (decide (max (V y) (-(V y)) < ⊤)) = 0#1
    rw [decide_eq_false hlt]
    rfl
  rw [h0] at h'
  exact absurd h' (by decide)

/-- Where the precondition evaluates to all ones, every entry of every input is a real number. -/
theorem real_of_pre (X : FVec Ideal S64x256x256x16 .f32) (A : FVec Ideal S65536x28 .f32) (M : FVec Ideal S65536x8 .f32)
    (h : Cert.Pre_finite_inputs.fn (F := Ideal) X A M = fun _ => 1#1) :
    (∀ y, ∃ r : ℝ, X y = (r : EReal)) ∧ (∀ y, ∃ r : ℝ, A y = (r : EReal)) ∧ (∀ y, ∃ r : ℝ, M y = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun y => real_of_entry X _ y (Host.reduce_andi_all _ _ _ _ _ h1 y),
    fun y => real_of_entry A _ y (Host.reduce_andi_all _ _ _ _ _ h2 y),
    fun y => real_of_entry M _ y (Host.reduce_andi_all _ _ _ _ _ h3 y)⟩

end Cert.Finite

end
-- ==== Proof.lean ====
/-
  The certificate: a block-diagonal planar-rotation layer computed two ways.

  The reference builds, for each of the 65536 spatial blocks, the 8×8 matrix R = diag(mu)·G_27⋯G_0 (28 planar rotations
  by the block's angles, row by row) and contracts Rᵀ with the upper 8 of the 16 channels of every sample; the lower 8
  pass through. The kernel never builds R: per block it scales the upper channels by mu and applies the transposed
  rotations G_27ᵀ, …, G_0ᵀ directly, in a loop over the samples. On the extended reals the two agree where every input is
  a real number — (G·R)ᵀw = Rᵀ(Gᵀw) needs products to distribute over sums, which fails at the infinities — and that is
  what the precondition gives. Both programs' result arrays are shown to be ONE function `G` of the three input arrays.
  The frames: the reference's is its run with the result dropped; the two kernel programs' are their frame certificates.
-/
import proofs.«126786_j41601053229316_2_alg».proof.Defs
import proofs.«126786_j41601053229316_2_alg».proof.Proof.Gen.Kernel
import proofs.«126786_j41601053229316_2_alg».proof.Proof.Gen.KernelIdeal
import proofs.«126786_j41601053229316_2_alg».proof.Proof.Gen.ReferenceIdeal
import proofs.«126786_j41601053229316_2_alg».proof.Proof.Gen.Pre_finite_inputs
import proofs.«126786_j41601053229316_2_alg».proof.Proof.Gen.ReferenceIdeal.Run
import proofs.«126786_j41601053229316_2_alg».proof.Proof.FrameBitsP
import proofs.«126786_j41601053229316_2_alg».proof.Proof.FrameIdealP
import proofs.«126786_j41601053229316_2_alg».proof.Proof.KerValue
import proofs.«126786_j41601053229316_2_alg».proof.Proof.RefTail
import proofs.«126786_j41601053229316_2_alg».proof.Proof.Finite
import Idealize.ShloMosaic.Adequacy
import Idealize.ShloMosaic.Init

noncomputable section

namespace Cert.Proof

open Idealize.ShloMosaic Idealize.ShloMosaic.TcCoe Idealize.SL.Sem Cert.Givens

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of the (agreeing, real) input arrays. -/
theorem algebraic : Cert.algebraic_KernelIdeal_ReferenceIdeal := by
  intro m ρ m' ρ' hpre hagree
  refine ⟨fun c => G (Cert.KerValue.X m c) (Cert.KerValue.A m c) (Cert.KerValue.M m c), Cert.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hM⟩ := Cert.Finite.real_of_pre _ _ _ (hpre c)
  have e := Cert.RefTail.refOut_eq_G (StableHlo.launchContents m' c)
    (by intro y; show ∃ x : ℝ, m' ((c.tc : Thread Cert.ReferenceIdeal.nD Cert.ReferenceIdeal.τ).loc Cert.ReferenceIdeal.main_arg0) y = _; rw [(hagree c).1]; exact hX y)
    (by intro y; show ∃ x : ℝ, m' ((c.tc : Thread Cert.ReferenceIdeal.nD Cert.ReferenceIdeal.τ).loc Cert.ReferenceIdeal.main_arg1) y = _; rw [(hagree c).2.1]; exact hA y)
    (by intro y; show ∃ x : ℝ, m' ((c.tc : Thread Cert.ReferenceIdeal.nD Cert.ReferenceIdeal.τ).loc Cert.ReferenceIdeal.main_arg2) y = _; rw [(hagree c).2.2]; exact hM y)
  refine Eq.trans (show _ = Cert.RefTail.refOut (StableHlo.launchContents m' c) from rfl) (e.trans ?_)
  show G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
